-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x6x4096 : Shape := ⟨3, ![8, 6, 4096]⟩
abbrev S_ : Shape := ⟨0, ![]⟩

class Facts : Prop where
  bcast_S_S8x6x4096 : S_.BroadcastsInDim S8x6x4096 (![] : Fin 0 → Fin S8x6x4096.rank)
  reducesTo_S8x6x4096_S_d0_1_2 : S8x6x4096.ReducesTo [0, 1, 2] S_
  h_S_ : 0 < S_.numel

variable [Facts]

def fn {F : FTy → Type} [FloatOps F] (main_arg0 : FVec F S8x6x4096 .f32) (main_arg1 : FVec F S8x6x4096 .f32) : IVec S_ 1 :=
  let main_v0 : FVec F S8x6x4096 .f32 := Host.absf main_arg0
  let main_cst : FVec F S_ .f32 := constant S_ .f32 0x7F800000#32
  let main_v1 : FVec F S8x6x4096 .f32 := broadcastInDim S8x6x4096 ![] bcast_S_S8x6x4096 main_cst
  let main_v2 : IVec S8x6x4096 1 := cmpf .olt main_v0 main_v1
  let main_c : IVec S_ 1 := constantI S_ 1 1#1
  let main_v3 : IVec S_ 1 := (fun x v => Host.reduce IntOp.andi x v reducesTo_S8x6x4096_S_d0_1_2 h_S_) main_v2 main_c
  let main_v4 : FVec F S8x6x4096 .f32 := Host.absf main_arg1
  let main_cst_0 : FVec F S_ .f32 := constant S_ .f32 0x7F800000#32
  let main_v5 : FVec F S8x6x4096 .f32 := broadcastInDim S8x6x4096 ![] bcast_S_S8x6x4096 main_cst_0
  let main_v6 : IVec S8x6x4096 1 := cmpf .olt main_v4 main_v5
  let main_c_1 : IVec S_ 1 := constantI S_ 1 1#1
  let main_v7 : IVec S_ 1 := (fun x v => Host.reduce IntOp.andi x v reducesTo_S8x6x4096_S_d0_1_2 h_S_) main_v6 main_c_1
  let main_v8 : IVec S_ 1 := andi main_v3 main_v7
  main_v8
-- ==== Kernel.lean ====
abbrev S8x6x4096 : Shape := ⟨3, ![8, 6, 4096]⟩
abbrev S8x4096x1 : Shape := ⟨3, ![8, 4096, 1]⟩
abbrev S1x6x1024 : Shape := ⟨3, ![1, 6, 1024]⟩
abbrev S1x1024x1 : Shape := ⟨3, ![1, 1024, 1]⟩
abbrev S1024x1 : Shape := ⟨2, ![1024, 1]⟩
abbrev S6x1024 : Shape := ⟨2, ![6, 1024]⟩
abbrev S3x1024 : Shape := ⟨2, ![3, 1024]⟩
abbrev S1024x3 : Shape := ⟨2, ![1024, 3]⟩
abbrev S1024 : Shape := ⟨1, ![1024]⟩
abbrev S1x1024 : Shape := ⟨2, ![1, 1024]⟩
abbrev S1024x1024 : Shape := ⟨2, ![1024, 1024]⟩
abbrev S8x4096 : Shape := ⟨2, ![8, 4096]⟩
abbrev S_ : Shape := ⟨0, ![]⟩

abbrev nBuf : Space → Nat
  | .hbm => 13
  | .vmem => 22
  | .smem => 0
  | _ => 0

abbrev bufTy : (tb : Table) → Fin (tcTables nBuf tb) → BufTy
  | .hbm, ⟨0, _⟩ => ⟨S8x6x4096, .f32⟩
  | .hbm, ⟨1, _⟩ => ⟨S8x6x4096, .f32⟩
  | .hbm, ⟨2, _⟩ => ⟨S8x4096x1, .f32⟩
  | .hbm, ⟨3, _⟩ => ⟨S8x4096, .f32⟩
  | .hbm, ⟨4, _⟩ => ⟨S8x4096x1, .f32⟩
  | .hbm, ⟨5, _⟩ => ⟨S8x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1x6x1024, .f32⟩
  | .local _ .vmem, ⟨1, _⟩ => ⟨S1x6x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024x1, .f32⟩
  | .local _ .vmem, ⟨9, _⟩ => ⟨S1x1024x1, .f32⟩
  | .local _ .vmem, ⟨10, _⟩ => ⟨S1024x1, .f32⟩
  | .local _ .vmem, ⟨11, _⟩ => ⟨S1x6x1024, .f32⟩
  | .local _ .vmem, ⟨12, _⟩ => ⟨S1x6x1024, .f32⟩
  | .local _ .vmem, ⟨13, _⟩ => ⟨S1x6x1024, .f32⟩
  | .local _ .vmem, ⟨14, _⟩ => ⟨S1x6x1024, .f32⟩
  | .local _ .vmem, ⟨15, _⟩ => ⟨S1x6x1024, .f32⟩
  | .local _ .vmem, ⟨16, _⟩ => ⟨S1x6x1024, .f32⟩
  | .local _ .vmem, ⟨17, _⟩ => ⟨S1x6x1024, .f32⟩
  | .local _ .vmem, ⟨18, _⟩ => ⟨S1x6x1024, .f32⟩
  | .local _ .vmem, ⟨19, _⟩ => ⟨S1x1024x1, .f32⟩
  | .local _ .vmem, ⟨20, _⟩ => ⟨S1x1024x1, .f32⟩
  | .local _ .vmem, ⟨21, _⟩ => ⟨S1024x1, .f32⟩
  | _, _ => ⟨S8x6x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v43 : BitVec 1 := Scalar.cmpi .eq arg2 c3_i32
  let v44 : BitVec 32 := Scalar.extui v43
  let c0_i32_23 : BitVec 32 := 0#32
  let v45 : BitVec 1 := Scalar.cmpi .ne v44 c0_i32_23
  v45

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x6x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v43 : BitVec 1 := Scalar.cmpi .eq arg2 c3_i32
  let v44 : BitVec 32 := Scalar.extui v43
  let c0_i32_23 : BitVec 32 := 0#32
  let v45 : BitVec 1 := Scalar.cmpi .ne v44 c0_i32_23
  v45

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x6x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x6x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x6x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x6x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S1x1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x6x1024_S1x6x1024_0_0_0 : ∀ a, (![0, 0, 0] : Fin 3 → Nat) a + S1x6x1024.size a ≤ S1x6x1024.size a
  h_S1x6x1024 : 0 < S1x6x1024.numel
  shapeCasts_S1x6x1024_S6x1024 : S1x6x1024.ShapeCasts S6x1024
  slices_S6x1024_o0_0_S3x1024 : S6x1024.Slices ![0, 0] S3x1024
  slices_S6x1024_o3_0_S3x1024 : S6x1024.Slices ![3, 0] S3x1024
  transposes_S3x1024_p1_0_S1024x3 : S3x1024.Transposes [1, 0] S1024x3
  reduces_S1024x3_S1024 : S1024x3.Reduces [1] S1024
  shapeCasts_S1024_S1024x1 : S1024.ShapeCasts S1024x1
  reduces_S3x1024_S1024 : S3x1024.Reduces [0] S1024
  shapeCasts_S1024_S1x1024 : S1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  shapeCasts_S8x4096x1_S8x4096 : S8x4096x1.ShapeCasts S8x4096
  reducesTo_S8x4096_S_d0_1 : S8x4096.ReducesTo [0, 1] S_
  h_S_ : 0 < S_.numel
  dot_S1024x3_S3x1024_S1024x1024_1_0_0_1_n_n_wf : DotDims.WF S1024x3 S3x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x6x1024.size a ≤ S8x6x4096.size a
  hwx0_0 : ∀ i : grid0.Coords, EltTy.bits .f32 = 32 ∨ (Rect.block (s := S8x6x4096) S1x6x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x6x1024.size a ≤ S8x6x4096.size a
  hwx0_1 : ∀ i : grid0.Coords, EltTy.bits .f32 = 32 ∨ (Rect.block (s := S8x6x4096) S1x6x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x6x1024.size a ≤ S8x6x4096.size a
  hwx0_2 : ∀ i : grid0.Coords, EltTy.bits .f32 = 32 ∨ (Rect.block (s := S8x6x4096) S1x6x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x6x1024.size a ≤ S8x6x4096.size a
  hwx0_3 : ∀ i : grid0.Coords, EltTy.bits .f32 = 32 ∨ (Rect.block (s := S8x6x4096) S1x6x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1.size a ≤ S8x4096x1.size a
  hwx0_4 : ∀ i : grid0.Coords, EltTy.bits .f32 = 32 ∨ (Rect.block (s := S8x4096x1) S1x1024x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x6x1024.size a ≤ S8x6x4096.size a
  hwx1_0 : ∀ i : grid1.Coords, EltTy.bits .f32 = 32 ∨ (Rect.block (s := S8x6x4096) S1x6x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x6x1024.size a ≤ S8x6x4096.size a
  hwx1_1 : ∀ i : grid1.Coords, EltTy.bits .f32 = 32 ∨ (Rect.block (s := S8x6x4096) S1x6x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x6x1024.size a ≤ S8x6x4096.size a
  hwx1_2 : ∀ i : grid1.Coords, EltTy.bits .f32 = 32 ∨ (Rect.block (s := S8x6x4096) S1x6x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x6x1024.size a ≤ S8x6x4096.size a
  hwx1_3 : ∀ i : grid1.Coords, EltTy.bits .f32 = 32 ∨ (Rect.block (s := S8x6x4096) S1x6x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1.size a ≤ S8x4096x1.size a
  hwx1_4 : ∀ i : grid1.Coords, EltTy.bits .f32 = 32 ∨ (Rect.block (s := S8x4096x1) S1x1024x1.size (cc1_transform_4 i) (hinb1_4 i)).WholeWords (EltTy.packing .f32)

variable [Facts₀]

def dot_S1024x3_S3x1024_S1024x1024_1_0_0_1_n_n : DotDims S1024x3 S3x1024 S1024x1024 where
  lhsContracting := [1]
  rhsContracting := [0]
  lhsNonContracting := [0]
  rhsNonContracting := [1]
  lhsBatch := []
  rhsBatch := []
  wf := dot_S1024x3_S3x1024_S1024x1024_1_0_0_1_n_n_wf

abbrev win0_0 : Pipeline.Window sig grid0 :=
  Pipeline.Window.ofSpec (Memref.whole main_arg0) S1x6x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x6x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x6x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1x6x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg1) S1x6x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x6x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S1x6x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1x6x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x1024x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8x6x4096 : Shape := ⟨3, ![8, 6, 4096]⟩
abbrev S8x4096x6 : Shape := ⟨3, ![8, 4096, 6]⟩
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 43
  | .vmem => 0
  | .smem => 0
  | _ => 0

abbrev bufTy : (tb : Table) → Fin (tcTables nBuf tb) → BufTy
  | .hbm, ⟨0, _⟩ => ⟨S8x6x4096, .f32⟩
  | .hbm, ⟨1, _⟩ => ⟨S8x6x4096, .f32⟩
  | .hbm, ⟨2, _⟩ => ⟨S8x4096x6, .f32⟩
  | .hbm, ⟨3, _⟩ => ⟨S8x4096x6, .f32⟩
  | .hbm, ⟨4, _⟩ => ⟨S8x4096x3, .f32⟩
  | .hbm, ⟨5, _⟩ => ⟨S8x4096x3, .f32⟩
  | .hbm, ⟨6, _⟩ => ⟨S8x4096x3, .f32⟩
  | .hbm, ⟨7, _⟩ => ⟨S8x4096x3, .f32⟩
  | .hbm, ⟨8, _⟩ => ⟨S8x4096x3, .f32⟩
  | .hbm, ⟨9, _⟩ => ⟨S_, .f32⟩
  | .hbm, ⟨10, _⟩ => ⟨S8x4096, .f32⟩
  | .hbm, ⟨11, _⟩ => ⟨S8x4096x3, .f32⟩
  | .hbm, ⟨12, _⟩ => ⟨S_, .f32⟩
  | .hbm, ⟨13, _⟩ => ⟨S8x4096, .f32⟩
  | .hbm, ⟨14, _⟩ => ⟨S8x4096x4096, .f32⟩
  | .hbm, ⟨15, _⟩ => ⟨S8x4096x1, .f32⟩
  | .hbm, ⟨16, _⟩ => ⟨S8x1x4096, .f32⟩
  | .hbm, ⟨17, _⟩ => ⟨S8x4096x4096, .f32⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096x4096, .f32⟩
  | .hbm, ⟨22, _⟩ => ⟨S8x4096x4096, .f32⟩
  | .hbm, ⟨23, _⟩ => ⟨S8x4096x4096, .f32⟩
  | .hbm, ⟨24, _⟩ => ⟨S8x4096x4096, .f32⟩
  | .hbm, ⟨25, _⟩ => ⟨S_, .f32⟩
  | .hbm, ⟨26, _⟩ => ⟨S8x4096x4096, .f32⟩
  | .hbm, ⟨27, _⟩ => ⟨S8x4096x4096, .f32⟩
  | .hbm, ⟨28, _⟩ => ⟨S_, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S_, .f32⟩
  | .hbm, ⟨33, _⟩ => ⟨S8x4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S8x4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S8x6x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_v29 : Ref sig .tc := ⟨.hbm, 40, rfl⟩
abbrev main_cst_8 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  transposes_S8x6x4096_S8x4096x6_0_2_1 : S8x6x4096.Transposes [0, 2, 1] S8x4096x6
  slices_S8x4096x6_S8x4096x3_0_0_0 : S8x4096x6.Slices ![0, 0, 0] S8x4096x3
  slices_S8x4096x6_S8x4096x3_0_0_3 : S8x4096x6.Slices ![0, 0, 3] S8x4096x3
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096_S_d0_1 : S8x4096.ReducesTo [0, 1] S_
  reducesTo_S8x4096x4096_S8x4096_d1 : S8x4096x4096.ReducesTo [1] S8x4096
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Spec.lean ====
/-
  The quantity both programs compute, stated once over the extended reals.

  For two clouds of 4096 points with normals, `a` and `b`, stored channel-major as [8, 6, 4096] arrays (channels 0..2 the
  point, 3..5 the normal), the pairwise cost between column `r` of `(P, N)` and column `v` of `(Q, M)` in batch `n` is

      D P N Q M n r v = (|P_r|² + |Q_v|² − 2 ⟨P_r, Q_v⟩) + κ · (1 − ⟨N_r, M_v⟩)

  with |·|² and ⟨·,·⟩ the three-term sums over the point channels (for P, Q) and over the normal channels (for N, M), and
  the constants 2, 1 and κ the binary32 words the programs spell.  The symmetric chamfer cost is the sum over batches and
  rows of the row minima of `D a b b a`, plus the sum of its column minima, divided by 8.  A column minimum of
  `D a b b a` is a row minimum of `D b a a b` (`D_swap`): addition and multiplication of extended reals commute.
-/
import Idealize.ShloMosaic.PureOps.Ideal
import Idealize.ShloMosaic.Lib.ValueIdx

noncomputable section

open scoped BigOperators

namespace Cert.Spec

open Idealize.ShloMosaic Idealize.ShloMosaic.ValueIdx

/-- The shape of an argument array: batch, channel, point. -/
abbrev SA : Shape := ⟨3, ![8, 6, 4096]⟩

/-- Point channel `c` of the six. -/
abbrev lo (c : Fin 3) : Fin 6 := ⟨c.val, by omega⟩
/-- Normal channel `c` of the six. -/
abbrev hi (c : Fin 3) : Fin 6 := ⟨c.val + 3, by omega⟩

/-- The binary32 words the programs spell, read as extended reals: 2, 1 and the weight of the normal term. -/
def two : EReal := (Ideal.ofBits .f32 0x40000000#32 : Ideal .f32)
def one : EReal := (Ideal.ofBits .f32 0x3F800000#32 : Ideal .f32)
def kap : EReal := (Ideal.ofBits .f32 0x3A83126F#32 : Ideal .f32)

/-- The pairwise cost between column `r` of (points `P`, normals `N`) and column `v` of (points `Q`, normals `M`). -/
def D (P N Q M : SA.Idx → EReal) (n : Fin 8) (r v : Fin 4096) : EReal :=
  (((∑ c : Fin 3, P (ix3 n (lo c) r) * P (ix3 n (lo c) r)) + (∑ c : Fin 3, Q (ix3 n (lo c) v) * Q (ix3 n (lo c) v)))
      - two * (∑ c : Fin 3, P (ix3 n (lo c) r) * Q (ix3 n (lo c) v)))
    + kap * (one - ∑ c : Fin 3, N (ix3 n (hi c) r) * M (ix3 n (hi c) v))

/-- The shape of one staged block of an argument array: one batch, six channels, 1024 points. -/
abbrev SB : Shape := ⟨3, ![1, 6, 1024]⟩

/-- The same cost on staged blocks: column `r` of the block pair (`P`, `N`) against column `v` of the block pair (`Q`, `M`). -/
def Dblk (P N Q M : SB.Idx → EReal) (r v : Fin 1024) : EReal :=
  (((∑ c : Fin 3, P (ix3 0 (lo c) r) * P (ix3 0 (lo c) r)) + (∑ c : Fin 3, Q (ix3 0 (lo c) v) * Q (ix3 0 (lo c) v)))
      - two * (∑ c : Fin 3, P (ix3 0 (lo c) r) * Q (ix3 0 (lo c) v)))
    + kap * (one - ∑ c : Fin 3, N (ix3 0 (hi c) r) * M (ix3 0 (hi c) v))

/-- Exchanging the two clouds exchanges the roles of rows and columns. -/
theorem D_swap (a b : SA.Idx → EReal) (n : Fin 8) (r v : Fin 4096) : D b a a b n r v = D a b b a n v r := by
  unfold D
  have h1 : (∑ c : Fin 3, b (ix3 n (lo c) r) * a (ix3 n (lo c) v)) = ∑ c : Fin 3, a (ix3 n (lo c) v) * b (ix3 n (lo c) r) :=
    Finset.sum_congr rfl fun c _ => mul_comm (b (ix3 n (lo c) r)) (a (ix3 n (lo c) v))
  have h2 : (∑ c : Fin 3, a (ix3 n (hi c) r) * b (ix3 n (hi c) v)) = ∑ c : Fin 3, b (ix3 n (hi c) v) * a (ix3 n (hi c) r) :=
    Finset.sum_congr rfl fun c _ => mul_comm (a (ix3 n (hi c) r)) (b (ix3 n (hi c) v))
  rw [h1, h2, add_comm (∑ c : Fin 3, b (ix3 n (lo c) r) * b (ix3 n (lo c) r))]

/-- The least cost from row `r` of batch `n` to any column. -/
def rowMin (P N Q M : SA.Idx → EReal) (n : Fin 8) (r : Fin 4096) : EReal :=
  Finset.univ.inf fun v : Fin 4096 => D P N Q M n r v

/-- The least cost from any row to column `v` of batch `n`. -/
def colMin (P N Q M : SA.Idx → EReal) (n : Fin 8) (v : Fin 4096) : EReal :=
  Finset.univ.inf fun r : Fin 4096 => D P N Q M n r v

/-- A column minimum of the cost from `a` to `b` is a row minimum of the cost from `b` to `a`. -/
theorem rowMin_swap (a b : SA.Idx → EReal) (n : Fin 8) (r : Fin 4096) : rowMin b a a b n r = colMin a b b a n r := by
  unfold rowMin colMin
  exact congrArg _ (funext fun v => D_swap a b n r v)

end Cert.Spec

end
-- ==== Proof.RefValue.lean ====
/-
  The reference program's result, read as the specification's quantity.

  The reference forms the array of pairwise costs d[n, p, q] = (|a_p|² + |b_q|² − 2 ⟨a_p, b_q⟩) + κ · (1 − ⟨N_p, M_q⟩) over
  batches n and point pairs (p, q), where the squared norms and the first inner product run over the three point channels
  of the two clouds and the last inner product over the three normal channels (of the second cloud at p, of the first at q);
  it takes the minimum over q for every (n, p) and the minimum over p for every (n, q), sums each array of minima, adds the
  two sums and divides by 8.  Here: d at (n, p, q) is the specification's cost `D a b b a n p q` (`d_apply`); a minimum
  from +∞ over one axis is the infimum over that axis's coordinates (`min2`, `min1`), so the two arrays of minima are the
  specification's row and column minima; the closing sums and the division are kept as one closed function `tail` of
  the two arrays (`result_eq`).
-/
import proofs.«146518_j67740224192624_1_alg».proof.Proof.Gen.ReferenceIdeal.Read
import proofs.«146518_j67740224192624_1_alg».proof.Proof.Spec

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

/-- the tail both programs share, kept closed: the two [8,4096] arrays of minima summed, added and divided by 8 -/
def tail (X Y : FVec Ideal S8x4096 .f32) : FVec Ideal S_ .f32 :=
  Host.divf (F := Ideal) (addf (Host.reduceAdd (F := Ideal) X (constant (F := Ideal) S_ .f32 0x00000000#32) reducesTo_S8x4096_S_d0_1 h_S_) (Host.reduceAdd (F := Ideal) Y (constant (F := Ideal) S_ .f32 0x00000000#32) reducesTo_S8x4096_S_d0_1 h_S_)) (constant (F := Ideal) S_ .f32 0x41000000#32)

/-- The reference's last stage is the tail of its two arrays of minima. -/
theorem tail_eq (x0 x1 : (⟨S8x6x4096, .f32⟩ : BufTy).Contents (Elt Ideal)) :
    Read.val_main_v30 (F := Ideal) x0 x1 = tail (Read.val_main_v25 (F := Ideal) x0 x1) (Read.val_main_v27 (F := Ideal) x0 x1) := by
  unfold Read.val_main_v30 Read.val_main_v29 Read.val_main_v26 Read.val_main_v28 Read.val_main_cst_5 Read.val_main_cst_7 Read.val_main_cst_8 tail
  rfl

/-! ## The pairwise cost at (n, p, q) -/

/-- Two rank-3 indices with the same three coordinates are equal. -/
theorem idx_eq3 {n0 n1 n2 : Nat} (i j : (⟨3, ![n0, n1, n2]⟩ : Shape).Idx) (h0 : (i 0).val = (j 0).val)
    (h1 : (i 1).val = (j 1).val) (h2 : (i 2).val = (j 2).val) : i = j := by
  funext a; apply Fin.ext
  match a with | ⟨0, _⟩ => exact h0 | ⟨1, _⟩ => exact h1 | ⟨2, _⟩ => exact h2

/-- The cost array at (n, p, q) is the specification's cost between column p of the first cloud's points with the second
    cloud's normals and column q of the second cloud's points with the first cloud's normals: each squared norm and inner
    product is a sum over three channels from the zero word, and the three constants are the words the specification names. -/
theorem d_apply (x0 x1 : (⟨S8x6x4096, .f32⟩ : BufTy).Contents (Elt Ideal)) (n : Fin 8) (p q : Fin 4096) :
    Read.val_main_v24 (F := Ideal) x0 x1 (ix3 n p q) = Cert.Spec.D x0 x1 x1 x0 n p q := by
  rw [Read.val_main_v24_apply, Read.val_main_v18_apply, Read.val_main_v15_apply, Read.val_main_v13_apply, Read.val_main_v11_apply,
    Read.val_main_v7_apply, Read.val_main_v14_apply, Read.val_main_v12_apply, Read.val_main_v9_apply, Read.val_main_v17_apply,
    Read.val_main_v16_apply, Read.val_main_v10_apply, Read.val_main_v23_apply, Read.val_main_v22_apply, Read.val_main_v21_apply,
    Read.val_main_v20_apply, Read.val_main_v19_apply, Read.val_main_cst_apply, Read.val_main_cst_0_apply, Read.val_main_cst_1_apply,
    Read.val_main_cst_2_apply, Read.val_main_cst_3_apply]
  simp only [Read.val_main_v6_apply, Read.val_main_v8_apply, Read.val_main_v2_apply, Read.val_main_v3_apply, Read.val_main_v4_apply,
    Read.val_main_v5_apply, Read.val_main_v0_apply, Read.val_main_v1_apply]
  -- where each operand is read: point channel k of column p or q, normal channel k (channel 3 + k of the six) of column p or q
  have e1 : ∀ k : Fin 3, Read.idx_main_v0 (Read.idx_main_v2 (Read.idx_main_v7 (Read.idx_main_v11 (Read.idx_main_v13 (ix3 n p q))) k))
      = ix3 n (Cert.Spec.lo k) p := fun k => idx_eq3 _ _ rfl rfl rfl
  have e2 : ∀ k : Fin 3, Read.idx_main_v1 (Read.idx_main_v4 (Read.idx_main_v9 (Read.idx_main_v12 (Read.idx_main_v14 (ix3 n p q))) k))
      = ix3 n (Cert.Spec.lo k) q := fun k => idx_eq3 _ _ rfl rfl rfl
  have e3 : ∀ k : Fin 3, Read.idx_main_v0 (Read.idx_main_v2 (Read.lidx_main_v10 (ix3 n p q) k)) = ix3 n (Cert.Spec.lo k) p :=
    fun k => idx_eq3 _ _ rfl rfl rfl
  have e4 : ∀ k : Fin 3, Read.idx_main_v1 (Read.idx_main_v4 (Read.ridx_main_v10 (ix3 n p q) k)) = ix3 n (Cert.Spec.lo k) q :=
    fun k => idx_eq3 _ _ rfl rfl rfl
  have e5 : ∀ k : Fin 3, Read.idx_main_v1 (Read.idx_main_v5 (Read.lidx_main_v19 (ix3 n p q) k)) = ix3 n (Cert.Spec.hi k) p :=
    fun k => idx_eq3 _ _ rfl (Nat.add_comm 3 k.val) rfl
  have e6 : ∀ k : Fin 3, Read.idx_main_v0 (Read.idx_main_v3 (Read.ridx_main_v19 (ix3 n p q) k)) = ix3 n (Cert.Spec.hi k) q :=
    fun k => idx_eq3 _ _ rfl (Nat.add_comm 3 k.val) rfl
  simp only [e1, e2, e3, e4, e5, e6, Ideal.addf_def, Ideal.subf_def, Ideal.mulf_def, Ideal.ofBits_def, Ideal.ofBits_zero_f32, zero_add]
  rfl

/-! ## A minimum from +∞ over one axis is the infimum over that axis -/

/-- The word 0x7F800000 is +∞, the top of the extended reals. -/
theorem ofBits_inf_f32 : Ideal.ofBits .f32 0x7F800000#32 = (⊤ : EReal) := by simp [Ideal.ofBits, Ideal.ieee]

theorem red2 : S8x4096x4096.Reduces [2] S8x4096 := by decide
theorem red1 : S8x4096x4096.Reduces [1] S8x4096 := by decide

/-- (n, p) with coordinate k put back on the last axis is (n, p, k). -/
theorem lift2 (n : Fin 8) (p : Fin 4096) (k : Fin (S8x4096x4096.size 2)) :
    red2.lift (ix2 n p) k = ix3 n p (⟨k.val, k.isLt⟩ : Fin 4096) := by
  funext c; apply Fin.ext
  fin_cases c <;> rfl

/-- (n, q) with coordinate k put back on the middle axis is (n, k, q). -/
theorem lift1 (n : Fin 8) (q : Fin 4096) (k : Fin (S8x4096x4096.size 1)) :
    red1.lift (ix2 n q) k = ix3 n (⟨k.val, k.isLt⟩ : Fin 4096) q := by
  funext c; apply Fin.ext
  fin_cases c <;> rfl

/-- The minimum over the last axis from +∞, at (n, p): the infimum over q of the array at (n, p, q). -/
theorem min2 (y : FVec Ideal S8x4096x4096 .f32) (n : Fin 8) (p : Fin 4096) :
    Host.reduce FloatOps.minimumf y (constant (F := Ideal) S_ .f32 0x7F800000#32) reducesTo_S8x4096x4096_S8x4096_d2 h_S_ (ix2 n p)
      = Finset.univ.inf fun q : Fin 4096 => y (ix3 n p q) := by
  rw [Host.reduce_eq_fold_single FloatOps.minimumf y _ reducesTo_S8x4096x4096_S8x4096_d2 red2 h_S_]
  have hf : (y ∘ red2.lift (ix2 n p)) = fun k : Fin 4096 => y (ix3 n p k) := funext fun k => congrArg y (lift2 n p k)
  have hi : (constant (F := Ideal) S_ .f32 0x7F800000#32) (Shape.Idx.first h_S_) = (⊤ : EReal) := ofBits_inf_f32
  rw [hi]
  exact congrArg (fun f => Finset.fold min (⊤ : EReal) f (Finset.univ : Finset (Fin 4096))) hf

/-- The minimum over the middle axis from +∞, at (n, q): the infimum over p of the array at (n, p, q). -/
theorem min1 (y : FVec Ideal S8x4096x4096 .f32) (n : Fin 8) (q : Fin 4096) :
    Host.reduce FloatOps.minimumf y (constant (F := Ideal) S_ .f32 0x7F800000#32) reducesTo_S8x4096x4096_S8x4096_d1 h_S_ (ix2 n q)
      = Finset.univ.inf fun p : Fin 4096 => y (ix3 n p q) := by
  rw [Host.reduce_eq_fold_single FloatOps.minimumf y _ reducesTo_S8x4096x4096_S8x4096_d1 red1 h_S_]
  have hf : (y ∘ red1.lift (ix2 n q)) = fun k : Fin 4096 => y (ix3 n k q) := funext fun k => congrArg y (lift1 n q k)
  have hi : (constant (F := Ideal) S_ .f32 0x7F800000#32) (Shape.Idx.first h_S_) = (⊤ : EReal) := ofBits_inf_f32
  rw [hi]
  exact congrArg (fun f => Finset.fold min (⊤ : EReal) f (Finset.univ : Finset (Fin 4096))) hf

/-! ## The two arrays of minima, and the result -/

/-- The minima over q are the specification's row minima. -/
theorem rowMin_apply (x0 x1 : (⟨S8x6x4096, .f32⟩ : BufTy).Contents (Elt Ideal)) (n : Fin 8) (p : Fin 4096) :
    Read.val_main_v25 (F := Ideal) x0 x1 (ix2 n p) = Cert.Spec.rowMin x0 x1 x1 x0 n p := by
  unfold Read.val_main_v25 Read.val_main_cst_4 Cert.Spec.rowMin
  rw [min2]
  exact congrArg (Finset.inf Finset.univ) (funext fun q => d_apply x0 x1 n p q)

/-- The minima over p are the specification's column minima. -/
theorem colMin_apply (x0 x1 : (⟨S8x6x4096, .f32⟩ : BufTy).Contents (Elt Ideal)) (n : Fin 8) (q : Fin 4096) :
    Read.val_main_v27 (F := Ideal) x0 x1 (ix2 n q) = Cert.Spec.colMin x0 x1 x1 x0 n q := by
  unfold Read.val_main_v27 Read.val_main_cst_6 Cert.Spec.colMin
  rw [min1]
  exact congrArg (Finset.inf Finset.univ) (funext fun p => d_apply x0 x1 n p q)

/-- The reference's last stage, as a function of the two argument arrays: the tail of the specification's row and
    column minima. -/
theorem value_eq (x0 x1 : (⟨S8x6x4096, .f32⟩ : BufTy).Contents (Elt Ideal)) :
    Read.val_main_v30 (F := Ideal) x0 x1
      = tail (fun i => Cert.Spec.rowMin x0 x1 x1 x0 (i 0) (i 1)) (fun i => Cert.Spec.colMin x0 x1 x1 x0 (i 0) (i 1)) := by
  rw [tail_eq]
  refine congrArg₂ tail (funext fun i => ?_) (funext fun i => ?_)
  · obtain ⟨n, p, rfl⟩ : ∃ (n : Fin 8) (p : Fin 4096), i = ix2 n p := ⟨i 0, i 1, eq_ix2 i⟩
    exact rowMin_apply x0 x1 n p
  · obtain ⟨n, q, rfl⟩ : ∃ (n : Fin 8) (q : Fin 4096), i = ix2 n q := ⟨i 0, i 1, eq_ix2 i⟩
    exact colMin_apply x0 x1 n q

/-- The reference's result from any launch memory: the tail of the row and column minima of the cost between the first
    argument (with the second's normals) and the second (with the first's normals). -/
theorem result_eq (m : (ℓ : Loc nD τ sig) → Buf (Elt Ideal) ℓ) (c : Dev nD) :
    Cert.ReferenceIdeal.Value.res_main_v30 (F := Ideal) m c
      = tail
          (fun i => Cert.Spec.rowMin (m ((c.tc : Thread nD τ).loc main_arg0)) (m ((c.tc : Thread nD τ).loc main_arg1))
            (m ((c.tc : Thread nD τ).loc main_arg1)) (m ((c.tc : Thread nD τ).loc main_arg0)) (i 0) (i 1))
          (fun i => Cert.Spec.colMin (m ((c.tc : Thread nD τ).loc main_arg0)) (m ((c.tc : Thread nD τ).loc main_arg1))
            (m ((c.tc : Thread nD τ).loc main_arg1)) (m ((c.tc : Thread nD τ).loc main_arg0)) (i 0) (i 1)) :=
  (Read.val_main_v30_eq m c).trans (value_eq _ _)

end Cert.ReferenceIdeal.RefValue

end
-- ==== Proof.KB.Body0.lean ====
/-
  The body of the first call at one grid point, case by case, for the program read at the word level.  A point (n, r, v)
  of the 8 × 4 × 4 grid works on row tile r and column tile v of batch n.  At v = 0 the [1024, 1] accumulator is reset;
  at every point it is lowered by this tile's row minima; at v = 3 it is copied into the output's block.
-/
import proofs.«146518_j67740224192624_1_alg».proof.Proof.Gen.Kernel.Launch
import proofs.«146518_j67740224192624_1_alg».proof.Proof.Gen.Kernel.Skeleton
import proofs.«146518_j67740224192624_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions over the grid -/

/-- The first condition: the point is the first of its row of column tiles (third grid coordinate 0). -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The second condition: the point is the last of its row of column tiles (third grid coordinate 3). -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-- The four input windows are never idle; the output window is idle, and not written back, exactly where the second
    condition fails. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem idle0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem live0_4 : ∀ t : Fin cfg0.N, cond0_1 (grid0.coords t) → cfg0.idle 4 (grid0.coords t) = false := by decide +kernel

/-! ## The body's run, case by case -/

set_option maxHeartbeats 4000000 in
/-- First point of a row of column tiles: the accumulator is reset and then lowered by this tile's row minima; the
    output's buffer is not touched. -/
noncomputable def kernelRun0_A (c : Dev nD) (i : grid0.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole)
    (hc0 : cond0_0 i) (hc1 : ¬cond0_1 i) (x0 x1 x2 x3 : Vec F S1x6x1024 .f32) :
    { LS : List (View.Piece (Elt F) S1024x1 .f32) //
      ∀ (xi : Vec F S1x1024x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc0__minreduce_kernel i arg3 harg3 arg4 harg4 arg5 harg5 arg6 harg6 arg7 harg7 arg8 harg8) K } := by
  refine ⟨?_, fun xi E K => ?run⟩
  case run =>
    simp only [cc0__minreduce_kernel_eq_skeleton]; unfold cc0__minreduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f7, %hf7, H7⟩, ⟨%ds, %fs, -, HS⟩, Hk⟩
    obtain rfl := harg3.eq_unread hf0; obtain rfl := harg4.eq_unread hf1; obtain rfl := harg5.eq_unread hf2; obtain rfl := harg6.eq_unread hf3
    obtain rfl := harg7.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]
    · iexists _; isplitr; · ipureintro; exact harg7.read_unread _
      iexact H7
    iexists _; iexact HS

set_option maxHeartbeats 4000000 in
/-- A middle point: the accumulator, found at `xs`, is lowered by this tile's row minima; the output's buffer is not touched. -/
noncomputable def kernelRun0_B (c : Dev nD) (i : grid0.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole)
    (hc0 : ¬cond0_0 i) (hc1 : ¬cond0_1 i) (x0 x1 x2 x3 : Vec F S1x6x1024 .f32) (xs : Vec F S1024x1 .f32) :
    { LS : List (View.Piece (Elt F) S1024x1 .f32) //
      ∀ (xi : Vec F S1x1024x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc0__minreduce_kernel i arg3 harg3 arg4 harg4 arg5 harg5 arg6 harg6 arg7 harg7 arg8 harg8) K } := by
  refine ⟨?_, fun xi E K => ?run⟩
  case run =>
    simp only [cc0__minreduce_kernel_eq_skeleton]; unfold cc0__minreduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f7, %hf7, H7⟩, ⟨%fs, %hfs, HS⟩, Hk⟩
    obtain rfl := harg3.eq_unread hf0; obtain rfl := harg4.eq_unread hf1; obtain rfl := harg5.eq_unread hf2; obtain rfl := harg6.eq_unread hf3
    obtain rfl := harg7.eq_unread hf7; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]
    · iexists _; isplitr; · ipureintro; exact harg7.read_unread _
      iexact H7
    iexists _; iexact HS

set_option maxHeartbeats 4000000 in
/-- Last point of a row of column tiles: the accumulator, found at `xs`, is lowered by this tile's row minima and then
    copied into the output's buffer. -/
noncomputable def kernelRun0_C (c : Dev nD) (i : grid0.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole)
    (hc0 : ¬cond0_0 i) (hc1 : cond0_1 i) (x0 x1 x2 x3 : Vec F S1x6x1024 .f32) (xs : Vec F S1024x1 .f32) :
    Σ' (L7 : List (View.Piece (Elt F) S1x1024x1 .f32)), { LS : List (View.Piece (Elt F) S1024x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f LS)) -∗ K ⟨⟩))
          ⊢ wp frame (wpE (defs₀ (F := F)) Variants.none c none) E (cc0__minreduce_kernel i arg3 harg3 arg4 harg4 arg5 harg5 arg6 harg6 arg7 harg7 arg8 harg8) K } := by
  refine ⟨?_, ?_, fun E K => ?run⟩
  case run =>
    simp only [cc0__minreduce_kernel_eq_skeleton]; unfold cc0__minreduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%d7, %f7, -, H7⟩, ⟨%fs, %hfs, HS⟩, Hk⟩
    obtain rfl := harg3.eq_unread hf0; obtain rfl := harg4.eq_unread hf1; obtain rfl := harg5.eq_unread hf2; obtain rfl := harg6.eq_unread hf3
    obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]
    · iexists _; iexact H7
    iexists _; iexact HS

end Cert.Kernel.R0

end
-- ==== Proof.KB.Region0.lean ====
/-
  The first call as a pipeline region, for the program read at the word level: what its stores leave as functions of the
  staged blocks, the accumulator after each grid point, the proof data, and the body obligation at a generic point.
-/
import proofs.«146518_j67740224192624_1_alg».proof.Proof.KB.Body0
import Idealize.ShloMosaic.Lib.Pipeline.Value
import proofs.«146518_j67740224192624_1_alg».proof.Proof.Gen.Kernel.Launch
import proofs.«146518_j67740224192624_1_alg».proof.Proof.Gen.Kernel.Skeleton
import proofs.«146518_j67740224192624_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the runs' stores leave, as functions of the blocks -/

/-- One point's effect on the accumulator `a`: its minimum with the row minima of the tile's costs, a function of the four
    staged blocks (row-side points `x0` and normals `x1`, column-side points `x2` and normals `x3`). -/
def step0 (x0 x1 x2 x3 : Vec F S1x6x1024 .f32) (a : Vec F S1024x1 .f32) : Vec F S1024x1 .f32 :=
  k0_pay1 (k0_pay4 x0 x2) (k0_pay5 x1 x3) a

theorem hz2 : (![0, 0] : Fin 2 → Nat) = fun _ => 0 := by funext a; fin_cases a <;> rfl
theorem hz3 : (![0, 0, 0] : Fin 3 → Nat) = fun _ => 0 := by funext a; fin_cases a <;> rfl

theorem scoverA (c : Dev nD) (i : grid0.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole) (hc0 : cond0_0 i) (hc1 : ¬cond0_1 i) (x0 x1 x2 x3 : Vec F S1x6x1024 .f32) (y : S1024x1.Idx) :
    ∃ pc ∈ (kernelRun0_A c i arg3 harg3 arg4 harg4 arg5 harg5 arg6 harg6 arg7 harg7 arg8 harg8 hc0 hc1 x0 x1 x2 x3).1, y ∈ pc.1.set :=
  View.cover_of_tiledL (kernelRun0_A c i arg3 harg3 arg4 harg4 arg5 harg5 arg6 harg6 arg7 harg7 arg8 harg8 hc0 hc1 x0 x1 x2 x3).1 S1024x1.size (by sl_kernel_rfl) y

/-- After a first point the accumulator holds the step from +∞. -/
theorem readA (c : Dev nD) (i : grid0.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole) (hc0 : cond0_0 i) (hc1 : ¬cond0_1 i) (x0 x1 x2 x3 : Vec F S1x6x1024 .f32) (f : arg8.view.ty.Contents (Elt F)) :
    arg8.view.read (Elt F) (arg8.view.writes (Elt F) f (kernelRun0_A c i arg3 harg3 arg4 harg4 arg5 harg5 arg6 harg6 arg7 harg7 arg8 harg8 hc0 hc1 x0 x1 x2 x3).1) = step0 x0 x1 x2 x3 k0_pay3 := by
  rw [View.read_writes_eq_canon _ _ _ (scoverA c i arg3 harg3 arg4 harg4 arg5 harg5 arg6 harg6 arg7 harg7 arg8 harg8 hc0 hc1 x0 x1 x2 x3)]
  unfold kernelRun0_A; dsimp only; sl_unfold_words
  rw [View.canon_cons_unit_zero hz2]
  simp only [View.readAt_eq_ld, harg3.read_unread, harg4.read_unread, harg5.read_unread, harg6.read_unread, View.ld_unit_zero (S := S1x6x1024) hz3,
    View.readCov_unit_zero (S := S1024x1) arg8.view hz2]
  rfl

theorem scoverB (c : Dev nD) (i : grid0.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole) (hc0 : ¬cond0_0 i) (hc1 : ¬cond0_1 i) (x0 x1 x2 x3 : Vec F S1x6x1024 .f32) (xs : Vec F S1024x1 .f32) (y : S1024x1.Idx) :
    ∃ pc ∈ (kernelRun0_B c i arg3 harg3 arg4 harg4 arg5 harg5 arg6 harg6 arg7 harg7 arg8 harg8 hc0 hc1 x0 x1 x2 x3 xs).1, y ∈ pc.1.set :=
  View.cover_of_tiledL (kernelRun0_B c i arg3 harg3 arg4 harg4 arg5 harg5 arg6 harg6 arg7 harg7 arg8 harg8 hc0 hc1 x0 x1 x2 x3 xs).1 S1024x1.size (by sl_kernel_rfl) y

/-- After a middle point the accumulator holds the step from what it held. -/
theorem readB (c : Dev nD) (i : grid0.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole) (hc0 : ¬cond0_0 i) (hc1 : ¬cond0_1 i) (x0 x1 x2 x3 : Vec F S1x6x1024 .f32) (xs : Vec F S1024x1 .f32) (f : arg8.view.ty.Contents (Elt F)) :
    arg8.view.read (Elt F) (arg8.view.writes (Elt F) f (kernelRun0_B c i arg3 harg3 arg4 harg4 arg5 harg5 arg6 harg6 arg7 harg7 arg8 harg8 hc0 hc1 x0 x1 x2 x3 xs).1) = step0 x0 x1 x2 x3 xs := by
  rw [View.read_writes_eq_canon _ _ _ (scoverB c i arg3 harg3 arg4 harg4 arg5 harg5 arg6 harg6 arg7 harg7 arg8 harg8 hc0 hc1 x0 x1 x2 x3 xs)]
  unfold kernelRun0_B; dsimp only; sl_unfold_words
  rw [View.canon_cons_unit_zero hz2]
  simp only [View.readAt_eq_ld, harg3.read_unread, harg4.read_unread, harg5.read_unread, harg6.read_unread, harg8.read_unread, View.ld_unit_zero (S := S1x6x1024) hz3,
    View.ld_unit_zero (S := S1024x1) hz2]
  rfl

theorem scoverC8 (c : Dev nD) (i : grid0.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole) (hc0 : ¬cond0_0 i) (hc1 : cond0_1 i) (x0 x1 x2 x3 : Vec F S1x6x1024 .f32) (xs : Vec F S1024x1 .f32) (y : S1024x1.Idx) :
    ∃ pc ∈ (kernelRun0_C c i arg3 harg3 arg4 harg4 arg5 harg5 arg6 harg6 arg7 harg7 arg8 harg8 hc0 hc1 x0 x1 x2 x3 xs).2.1, y ∈ pc.1.set :=
  View.cover_of_tiledL (kernelRun0_C c i arg3 harg3 arg4 harg4 arg5 harg5 arg6 harg6 arg7 harg7 arg8 harg8 hc0 hc1 x0 x1 x2 x3 xs).2.1 S1024x1.size (by sl_kernel_rfl) y

theorem scoverC7 (c : Dev nD) (i : grid0.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole) (hc0 : ¬cond0_0 i) (hc1 : cond0_1 i) (x0 x1 x2 x3 : Vec F S1x6x1024 .f32) (xs : Vec F S1024x1 .f32) (y : S1x1024x1.Idx) :
    ∃ pc ∈ (kernelRun0_C c i arg3 harg3 arg4 harg4 arg5 harg5 arg6 harg6 arg7 harg7 arg8 harg8 hc0 hc1 x0 x1 x2 x3 xs).1, y ∈ pc.1.set :=
  View.cover_of_tiledL (kernelRun0_C c i arg3 harg3 arg4 harg4 arg5 harg5 arg6 harg6 arg7 harg7 arg8 harg8 hc0 hc1 x0 x1 x2 x3 xs).1 S1x1024x1.size (by sl_kernel_rfl) y

/-- After a last point the accumulator holds the step from what it held, -/
theorem readC8 (c : Dev nD) (i : grid0.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole) (hc0 : ¬cond0_0 i) (hc1 : cond0_1 i) (x0 x1 x2 x3 : Vec F S1x6x1024 .f32) (xs : Vec F S1024x1 .f32) (f : arg8.view.ty.Contents (Elt F)) :
    arg8.view.read (Elt F) (arg8.view.writes (Elt F) f (kernelRun0_C c i arg3 harg3 arg4 harg4 arg5 harg5 arg6 harg6 arg7 harg7 arg8 harg8 hc0 hc1 x0 x1 x2 x3 xs).2.1) = step0 x0 x1 x2 x3 xs := by
  rw [View.read_writes_eq_canon _ _ _ (scoverC8 c i arg3 harg3 arg4 harg4 arg5 harg5 arg6 harg6 arg7 harg7 arg8 harg8 hc0 hc1 x0 x1 x2 x3 xs)]
  unfold kernelRun0_C; dsimp only; sl_unfold_words
  rw [View.canon_cons_unit_zero hz2]
  simp only [View.readAt_eq_ld, harg3.read_unread, harg4.read_unread, harg5.read_unread, harg6.read_unread, harg8.read_unread, View.ld_unit_zero (S := S1x6x1024) hz3,
    View.ld_unit_zero (S := S1024x1) hz2]
  rfl

/-- and the output's buffer that accumulator re-laid as [1, 1024, 1]. -/
theorem readC7 (c : Dev nD) (i : grid0.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole) (hc0 : ¬cond0_0 i) (hc1 : cond0_1 i) (x0 x1 x2 x3 : Vec F S1x6x1024 .f32) (xs : Vec F S1024x1 .f32) (f : arg7.view.ty.Contents (Elt F)) :
    arg7.view.read (Elt F) (arg7.view.writes (Elt F) f (kernelRun0_C c i arg3 harg3 arg4 harg4 arg5 harg5 arg6 harg6 arg7 harg7 arg8 harg8 hc0 hc1 x0 x1 x2 x3 xs).1) = k0_pay2 (step0 x0 x1 x2 x3 xs) := by
  rw [View.read_writes_eq_canon _ _ _ (scoverC7 c i arg3 harg3 arg4 harg4 arg5 harg5 arg6 harg6 arg7 harg7 arg8 harg8 hc0 hc1 x0 x1 x2 x3 xs)]
  unfold kernelRun0_C; dsimp only; sl_unfold_words
  rw [View.canon_cons_unit_zero hz3]
  simp only [View.readAt_eq_ld, harg3.read_unread, harg4.read_unread, harg5.read_unread, harg6.read_unread, harg8.read_unread, View.ld_unit_zero (S := S1x6x1024) hz3,
    View.ld_unit_zero (S := S1024x1) hz2]
  simp only [View.readCov_unit_zero (S := S1024x1) arg8.view hz2]
  rfl

/-! ## The windows' blocks, as the region finds the arrays -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The staging memrefs at a point, and the scratch -/

abbrev ms0_0 (t : Fin cfg0.N) : Memref sig .tc .vmem S1x6x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x6x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x6x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x6x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x1 .f32 := win0_4.stage (cfg0.slots t 4)
abbrev hs0_4 (t : Fin cfg0.N) : (ms0_4 t).IsWhole := hstage0_4 ((cfg0.slots t 4).cast nbuf0_4)
/-- The accumulator. -/
abbrev scM0 : Memref sig .tc .vmem S1024x1 .f32 := Memref.whole cc0_scratch0

/-! ## The accumulator after each point -/

/-- The accumulator after point `n`: the step over the point's four blocks, from +∞ at the first point of a row of column
    tiles and from what the point before left otherwise. -/
def acc0 (c : Dev nD) : (n : ℕ) → n < cfg0.N → Vec F S1024x1 .f32
  | 0, hn => step0 (iblk0 V c 0 ⟨0, hn⟩) (iblk0 V c 1 ⟨0, hn⟩) (iblk0 V c 2 ⟨0, hn⟩) (iblk0 V c 3 ⟨0, hn⟩) k0_pay3
  | n + 1, hn => step0 (iblk0 V c 0 ⟨n + 1, hn⟩) (iblk0 V c 1 ⟨n + 1, hn⟩) (iblk0 V c 2 ⟨n + 1, hn⟩) (iblk0 V c 3 ⟨n + 1, hn⟩)
      (if (n + 1) % 4 = 0 then k0_pay3 else acc0 c n (Nat.lt_of_succ_lt hn))

theorem acc0_first (c : Dev nD) (t : Fin cfg0.N) (h0 : t.val % 4 = 0) :
    acc0 V c t.val t.isLt = step0 (iblk0 V c 0 t) (iblk0 V c 1 t) (iblk0 V c 2 t) (iblk0 V c 3 t) k0_pay3 := by
  obtain ⟨n, hn⟩ := t
  cases n with
  | zero => rfl
  | succ n => show step0 _ _ _ _ (if (n + 1) % 4 = 0 then _ else _) = _; rw [if_pos h0]

theorem acc0_next (c : Dev nD) (t : Fin cfg0.N) (h0 : ¬t.val % 4 = 0) :
    acc0 V c t.val t.isLt = step0 (iblk0 V c 0 t) (iblk0 V c 1 t) (iblk0 V c 2 t) (iblk0 V c 3 t)
      (acc0 V c (t.val - 1) (Nat.lt_of_le_of_lt (Nat.sub_le _ _) t.isLt)) := by
  obtain ⟨n, hn⟩ := t
  cases n with
  | zero => exact absurd (Nat.zero_mod _) h0
  | succ n => show step0 _ _ _ _ (if (n + 1) % 4 = 0 then _ else _) = _; rw [if_neg h0]; rfl

/-! ## The region's invariant -/

/-- The scoped buffers of the other call, each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0; rw [scopedRest0_eq]; simp only [scM0, owns_whole]; try rfl

/-- Before the first point: every scoped buffer no window stages at anything, the generator register at some state.
    Afterwards: the accumulator at what the point before left. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (acc0 V c n hn) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare (acc0 V c (n - 1) (by omega)) ∗ others0 c) ∗ (∃ r, prngReg c r)) := by
  cases n with
  | zero => exact absurd rfl hz
  | succ n => rfl

/-! ## The pipeline's proof data -/

/-- The proof data of the call on core `c`: the arrays as the region finds them; after the body each input's buffer at its
    block and, at a last point, the output's at the accumulator re-laid; the invariant `PhiS0`; nothing owed; an array
    read through two windows held half and half. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay2 (acc0 V c t.val t.isLt)
  Φ t := PhiS0 V c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay2 (acc0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves0_0 (c : Dev nD) (t : Fin cfg0.N) : (dat0 V c).leavesExact 0 t = owns (c : Thread nD τ) (ms0_0 t) fullShare (iblk0 V c 0 t) := by
  unfold Dat.leavesExact; rw [live0_0 t, after0_0]
theorem leaves0_1 (c : Dev nD) (t : Fin cfg0.N) : (dat0 V c).leavesExact 1 t = owns (c : Thread nD τ) (ms0_1 t) fullShare (iblk0 V c 1 t) := by
  unfold Dat.leavesExact; rw [live0_1 t, after0_1]
theorem leaves0_2 (c : Dev nD) (t : Fin cfg0.N) : (dat0 V c).leavesExact 2 t = owns (c : Thread nD τ) (ms0_2 t) fullShare (iblk0 V c 2 t) := by
  unfold Dat.leavesExact; rw [live0_2 t, after0_2]
theorem leaves0_3 (c : Dev nD) (t : Fin cfg0.N) : (dat0 V c).leavesExact 3 t = owns (c : Thread nD τ) (ms0_3 t) fullShare (iblk0 V c 3 t) := by
  unfold Dat.leavesExact; rw [live0_3 t, after0_3]

set_option maxHeartbeats 4800000 in
/-- The body at any point: the inputs' buffers hold their blocks; the point's position in its row of column tiles says which
    case's run applies; the invariant hands the body the accumulator at what the point before left (anything at a first
    point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3]
  have hN : t.val < 128 := lt_of_lt_of_eq t.isLt (show cfg0.N = 128 from N_0)
  by_cases h0 : t.val % 4 = 0
  · have h1 : ¬t.val % 4 = 3 := by omega
    have hc0 : cond0_0 (grid0.coords t) := (hcond0_0 t).mpr h0
    have hc1 : ¬cond0_1 (grid0.coords t) := fun h => h1 ((hcond0_1 t).mp h)
    rw [Dat.leavesExact_idle (dat0 V c) 4 t (idle0_4 t hc1) (noFlush0_4 t hc1)]
    rw [acc0_first V c t h0]
    have hphi : (dat0 V c).Φ t.castSucc ⊢ (iprop(iprop((∃ d, owns (c : Thread nD τ) scM0 fullShare d) ∗ others0 c) ∗ (∃ r, prngReg c r)) : sProp 𝕄) := by
      rw [PhiS0_castSucc V c t]
      by_cases hz : t.val = 0
      · rw [PhiS0_zero V c _ _ hz, PhiA0_eq]
      · rw [PhiS0_pos V c _ _ hz]
        iintro ⟨⟨HS, Hc⟩, Hg⟩
        isplitl [HS Hc]
        · isplitl [HS]; · iexists _; iexact HS
          iexact Hc
        iexact Hg
    iintro ⟨HΦ, Ho, ⟨%d0, H0⟩, ⟨%d1, H1⟩, ⟨%d2, H2⟩, ⟨%d3, H3⟩, ⟨%d4, H4⟩⟩
    ihave HΦ' := hphi $$ HΦ
    icases HΦ' with ⟨⟨HS, Hc⟩, Hg⟩
    iapply ((kernelRun0_A c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1
      (iblk0 V c 0 t) (iblk0 V c 1 t) (iblk0 V c 2 t) (iblk0 V c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS Hc Hg]
    · isplitl [HS Hc]
      · isplitl [HS]
        · unfold owns; iexists _; isplitr
          swap; · iexact HS
          ipureintro; exact readA c _ _ _ _ _ _ _ _ _ _ _ _ _ hc0 hc1 _ _ _ _ _
        iexact Hc
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    have hc0 : ¬cond0_0 (grid0.coords t) := fun h => h0 ((hcond0_0 t).mp h)
    rw [acc0_next V c t h0]
    rw [PhiS0_castSucc V c t, PhiS0_pos V c _ _ hz]
    by_cases h1 : t.val % 4 = 3
    · have hc1 : cond0_1 (grid0.coords t) := (hcond0_1 t).mpr h1
      rw [show (dat0 V c).leavesExact 4 t = owns (c : Thread nD τ) (ms0_4 t) fullShare ((dat0 V c).after 4 t) from by
        unfold Dat.leavesExact; rw [live0_4 t hc1], after0_4, acc0_next V c t h0]
      iintro ⟨⟨⟨HS, Hc⟩, Hg⟩, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1
        (iblk0 V c 0 t) (iblk0 V c 1 t) (iblk0 V c 2 t) (iblk0 V c 3 t) (acc0 V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hc Hg]
      · isplitl [HS Hc]
        · isplitl [HS]
          · unfold owns; iexists _; isplitr
            swap; · iexact HS
            ipureintro; exact readC8 c _ _ _ _ _ _ _ _ _ _ _ _ _ hc0 hc1 _ _ _ _ _ _
          iexact Hc
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact readC7 c _ _ _ _ _ _ _ _ _ _ _ _ _ hc0 hc1 _ _ _ _ _ _
    · have hc1 : ¬cond0_1 (grid0.coords t) := fun h => h1 ((hcond0_1 t).mp h)
      rw [Dat.leavesExact_idle (dat0 V c) 4 t (idle0_4 t hc1) (noFlush0_4 t hc1)]
      iintro ⟨⟨⟨HS, Hc⟩, Hg⟩, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1
        (iblk0 V c 0 t) (iblk0 V c 1 t) (iblk0 V c 2 t) (iblk0 V c 3 t) (acc0 V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hc Hg]
      · isplitl [HS Hc]
        · isplitl [HS]
          · unfold owns; iexists _; isplitr
            swap; · iexact HS
            ipureintro; exact readB c _ _ _ _ _ _ _ _ _ _ _ _ _ hc0 hc1 _ _ _ _ _ _
          iexact Hc
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.KB.Body1.lean ====
/-
  The body of the second call at one grid point, case by case, for the program read at the word level (the same body as
  the first call's, on the exchanged clouds).
-/
import proofs.«146518_j67740224192624_1_alg».proof.Proof.Gen.Kernel.Launch
import proofs.«146518_j67740224192624_1_alg».proof.Proof.Gen.Kernel.Skeleton
import proofs.«146518_j67740224192624_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions over the grid -/

/-- The first condition: the point is the first of its row of column tiles (third grid coordinate 0). -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The second condition: the point is the last of its row of column tiles (third grid coordinate 3). -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The four input windows are never idle; the output window is idle, and not written back, exactly where the second
    condition fails. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem idle1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem live1_4 : ∀ t : Fin cfg1.N, cond1_1 (grid1.coords t) → cfg1.idle 4 (grid1.coords t) = false := by decide +kernel

/-! ## The body's run, case by case -/

set_option maxHeartbeats 4000000 in
/-- First point of a row of column tiles: the accumulator is reset and then lowered by this tile's row minima; the
    output's buffer is not touched. -/
noncomputable def kernelRun1_A (c : Dev nD) (i : grid1.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole)
    (hc0 : cond1_0 i) (hc1 : ¬cond1_1 i) (x0 x1 x2 x3 : Vec F S1x6x1024 .f32) :
    { LS : List (View.Piece (Elt F) S1024x1 .f32) //
      ∀ (xi : Vec F S1x1024x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc1__minreduce_kernel i arg3 harg3 arg4 harg4 arg5 harg5 arg6 harg6 arg7 harg7 arg8 harg8) K } := by
  refine ⟨?_, fun xi E K => ?run⟩
  case run =>
    simp only [cc1__minreduce_kernel_eq_skeleton]; unfold cc1__minreduce_kernel_skel
    simp only [k1_part1_eq_skeleton]
    unfold owns
    iintro ⟨⟨%f0, %hf0, H0⟩, ⟨%f1, %hf1, H1⟩, ⟨%f2, %hf2, H2⟩, ⟨%f3, %hf3, H3⟩, ⟨%f7, %hf7, H7⟩, ⟨%ds, %fs, -, HS⟩, Hk⟩
    obtain rfl := harg3.eq_unread hf0; obtain rfl := harg4.eq_unread hf1; obtain rfl := harg5.eq_unread hf2; obtain rfl := harg6.eq_unread hf3
    obtain rfl := harg7.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]
    · iexists _; isplitr; · ipureintro; exact harg7.read_unread _
      iexact H7
    iexists _; iexact HS

set_option maxHeartbeats 4000000 in
/-- A middle point: the accumulator, found at `xs`, is lowered by this tile's row minima; the output's buffer is not touched. -/
noncomputable def kernelRun1_B (c : Dev nD) (i : grid1.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole)
    (hc0 : ¬cond1_0 i) (hc1 : ¬cond1_1 i) (x0 x1 x2 x3 : Vec F S1x6x1024 .f32) (xs : Vec F S1024x1 .f32) :
    { LS : List (View.Piece (Elt F) S1024x1 .f32) //
      ∀ (xi : Vec F S1x1024x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc1__minreduce_kernel i arg3 harg3 arg4 harg4 arg5 harg5 arg6 harg6 arg7 harg7 arg8 harg8) K } := by
  refine ⟨?_, fun xi E K => ?run⟩
  case run =>
    simp only [cc1__minreduce_kernel_eq_skeleton]; unfold cc1__minreduce_kernel_skel
    simp only [k1_part1_eq_skeleton]
    unfold owns
    iintro ⟨⟨%f0, %hf0, H0⟩, ⟨%f1, %hf1, H1⟩, ⟨%f2, %hf2, H2⟩, ⟨%f3, %hf3, H3⟩, ⟨%f7, %hf7, H7⟩, ⟨%fs, %hfs, HS⟩, Hk⟩
    obtain rfl := harg3.eq_unread hf0; obtain rfl := harg4.eq_unread hf1; obtain rfl := harg5.eq_unread hf2; obtain rfl := harg6.eq_unread hf3
    obtain rfl := harg7.eq_unread hf7; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]
    · iexists _; isplitr; · ipureintro; exact harg7.read_unread _
      iexact H7
    iexists _; iexact HS

set_option maxHeartbeats 4000000 in
/-- Last point of a row of column tiles: the accumulator, found at `xs`, is lowered by this tile's row minima and then
    copied into the output's buffer. -/
noncomputable def kernelRun1_C (c : Dev nD) (i : grid1.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole)
    (hc0 : ¬cond1_0 i) (hc1 : cond1_1 i) (x0 x1 x2 x3 : Vec F S1x6x1024 .f32) (xs : Vec F S1024x1 .f32) :
    Σ' (L7 : List (View.Piece (Elt F) S1x1024x1 .f32)), { LS : List (View.Piece (Elt F) S1024x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f LS)) -∗ K ⟨⟩))
          ⊢ wp frame (wpE (defs₀ (F := F)) Variants.none c none) E (cc1__minreduce_kernel i arg3 harg3 arg4 harg4 arg5 harg5 arg6 harg6 arg7 harg7 arg8 harg8) K } := by
  refine ⟨?_, ?_, fun E K => ?run⟩
  case run =>
    simp only [cc1__minreduce_kernel_eq_skeleton]; unfold cc1__minreduce_kernel_skel
    simp only [k1_part1_eq_skeleton]
    unfold owns
    iintro ⟨⟨%f0, %hf0, H0⟩, ⟨%f1, %hf1, H1⟩, ⟨%f2, %hf2, H2⟩, ⟨%f3, %hf3, H3⟩, ⟨%d7, %f7, -, H7⟩, ⟨%fs, %hfs, HS⟩, Hk⟩
    obtain rfl := harg3.eq_unread hf0; obtain rfl := harg4.eq_unread hf1; obtain rfl := harg5.eq_unread hf2; obtain rfl := harg6.eq_unread hf3
    obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]
    · iexists _; iexact H7
    iexists _; iexact HS

end Cert.Kernel.R1

end
-- ==== Proof.KB.Region1.lean ====
/-
  The second call as a pipeline region, for the program read at the word level: what its stores leave as functions of the
  staged blocks, the accumulator after each grid point, the proof data, and the body obligation at a generic point.
-/
import proofs.«146518_j67740224192624_1_alg».proof.Proof.KB.Body1
import Idealize.ShloMosaic.Lib.Pipeline.Value
import proofs.«146518_j67740224192624_1_alg».proof.Proof.Gen.Kernel.Launch
import proofs.«146518_j67740224192624_1_alg».proof.Proof.Gen.Kernel.Skeleton
import proofs.«146518_j67740224192624_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the runs' stores leave, as functions of the blocks -/

/-- One point's effect on the accumulator `a`: its minimum with the row minima of the tile's costs, a function of the four
    staged blocks (row-side points `x0` and normals `x1`, column-side points `x2` and normals `x3`). -/
def step1 (x0 x1 x2 x3 : Vec F S1x6x1024 .f32) (a : Vec F S1024x1 .f32) : Vec F S1024x1 .f32 :=
  k1_pay1 (k1_pay4 x0 x2) (k1_pay5 x1 x3) a

theorem hz2 : (![0, 0] : Fin 2 → Nat) = fun _ => 0 := by funext a; fin_cases a <;> rfl
theorem hz3 : (![0, 0, 0] : Fin 3 → Nat) = fun _ => 0 := by funext a; fin_cases a <;> rfl

theorem scoverA (c : Dev nD) (i : grid1.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole) (hc0 : cond1_0 i) (hc1 : ¬cond1_1 i) (x0 x1 x2 x3 : Vec F S1x6x1024 .f32) (y : S1024x1.Idx) :
    ∃ pc ∈ (kernelRun1_A c i arg3 harg3 arg4 harg4 arg5 harg5 arg6 harg6 arg7 harg7 arg8 harg8 hc0 hc1 x0 x1 x2 x3).1, y ∈ pc.1.set :=
  View.cover_of_tiledL (kernelRun1_A c i arg3 harg3 arg4 harg4 arg5 harg5 arg6 harg6 arg7 harg7 arg8 harg8 hc0 hc1 x0 x1 x2 x3).1 S1024x1.size (by sl_kernel_rfl) y

/-- After a first point the accumulator holds the step from +∞. -/
theorem readA (c : Dev nD) (i : grid1.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole) (hc0 : cond1_0 i) (hc1 : ¬cond1_1 i) (x0 x1 x2 x3 : Vec F S1x6x1024 .f32) (f : arg8.view.ty.Contents (Elt F)) :
    arg8.view.read (Elt F) (arg8.view.writes (Elt F) f (kernelRun1_A c i arg3 harg3 arg4 harg4 arg5 harg5 arg6 harg6 arg7 harg7 arg8 harg8 hc0 hc1 x0 x1 x2 x3).1) = step1 x0 x1 x2 x3 k1_pay3 := by
  rw [View.read_writes_eq_canon _ _ _ (scoverA c i arg3 harg3 arg4 harg4 arg5 harg5 arg6 harg6 arg7 harg7 arg8 harg8 hc0 hc1 x0 x1 x2 x3)]
  unfold kernelRun1_A; dsimp only; sl_unfold_words
  rw [View.canon_cons_unit_zero hz2]
  simp only [View.readAt_eq_ld, harg3.read_unread, harg4.read_unread, harg5.read_unread, harg6.read_unread, View.ld_unit_zero (S := S1x6x1024) hz3,
    View.readCov_unit_zero (S := S1024x1) arg8.view hz2]
  rfl

theorem scoverB (c : Dev nD) (i : grid1.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole) (hc0 : ¬cond1_0 i) (hc1 : ¬cond1_1 i) (x0 x1 x2 x3 : Vec F S1x6x1024 .f32) (xs : Vec F S1024x1 .f32) (y : S1024x1.Idx) :
    ∃ pc ∈ (kernelRun1_B c i arg3 harg3 arg4 harg4 arg5 harg5 arg6 harg6 arg7 harg7 arg8 harg8 hc0 hc1 x0 x1 x2 x3 xs).1, y ∈ pc.1.set :=
  View.cover_of_tiledL (kernelRun1_B c i arg3 harg3 arg4 harg4 arg5 harg5 arg6 harg6 arg7 harg7 arg8 harg8 hc0 hc1 x0 x1 x2 x3 xs).1 S1024x1.size (by sl_kernel_rfl) y

/-- After a middle point the accumulator holds the step from what it held. -/
theorem readB (c : Dev nD) (i : grid1.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole) (hc0 : ¬cond1_0 i) (hc1 : ¬cond1_1 i) (x0 x1 x2 x3 : Vec F S1x6x1024 .f32) (xs : Vec F S1024x1 .f32) (f : arg8.view.ty.Contents (Elt F)) :
    arg8.view.read (Elt F) (arg8.view.writes (Elt F) f (kernelRun1_B c i arg3 harg3 arg4 harg4 arg5 harg5 arg6 harg6 arg7 harg7 arg8 harg8 hc0 hc1 x0 x1 x2 x3 xs).1) = step1 x0 x1 x2 x3 xs := by
  rw [View.read_writes_eq_canon _ _ _ (scoverB c i arg3 harg3 arg4 harg4 arg5 harg5 arg6 harg6 arg7 harg7 arg8 harg8 hc0 hc1 x0 x1 x2 x3 xs)]
  unfold kernelRun1_B; dsimp only; sl_unfold_words
  rw [View.canon_cons_unit_zero hz2]
  simp only [View.readAt_eq_ld, harg3.read_unread, harg4.read_unread, harg5.read_unread, harg6.read_unread, harg8.read_unread, View.ld_unit_zero (S := S1x6x1024) hz3,
    View.ld_unit_zero (S := S1024x1) hz2]
  rfl

theorem scoverC8 (c : Dev nD) (i : grid1.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole) (hc0 : ¬cond1_0 i) (hc1 : cond1_1 i) (x0 x1 x2 x3 : Vec F S1x6x1024 .f32) (xs : Vec F S1024x1 .f32) (y : S1024x1.Idx) :
    ∃ pc ∈ (kernelRun1_C c i arg3 harg3 arg4 harg4 arg5 harg5 arg6 harg6 arg7 harg7 arg8 harg8 hc0 hc1 x0 x1 x2 x3 xs).2.1, y ∈ pc.1.set :=
  View.cover_of_tiledL (kernelRun1_C c i arg3 harg3 arg4 harg4 arg5 harg5 arg6 harg6 arg7 harg7 arg8 harg8 hc0 hc1 x0 x1 x2 x3 xs).2.1 S1024x1.size (by sl_kernel_rfl) y

theorem scoverC7 (c : Dev nD) (i : grid1.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole) (hc0 : ¬cond1_0 i) (hc1 : cond1_1 i) (x0 x1 x2 x3 : Vec F S1x6x1024 .f32) (xs : Vec F S1024x1 .f32) (y : S1x1024x1.Idx) :
    ∃ pc ∈ (kernelRun1_C c i arg3 harg3 arg4 harg4 arg5 harg5 arg6 harg6 arg7 harg7 arg8 harg8 hc0 hc1 x0 x1 x2 x3 xs).1, y ∈ pc.1.set :=
  View.cover_of_tiledL (kernelRun1_C c i arg3 harg3 arg4 harg4 arg5 harg5 arg6 harg6 arg7 harg7 arg8 harg8 hc0 hc1 x0 x1 x2 x3 xs).1 S1x1024x1.size (by sl_kernel_rfl) y

/-- After a last point the accumulator holds the step from what it held, -/
theorem readC8 (c : Dev nD) (i : grid1.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole) (hc0 : ¬cond1_0 i) (hc1 : cond1_1 i) (x0 x1 x2 x3 : Vec F S1x6x1024 .f32) (xs : Vec F S1024x1 .f32) (f : arg8.view.ty.Contents (Elt F)) :
    arg8.view.read (Elt F) (arg8.view.writes (Elt F) f (kernelRun1_C c i arg3 harg3 arg4 harg4 arg5 harg5 arg6 harg6 arg7 harg7 arg8 harg8 hc0 hc1 x0 x1 x2 x3 xs).2.1) = step1 x0 x1 x2 x3 xs := by
  rw [View.read_writes_eq_canon _ _ _ (scoverC8 c i arg3 harg3 arg4 harg4 arg5 harg5 arg6 harg6 arg7 harg7 arg8 harg8 hc0 hc1 x0 x1 x2 x3 xs)]
  unfold kernelRun1_C; dsimp only; sl_unfold_words
  rw [View.canon_cons_unit_zero hz2]
  simp only [View.readAt_eq_ld, harg3.read_unread, harg4.read_unread, harg5.read_unread, harg6.read_unread, harg8.read_unread, View.ld_unit_zero (S := S1x6x1024) hz3,
    View.ld_unit_zero (S := S1024x1) hz2]
  rfl

/-- and the output's buffer that accumulator re-laid as [1, 1024, 1]. -/
theorem readC7 (c : Dev nD) (i : grid1.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole) (hc0 : ¬cond1_0 i) (hc1 : cond1_1 i) (x0 x1 x2 x3 : Vec F S1x6x1024 .f32) (xs : Vec F S1024x1 .f32) (f : arg7.view.ty.Contents (Elt F)) :
    arg7.view.read (Elt F) (arg7.view.writes (Elt F) f (kernelRun1_C c i arg3 harg3 arg4 harg4 arg5 harg5 arg6 harg6 arg7 harg7 arg8 harg8 hc0 hc1 x0 x1 x2 x3 xs).1) = k1_pay2 (step1 x0 x1 x2 x3 xs) := by
  rw [View.read_writes_eq_canon _ _ _ (scoverC7 c i arg3 harg3 arg4 harg4 arg5 harg5 arg6 harg6 arg7 harg7 arg8 harg8 hc0 hc1 x0 x1 x2 x3 xs)]
  unfold kernelRun1_C; dsimp only; sl_unfold_words
  rw [View.canon_cons_unit_zero hz3]
  simp only [View.readAt_eq_ld, harg3.read_unread, harg4.read_unread, harg5.read_unread, harg6.read_unread, harg8.read_unread, View.ld_unit_zero (S := S1x6x1024) hz3,
    View.ld_unit_zero (S := S1024x1) hz2]
  simp only [View.readCov_unit_zero (S := S1024x1) arg8.view hz2]
  rfl

/-! ## The windows' blocks, as the region finds the arrays -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The staging memrefs at a point, and the scratch -/

abbrev ms1_0 (t : Fin cfg1.N) : Memref sig .tc .vmem S1x6x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x6x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x6x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x6x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x1 .f32 := win1_4.stage (cfg1.slots t 4)
abbrev hs1_4 (t : Fin cfg1.N) : (ms1_4 t).IsWhole := hstage1_4 ((cfg1.slots t 4).cast nbuf1_4)
/-- The accumulator. -/
abbrev scM1 : Memref sig .tc .vmem S1024x1 .f32 := Memref.whole cc1_scratch0

/-! ## The accumulator after each point -/

/-- The accumulator after point `n`: the step over the point's four blocks, from +∞ at the first point of a row of column
    tiles and from what the point before left otherwise. -/
def acc1 (c : Dev nD) : (n : ℕ) → n < cfg1.N → Vec F S1024x1 .f32
  | 0, hn => step1 (iblk1 V c 0 ⟨0, hn⟩) (iblk1 V c 1 ⟨0, hn⟩) (iblk1 V c 2 ⟨0, hn⟩) (iblk1 V c 3 ⟨0, hn⟩) k1_pay3
  | n + 1, hn => step1 (iblk1 V c 0 ⟨n + 1, hn⟩) (iblk1 V c 1 ⟨n + 1, hn⟩) (iblk1 V c 2 ⟨n + 1, hn⟩) (iblk1 V c 3 ⟨n + 1, hn⟩)
      (if (n + 1) % 4 = 0 then k1_pay3 else acc1 c n (Nat.lt_of_succ_lt hn))

theorem acc1_first (c : Dev nD) (t : Fin cfg1.N) (h0 : t.val % 4 = 0) :
    acc1 V c t.val t.isLt = step1 (iblk1 V c 0 t) (iblk1 V c 1 t) (iblk1 V c 2 t) (iblk1 V c 3 t) k1_pay3 := by
  obtain ⟨n, hn⟩ := t
  cases n with
  | zero => rfl
  | succ n => show step1 _ _ _ _ (if (n + 1) % 4 = 0 then _ else _) = _; rw [if_pos h0]

theorem acc1_next (c : Dev nD) (t : Fin cfg1.N) (h0 : ¬t.val % 4 = 0) :
    acc1 V c t.val t.isLt = step1 (iblk1 V c 0 t) (iblk1 V c 1 t) (iblk1 V c 2 t) (iblk1 V c 3 t)
      (acc1 V c (t.val - 1) (Nat.lt_of_le_of_lt (Nat.sub_le _ _) t.isLt)) := by
  obtain ⟨n, hn⟩ := t
  cases n with
  | zero => exact absurd (Nat.zero_mod _) h0
  | succ n => show step1 _ _ _ _ (if (n + 1) % 4 = 0 then _ else _) = _; rw [if_neg h0]; rfl

/-! ## The region's invariant -/

/-- The scoped buffers of the other call, each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

theorem PhiA1_eq (c : Dev nD) :
    (Pipeline.ΦA spec1 c : sProp 𝕄)
      = iprop(iprop((∃ d, owns (c : Thread nD τ) scM1 fullShare d) ∗ others1 c) ∗ (∃ r, prngReg c r)) := by
  have h₁ : (Pipeline.ΦA spec1 c : sProp 𝕄) ⊢ iprop(iprop((∃ d, owns (c : Thread nD τ) scM1 fullShare d) ∗ others1 c) ∗ (∃ r, prngReg c r)) := by
    unfold Pipeline.ΦA others1; rw [scopedRest1_eq]; simp only [scM1, owns_whole]
    iintro ⟨⟨H1, H2, H3, H4, H5, H6, H7, H8, H9, H10, H11, HS⟩, Hg⟩
    isplitr [Hg]
    · isplitl [HS]; · iexact HS
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · iexact Hg
  have h₂ : iprop(iprop((∃ d, owns (c : Thread nD τ) scM1 fullShare d) ∗ others1 c) ∗ (∃ r, prngReg c r)) ⊢ (Pipeline.ΦA spec1 c : sProp 𝕄) := by
    unfold Pipeline.ΦA others1; rw [scopedRest1_eq]; simp only [scM1, owns_whole]
    iintro ⟨⟨HS, H1, H2, H3, H4, H5, H6, H7, H8, H9, H10, H11⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact HS
    · iexact Hg
  exact BI.equiv_iff.mp ⟨h₁, h₂⟩

/-- Before the first point: every scoped buffer no window stages at anything, the generator register at some state.
    Afterwards: the accumulator at what the point before left. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (acc1 V c n hn) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare (acc1 V c (n - 1) (by omega)) ∗ others1 c) ∗ (∃ r, prngReg c r)) := by
  cases n with
  | zero => exact absurd rfl hz
  | succ n => rfl

/-! ## The pipeline's proof data -/

/-- The proof data of the call on core `c`: the arrays as the region finds them; after the body each input's buffer at its
    block and, at a last point, the output's at the accumulator re-laid; the invariant `PhiS1`; nothing owed; an array
    read through two windows held half and half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay2 (acc1 V c t.val t.isLt)
  Φ t := PhiS1 V c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay2 (acc1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_0 (c : Dev nD) (t : Fin cfg1.N) : (dat1 V c).leavesExact 0 t = owns (c : Thread nD τ) (ms1_0 t) fullShare (iblk1 V c 0 t) := by
  unfold Dat.leavesExact; rw [live1_0 t, after1_0]
theorem leaves1_1 (c : Dev nD) (t : Fin cfg1.N) : (dat1 V c).leavesExact 1 t = owns (c : Thread nD τ) (ms1_1 t) fullShare (iblk1 V c 1 t) := by
  unfold Dat.leavesExact; rw [live1_1 t, after1_1]
theorem leaves1_2 (c : Dev nD) (t : Fin cfg1.N) : (dat1 V c).leavesExact 2 t = owns (c : Thread nD τ) (ms1_2 t) fullShare (iblk1 V c 2 t) := by
  unfold Dat.leavesExact; rw [live1_2 t, after1_2]
theorem leaves1_3 (c : Dev nD) (t : Fin cfg1.N) : (dat1 V c).leavesExact 3 t = owns (c : Thread nD τ) (ms1_3 t) fullShare (iblk1 V c 3 t) := by
  unfold Dat.leavesExact; rw [live1_3 t, after1_3]

set_option maxHeartbeats 4800000 in
/-- The body at any point: the inputs' buffers hold their blocks; the point's position in its row of column tiles says which
    case's run applies; the invariant hands the body the accumulator at what the point before left (anything at a first
    point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  have hN : t.val < 128 := lt_of_lt_of_eq t.isLt (show cfg1.N = 128 from N_1)
  by_cases h0 : t.val % 4 = 0
  · have h1 : ¬t.val % 4 = 3 := by omega
    have hc0 : cond1_0 (grid1.coords t) := (hcond1_0 t).mpr h0
    have hc1 : ¬cond1_1 (grid1.coords t) := fun h => h1 ((hcond1_1 t).mp h)
    rw [Dat.leavesExact_idle (dat1 V c) 4 t (idle1_4 t hc1) (noFlush1_4 t hc1)]
    rw [acc1_first V c t h0]
    have hphi : (dat1 V c).Φ t.castSucc ⊢ (iprop(iprop((∃ d, owns (c : Thread nD τ) scM1 fullShare d) ∗ others1 c) ∗ (∃ r, prngReg c r)) : sProp 𝕄) := by
      rw [PhiS1_castSucc V c t]
      by_cases hz : t.val = 0
      · rw [PhiS1_zero V c _ _ hz, PhiA1_eq]
      · rw [PhiS1_pos V c _ _ hz]
        iintro ⟨⟨HS, Hc⟩, Hg⟩
        isplitl [HS Hc]
        · isplitl [HS]; · iexists _; iexact HS
          iexact Hc
        iexact Hg
    iintro ⟨HΦ, Ho, ⟨%d0, H0⟩, ⟨%d1, H1⟩, ⟨%d2, H2⟩, ⟨%d3, H3⟩, ⟨%d4, H4⟩⟩
    ihave HΦ' := hphi $$ HΦ
    icases HΦ' with ⟨⟨HS, Hc⟩, Hg⟩
    iapply ((kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1
      (iblk1 V c 0 t) (iblk1 V c 1 t) (iblk1 V c 2 t) (iblk1 V c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS Hc Hg]
    · isplitl [HS Hc]
      · isplitl [HS]
        · unfold owns; iexists _; isplitr
          swap; · iexact HS
          ipureintro; exact readA c _ _ _ _ _ _ _ _ _ _ _ _ _ hc0 hc1 _ _ _ _ _
        iexact Hc
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    have hc0 : ¬cond1_0 (grid1.coords t) := fun h => h0 ((hcond1_0 t).mp h)
    rw [acc1_next V c t h0]
    rw [PhiS1_castSucc V c t, PhiS1_pos V c _ _ hz]
    by_cases h1 : t.val % 4 = 3
    · have hc1 : cond1_1 (grid1.coords t) := (hcond1_1 t).mpr h1
      rw [show (dat1 V c).leavesExact 4 t = owns (c : Thread nD τ) (ms1_4 t) fullShare ((dat1 V c).after 4 t) from by
        unfold Dat.leavesExact; rw [live1_4 t hc1], after1_4, acc1_next V c t h0]
      iintro ⟨⟨⟨HS, Hc⟩, Hg⟩, Ho, ⟨%d0, H0⟩, ⟨%d1, H1⟩, ⟨%d2, H2⟩, ⟨%d3, H3⟩, ⟨%d4, H4⟩⟩
      iapply ((kernelRun1_C c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1
        (iblk1 V c 0 t) (iblk1 V c 1 t) (iblk1 V c 2 t) (iblk1 V c 3 t) (acc1 V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hc Hg]
      · isplitl [HS Hc]
        · isplitl [HS]
          · unfold owns; iexists _; isplitr
            swap; · iexact HS
            ipureintro; exact readC8 c _ _ _ _ _ _ _ _ _ _ _ _ _ hc0 hc1 _ _ _ _ _ _
          iexact Hc
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact readC7 c _ _ _ _ _ _ _ _ _ _ _ _ _ hc0 hc1 _ _ _ _ _ _
    · have hc1 : ¬cond1_1 (grid1.coords t) := fun h => h1 ((hcond1_1 t).mp h)
      rw [Dat.leavesExact_idle (dat1 V c) 4 t (idle1_4 t hc1) (noFlush1_4 t hc1)]
      iintro ⟨⟨⟨HS, Hc⟩, Hg⟩, Ho, ⟨%d0, H0⟩, ⟨%d1, H1⟩, ⟨%d2, H2⟩, ⟨%d3, H3⟩, ⟨%d4, H4⟩⟩
      iapply ((kernelRun1_B c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1
        (iblk1 V c 0 t) (iblk1 V c 1 t) (iblk1 V c 2 t) (iblk1 V c 3 t) (acc1 V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hc Hg]
      · isplitl [HS Hc]
        · isplitl [HS]
          · unfold owns; iexists _; isplitr
            swap; · iexact HS
            ipureintro; exact readB c _ _ _ _ _ _ _ _ _ _ _ _ _ hc0 hc1 _ _ _ _ _ _
          iexact Hc
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.R1

end
-- ==== Proof.KB.Run.lean ====
/-
  The whole run of the program read at the word level: the buffers' contents at each boundary of @main, each call's arrays sorted out of the
  unscoped buffers at its entry (an argument array read through two windows is held half and half) and put back at its
  exit with the output array updated, the two calls and the two host stretches as segments, and the launch: every
  weakly fair execution terminates with every unscoped buffer at the last boundary's contents; in particular the
  argument arrays end as launched.
-/
import proofs.«146518_j67740224192624_1_alg».proof.Proof.KB.Region0
import proofs.«146518_j67740224192624_1_alg».proof.Proof.KB.Region1
import proofs.«146518_j67740224192624_1_alg».proof.Proof.Gen.Kernel.Regions

set_option maxRecDepth 16384

noncomputable section

namespace Cert.Kernel.Run

open Cert.Kernel Cert.Kernel.Gen Cert.Kernel.R0 Cert.Kernel.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b
/-- After the first call: its output array at what the write-backs leave. -/
def W1 (c : Dev nD) : Valuation τ sig (Elt F) := Function.update (W0 m c) main_v0 ((dat0 (V0 m) c).arrAt 4 cfg0.N)
abbrev V1 : (c : Dev nD) → (b : Ref sig .tc) → Buf (Elt F) ((c : Thread nD τ).loc b) := fun c b => W1 m c b
/-- After the host operation between the calls. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After the second call. -/
def W3 (c : Dev nD) : Valuation τ sig (Elt F) := Function.update (W2 m c) main_v2 ((dat1 (V2 m) c).arrAt 4 cfg1.N)
abbrev V3 : (c : Dev nD) → (b : Ref sig .tc) → Buf (Elt F) ((c : Thread nD τ).loc b) := fun c b => W3 m c b
/-- After the host operations that follow it. -/
abbrev W4 : Dev nD → Valuation τ sig (Elt F) := fun c => StableHlo.after hostOps2 (W3 m c)

theorem W1_v0 (c : Dev nD) : W1 m c main_v0 = (dat0 (V0 m) c).arrAt 4 cfg0.N := by
  unfold W1; exact Function.update_self ..
theorem W1_of_ne (c : Dev nD) (b : Ref sig .tc) (hb : b ≠ main_v0) : W1 m c b = W0 m c b := by
  unfold W1; exact Function.update_of_ne (StableHlo.devRef_ne_of_ne hb) ..
theorem W3_v2 (c : Dev nD) : W3 m c main_v2 = (dat1 (V2 m) c).arrAt 4 cfg1.N := by
  unfold W3; exact Function.update_self ..
theorem W3_of_ne (c : Dev nD) (b : Ref sig .tc) (hb : b ≠ main_v2) : W3 m c b = W2 m c b := by
  unfold W3; exact Function.update_of_ne (StableHlo.devRef_ne_of_ne hb) ..

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

variable (V : (c : Dev nD) → (b : Ref sig .tc) → Buf (Elt F) ((c : Thread nD τ).loc b))

/-! ## The call's arrays, window by window -/
theorem arrw0_0 (c : Dev nD) (Fa : Buf (Elt F) ((c : Thread nD τ).loc main_arg0)) :
    (((cfg0.win 0).arr.view.loc (c : Thread nD τ)) ↦[(cfg0.win 0).arr.view.set]{(dat0 V c).share 0} Fa : sProp 𝕄) = (((c : Thread nD τ).loc main_arg0) ↦{fullShare.left} Fa) := by
  show (((Memref.whole main_arg0 : Memref sig .tc .hbm S8x6x4096 .f32).view.loc (c : Thread nD τ)) ↦[(Memref.whole main_arg0 : Memref sig .tc .hbm S8x6x4096 .f32).view.set]{fullShare.left} Fa : sProp 𝕄) = _
  simp only [Memref.view_whole, View.set_whole]
theorem arrw0_1 (c : Dev nD) (Fa : Buf (Elt F) ((c : Thread nD τ).loc main_arg1)) :
    (((cfg0.win 1).arr.view.loc (c : Thread nD τ)) ↦[(cfg0.win 1).arr.view.set]{(dat0 V c).share 1} Fa : sProp 𝕄) = (((c : Thread nD τ).loc main_arg1) ↦{fullShare.left} Fa) := by
  show (((Memref.whole main_arg1 : Memref sig .tc .hbm S8x6x4096 .f32).view.loc (c : Thread nD τ)) ↦[(Memref.whole main_arg1 : Memref sig .tc .hbm S8x6x4096 .f32).view.set]{fullShare.left} Fa : sProp 𝕄) = _
  simp only [Memref.view_whole, View.set_whole]
theorem arrw0_2 (c : Dev nD) (Fa : Buf (Elt F) ((c : Thread nD τ).loc main_arg1)) :
    (((cfg0.win 2).arr.view.loc (c : Thread nD τ)) ↦[(cfg0.win 2).arr.view.set]{(dat0 V c).share 2} Fa : sProp 𝕄) = (((c : Thread nD τ).loc main_arg1) ↦{fullShare.right} Fa) := by
  show (((Memref.whole main_arg1 : Memref sig .tc .hbm S8x6x4096 .f32).view.loc (c : Thread nD τ)) ↦[(Memref.whole main_arg1 : Memref sig .tc .hbm S8x6x4096 .f32).view.set]{fullShare.right} Fa : sProp 𝕄) = _
  simp only [Memref.view_whole, View.set_whole]
theorem arrw0_3 (c : Dev nD) (Fa : Buf (Elt F) ((c : Thread nD τ).loc main_arg0)) :
    (((cfg0.win 3).arr.view.loc (c : Thread nD τ)) ↦[(cfg0.win 3).arr.view.set]{(dat0 V c).share 3} Fa : sProp 𝕄) = (((c : Thread nD τ).loc main_arg0) ↦{fullShare.right} Fa) := by
  show (((Memref.whole main_arg0 : Memref sig .tc .hbm S8x6x4096 .f32).view.loc (c : Thread nD τ)) ↦[(Memref.whole main_arg0 : Memref sig .tc .hbm S8x6x4096 .f32).view.set]{fullShare.right} Fa : sProp 𝕄) = _
  simp only [Memref.view_whole, View.set_whole]
theorem arrw0_4 (c : Dev nD) (Fa : Buf (Elt F) ((c : Thread nD τ).loc main_v0)) :
    (((cfg0.win 4).arr.view.loc (c : Thread nD τ)) ↦[(cfg0.win 4).arr.view.set]{(dat0 V c).share 4} Fa : sProp 𝕄) = (((c : Thread nD τ).loc main_v0) ↦{fullShare} Fa) := by
  show (((Memref.whole main_v0 : Memref sig .tc .hbm S8x4096x1 .f32).view.loc (c : Thread nD τ)) ↦[(Memref.whole main_v0 : Memref sig .tc .hbm S8x4096x1 .f32).view.set]{fullShare} Fa : sProp 𝕄) = _
  simp only [Memref.view_whole, View.set_whole]

/-- The arrays of the call: the two clouds each read through two windows, half and half; the output outright. -/
theorem arrays0_eq (c : Dev nD) (Fa : (w : Fin cfg0.W) → Buf (Elt F) ((cfg0.win w).arr.view.loc (c : Thread nD τ))) :
    ((dat0 V c).arrays Fa : sProp 𝕄)
      = iprop((((c : Thread nD τ).loc main_arg0) ↦{fullShare.left} Fa 0) ∗ (((c : Thread nD τ).loc main_arg1) ↦{fullShare.left} Fa 1)
          ∗ (((c : Thread nD τ).loc main_arg1) ↦{fullShare.right} Fa 2) ∗ (((c : Thread nD τ).loc main_arg0) ↦{fullShare.right} Fa 3)
          ∗ (((c : Thread nD τ).loc main_v0) ↦{fullShare} Fa 4)) := by
  unfold Dat.arrays
  rw [bigSep_W0, arrw0_0 V c (Fa 0), arrw0_1 V c (Fa 1), arrw0_2 V c (Fa 2), arrw0_3 V c (Fa 3), arrw0_4 V c (Fa 4)]

/-! ## The call's arrays, window by window -/
theorem arrw1_0 (c : Dev nD) (Fa : Buf (Elt F) ((c : Thread nD τ).loc main_arg1)) :
    (((cfg1.win 0).arr.view.loc (c : Thread nD τ)) ↦[(cfg1.win 0).arr.view.set]{(dat1 V c).share 0} Fa : sProp 𝕄) = (((c : Thread nD τ).loc main_arg1) ↦{fullShare.left} Fa) := by
  show (((Memref.whole main_arg1 : Memref sig .tc .hbm S8x6x4096 .f32).view.loc (c : Thread nD τ)) ↦[(Memref.whole main_arg1 : Memref sig .tc .hbm S8x6x4096 .f32).view.set]{fullShare.left} Fa : sProp 𝕄) = _
  simp only [Memref.view_whole, View.set_whole]
theorem arrw1_1 (c : Dev nD) (Fa : Buf (Elt F) ((c : Thread nD τ).loc main_arg0)) :
    (((cfg1.win 1).arr.view.loc (c : Thread nD τ)) ↦[(cfg1.win 1).arr.view.set]{(dat1 V c).share 1} Fa : sProp 𝕄) = (((c : Thread nD τ).loc main_arg0) ↦{fullShare.left} Fa) := by
  show (((Memref.whole main_arg0 : Memref sig .tc .hbm S8x6x4096 .f32).view.loc (c : Thread nD τ)) ↦[(Memref.whole main_arg0 : Memref sig .tc .hbm S8x6x4096 .f32).view.set]{fullShare.left} Fa : sProp 𝕄) = _
  simp only [Memref.view_whole, View.set_whole]
theorem arrw1_2 (c : Dev nD) (Fa : Buf (Elt F) ((c : Thread nD τ).loc main_arg0)) :
    (((cfg1.win 2).arr.view.loc (c : Thread nD τ)) ↦[(cfg1.win 2).arr.view.set]{(dat1 V c).share 2} Fa : sProp 𝕄) = (((c : Thread nD τ).loc main_arg0) ↦{fullShare.right} Fa) := by
  show (((Memref.whole main_arg0 : Memref sig .tc .hbm S8x6x4096 .f32).view.loc (c : Thread nD τ)) ↦[(Memref.whole main_arg0 : Memref sig .tc .hbm S8x6x4096 .f32).view.set]{fullShare.right} Fa : sProp 𝕄) = _
  simp only [Memref.view_whole, View.set_whole]
theorem arrw1_3 (c : Dev nD) (Fa : Buf (Elt F) ((c : Thread nD τ).loc main_arg1)) :
    (((cfg1.win 3).arr.view.loc (c : Thread nD τ)) ↦[(cfg1.win 3).arr.view.set]{(dat1 V c).share 3} Fa : sProp 𝕄) = (((c : Thread nD τ).loc main_arg1) ↦{fullShare.right} Fa) := by
  show (((Memref.whole main_arg1 : Memref sig .tc .hbm S8x6x4096 .f32).view.loc (c : Thread nD τ)) ↦[(Memref.whole main_arg1 : Memref sig .tc .hbm S8x6x4096 .f32).view.set]{fullShare.right} Fa : sProp 𝕄) = _
  simp only [Memref.view_whole, View.set_whole]
theorem arrw1_4 (c : Dev nD) (Fa : Buf (Elt F) ((c : Thread nD τ).loc main_v2)) :
    (((cfg1.win 4).arr.view.loc (c : Thread nD τ)) ↦[(cfg1.win 4).arr.view.set]{(dat1 V c).share 4} Fa : sProp 𝕄) = (((c : Thread nD τ).loc main_v2) ↦{fullShare} Fa) := by
  show (((Memref.whole main_v2 : Memref sig .tc .hbm S8x4096x1 .f32).view.loc (c : Thread nD τ)) ↦[(Memref.whole main_v2 : Memref sig .tc .hbm S8x4096x1 .f32).view.set]{fullShare} Fa : sProp 𝕄) = _
  simp only [Memref.view_whole, View.set_whole]

/-- The arrays of the call: the two clouds each read through two windows, half and half; the output outright. -/
theorem arrays1_eq (c : Dev nD) (Fa : (w : Fin cfg1.W) → Buf (Elt F) ((cfg1.win w).arr.view.loc (c : Thread nD τ))) :
    ((dat1 V c).arrays Fa : sProp 𝕄)
      = iprop((((c : Thread nD τ).loc main_arg1) ↦{fullShare.left} Fa 0) ∗ (((c : Thread nD τ).loc main_arg0) ↦{fullShare.left} Fa 1)
          ∗ (((c : Thread nD τ).loc main_arg0) ↦{fullShare.right} Fa 2) ∗ (((c : Thread nD τ).loc main_arg1) ↦{fullShare.right} Fa 3)
          ∗ (((c : Thread nD τ).loc main_v2) ↦{fullShare} Fa 4)) := by
  unfold Dat.arrays
  rw [bigSep_W1, arrw1_0 V c (Fa 0), arrw1_1 V c (Fa 1), arrw1_2 V c (Fa 2), arrw1_3 V c (Fa 3), arrw1_4 V c (Fa 4)]

/-! ## Call 0: its arrays out of the unscoped buffers and back -/

theorem arrBufs0_eq (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_arg0) ↦{fullShare} Vc main_arg0) ∗ (((c : Thread nD τ).loc main_arg1) ↦{fullShare} Vc main_arg1)
          ∗ (((c : Thread nD τ).loc main_v0) ↦{fullShare} Vc main_v0)) := by
  unfold Pipeline.arrBufs
  exact bigSep_eq_bigSepL_of_eq [main_arg0, main_arg1, main_v0] (by decide) (by decide) _

/-- ENTRY: the unscoped buffers at `Vc` are the call's arrays at those contents and the rest. -/
theorem entry0 (c : Dev nD) :
    (StableHlo.held (c : Thread nD τ) (Pipeline.ucRefs τ sig) (W0 m c) : sProp 𝕄)
      ⊢ iprop((pdats m 0 c).arrays ((pdats m 0 c).arrAt · 0) ∗ Pipeline.unscopedRest (Ix := Unit) (Name := ℕ) (U := UR sig nD τ) (Lvl := ℕ) spec0 c (V0 m c)) := by
  rw [← Pipeline.unscopedBufs_held (Ix := Unit) (Name := ℕ) (U := UR sig nD τ) (Lvl := ℕ) c (W0 m c)]
  rw [Pipeline.unscopedBufs_split₀ cfgs (0 : Fin 2) winFacts₀0.arr_unscoped c (V0 m c)]
  show iprop(Pipeline.arrBufs spec0 c (V0 m c) ∗ Pipeline.unscopedRest spec0 c (V0 m c)) ⊢ iprop((dat0 (V0 m) c).arrays ((dat0 (V0 m) c).arrAt · 0) ∗ Pipeline.unscopedRest spec0 c (V0 m c))
  rw [arrBufs0_eq, arrays0_eq]
  iintro ⟨⟨Ha0, Ha1, Hv⟩, Hrest⟩
  ihave Ha0' := (pointsTo_share (PosShare.mem_left_op_right fullShare)).1 $$ Ha0
  icases Ha0' with ⟨Ha0l, Ha0r⟩
  ihave Ha1' := (pointsTo_share (PosShare.mem_left_op_right fullShare)).1 $$ Ha1
  icases Ha1' with ⟨Ha1l, Ha1r⟩
  isplitr [Hrest]
  · isplitl [Ha0l]; · iexact Ha0l
    isplitl [Ha1l]; · iexact Ha1l
    isplitl [Ha1r]; · iexact Ha1r
    isplitl [Ha0r]; · iexact Ha0r
    iexact Hv
  · iexact Hrest

/-- EXIT: the call's arrays at their final contents and the rest are the unscoped buffers with the output array updated. -/
theorem exit0 (c : Dev nD) :
    iprop((pdats m 0 c).arrays ((pdats m 0 c).arrAt · cfg0.N) ∗ Pipeline.unscopedRest (Ix := Unit) (Name := ℕ) (U := UR sig nD τ) (Lvl := ℕ) spec0 c (V0 m c))
      ⊢ (StableHlo.held (c : Thread nD τ) (Pipeline.ucRefs τ sig) (W1 m c) : sProp 𝕄) := by
  rw [← Pipeline.unscopedBufs_held (Ix := Unit) (Name := ℕ) (U := UR sig nD τ) (Lvl := ℕ) c (W1 m c)]
  rw [Pipeline.unscopedBufs_split₀ cfgs (0 : Fin 2) winFacts₀0.arr_unscoped c (V1 m c)]
  show iprop((dat0 (V0 m) c).arrays ((dat0 (V0 m) c).arrAt · cfg0.N) ∗ Pipeline.unscopedRest spec0 c (V0 m c))
    ⊢ iprop(Pipeline.arrBufs spec0 c (V1 m c) ∗ Pipeline.unscopedRest spec0 c (V1 m c))
  rw [arrBufs0_eq, arrays0_eq]
  have hrest : (Pipeline.unscopedRest (Ix := Unit) (Name := ℕ) (U := UR sig nD τ) (Lvl := ℕ) spec0 c (V1 m c) : sProp 𝕄) = Pipeline.unscopedRest spec0 c (V0 m c) := by
    unfold Pipeline.unscopedRest
    exact bigSep_congr fun b hb => by
      rw [show V1 m c b = V0 m c b from W1_of_ne m c b fun e => (Finset.mem_sdiff.mp hb).2 (Finset.mem_image.mpr ⟨4, Finset.mem_univ _, e.symm⟩)]
  rw [hrest]
  rw [show (dat0 (V0 m) c).arrAt 0 cfg0.N = V0 m c main_arg0 from ((dat0 (V0 m) c).arrAt_in 0 rfl _).trans (A_eq0 (V0 m) c 0),
    show (dat0 (V0 m) c).arrAt 1 cfg0.N = V0 m c main_arg1 from ((dat0 (V0 m) c).arrAt_in 1 rfl _).trans (A_eq0 (V0 m) c 1),
    show (dat0 (V0 m) c).arrAt 2 cfg0.N = V0 m c main_arg1 from ((dat0 (V0 m) c).arrAt_in 2 rfl _).trans (A_eq0 (V0 m) c 2),
    show (dat0 (V0 m) c).arrAt 3 cfg0.N = V0 m c main_arg0 from ((dat0 (V0 m) c).arrAt_in 3 rfl _).trans (A_eq0 (V0 m) c 3)]
  rw [show V1 m c main_arg0 = V0 m c main_arg0 from W1_of_ne m c main_arg0 (by decide),
    show V1 m c main_arg1 = V0 m c main_arg1 from W1_of_ne m c main_arg1 (by decide),
    show V1 m c main_v0 = (dat0 (V0 m) c).arrAt 4 cfg0.N from W1_v0 m c]
  iintro ⟨⟨Hw0, Hw1, Hw2, Hw3, Hw4⟩, Hrest⟩
  isplitr [Hrest]
  · isplitl [Hw0 Hw3]
    · iapply (pointsTo_share (PosShare.mem_left_op_right fullShare)).2
      isplitl [Hw0]; · iexact Hw0
      iexact Hw3
    isplitl [Hw1 Hw2]
    · iapply (pointsTo_share (PosShare.mem_left_op_right fullShare)).2
      isplitl [Hw1]; · iexact Hw1
      iexact Hw2
    iexact Hw4
  · iexact Hrest

/-- After the last point the invariant gives back every scoped buffer at some contents and the generator register. -/
theorem Phi_out0 (c : Dev nD) : (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS, Hc⟩, Hg⟩
  isplitl [HS Hc]
  · isplitl [HS]; · iexists _; iexact HS
    iexact Hc
  iexact Hg

set_option backward.isDefEq.respectTransparency.types false in
/-- Call 0 as a segment: entered from every unscoped buffer at `W0`, left at `W1`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    iintro ⟨⟨Hub, Hp, HO⟩, -, -⟩
    ihave H := (entry0 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ (Pipeline.ΦA spec0 c : sProp 𝕄) from Phi_out0 (V0 m) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit0 m c); isplitl [Ha] <;> iassumption
    isplitl [HY]; · iexact HY
    unfold Pipeline.Dat.owesAt Pipeline.owesWithin
    icases HO with ⟨%W, -, HO⟩; iexists W; iexact HO

/-! ## Call 1: its arrays out of the unscoped buffers and back -/

theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_arg0) ↦{fullShare} Vc main_arg0) ∗ (((c : Thread nD τ).loc main_arg1) ↦{fullShare} Vc main_arg1)
          ∗ (((c : Thread nD τ).loc main_v2) ↦{fullShare} Vc main_v2)) := by
  unfold Pipeline.arrBufs
  exact bigSep_eq_bigSepL_of_eq [main_arg0, main_arg1, main_v2] (by decide) (by decide) _

/-- ENTRY: the unscoped buffers at `Vc` are the call's arrays at those contents and the rest. -/
theorem entry1 (c : Dev nD) :
    (StableHlo.held (c : Thread nD τ) (Pipeline.ucRefs τ sig) (W2 m c) : sProp 𝕄)
      ⊢ iprop((pdats m 1 c).arrays ((pdats m 1 c).arrAt · 0) ∗ Pipeline.unscopedRest (Ix := Unit) (Name := ℕ) (U := UR sig nD τ) (Lvl := ℕ) spec1 c (V2 m c)) := by
  rw [← Pipeline.unscopedBufs_held (Ix := Unit) (Name := ℕ) (U := UR sig nD τ) (Lvl := ℕ) c (W2 m c)]
  rw [Pipeline.unscopedBufs_split₀ cfgs (1 : Fin 2) winFacts₀1.arr_unscoped c (V2 m c)]
  show iprop(Pipeline.arrBufs spec1 c (V2 m c) ∗ Pipeline.unscopedRest spec1 c (V2 m c)) ⊢ iprop((dat1 (V2 m) c).arrays ((dat1 (V2 m) c).arrAt · 0) ∗ Pipeline.unscopedRest spec1 c (V2 m c))
  rw [arrBufs1_eq, arrays1_eq]
  iintro ⟨⟨Ha0, Ha1, Hv⟩, Hrest⟩
  ihave Ha0' := (pointsTo_share (PosShare.mem_left_op_right fullShare)).1 $$ Ha0
  icases Ha0' with ⟨Ha0l, Ha0r⟩
  ihave Ha1' := (pointsTo_share (PosShare.mem_left_op_right fullShare)).1 $$ Ha1
  icases Ha1' with ⟨Ha1l, Ha1r⟩
  isplitr [Hrest]
  · isplitl [Ha1l]; · iexact Ha1l
    isplitl [Ha0l]; · iexact Ha0l
    isplitl [Ha0r]; · iexact Ha0r
    isplitl [Ha1r]; · iexact Ha1r
    iexact Hv
  · iexact Hrest

/-- EXIT: the call's arrays at their final contents and the rest are the unscoped buffers with the output array updated. -/
theorem exit1 (c : Dev nD) :
    iprop((pdats m 1 c).arrays ((pdats m 1 c).arrAt · cfg1.N) ∗ Pipeline.unscopedRest (Ix := Unit) (Name := ℕ) (U := UR sig nD τ) (Lvl := ℕ) spec1 c (V2 m c))
      ⊢ (StableHlo.held (c : Thread nD τ) (Pipeline.ucRefs τ sig) (W3 m c) : sProp 𝕄) := by
  rw [← Pipeline.unscopedBufs_held (Ix := Unit) (Name := ℕ) (U := UR sig nD τ) (Lvl := ℕ) c (W3 m c)]
  rw [Pipeline.unscopedBufs_split₀ cfgs (1 : Fin 2) winFacts₀1.arr_unscoped c (V3 m c)]
  show iprop((dat1 (V2 m) c).arrays ((dat1 (V2 m) c).arrAt · cfg1.N) ∗ Pipeline.unscopedRest spec1 c (V2 m c))
    ⊢ iprop(Pipeline.arrBufs spec1 c (V3 m c) ∗ Pipeline.unscopedRest spec1 c (V3 m c))
  rw [arrBufs1_eq, arrays1_eq]
  have hrest : (Pipeline.unscopedRest (Ix := Unit) (Name := ℕ) (U := UR sig nD τ) (Lvl := ℕ) spec1 c (V3 m c) : sProp 𝕄) = Pipeline.unscopedRest spec1 c (V2 m c) := by
    unfold Pipeline.unscopedRest
    exact bigSep_congr fun b hb => by
      rw [show V3 m c b = V2 m c b from W3_of_ne m c b fun e => (Finset.mem_sdiff.mp hb).2 (Finset.mem_image.mpr ⟨4, Finset.mem_univ _, e.symm⟩)]
  rw [hrest]
  rw [show (dat1 (V2 m) c).arrAt 0 cfg1.N = V2 m c main_arg1 from ((dat1 (V2 m) c).arrAt_in 0 rfl _).trans (A_eq1 (V2 m) c 0),
    show (dat1 (V2 m) c).arrAt 1 cfg1.N = V2 m c main_arg0 from ((dat1 (V2 m) c).arrAt_in 1 rfl _).trans (A_eq1 (V2 m) c 1),
    show (dat1 (V2 m) c).arrAt 2 cfg1.N = V2 m c main_arg0 from ((dat1 (V2 m) c).arrAt_in 2 rfl _).trans (A_eq1 (V2 m) c 2),
    show (dat1 (V2 m) c).arrAt 3 cfg1.N = V2 m c main_arg1 from ((dat1 (V2 m) c).arrAt_in 3 rfl _).trans (A_eq1 (V2 m) c 3)]
  rw [show V3 m c main_arg0 = V2 m c main_arg0 from W3_of_ne m c main_arg0 (by decide),
    show V3 m c main_arg1 = V2 m c main_arg1 from W3_of_ne m c main_arg1 (by decide),
    show V3 m c main_v2 = (dat1 (V2 m) c).arrAt 4 cfg1.N from W3_v2 m c]
  iintro ⟨⟨Hw0, Hw1, Hw2, Hw3, Hw4⟩, Hrest⟩
  isplitr [Hrest]
  · isplitl [Hw1 Hw2]
    · iapply (pointsTo_share (PosShare.mem_left_op_right fullShare)).2
      isplitl [Hw1]; · iexact Hw1
      iexact Hw2
    isplitl [Hw0 Hw3]
    · iapply (pointsTo_share (PosShare.mem_left_op_right fullShare)).2
      isplitl [Hw0]; · iexact Hw0
      iexact Hw3
    iexact Hw4
  · iexact Hrest

/-- After the last point the invariant gives back every scoped buffer at some contents and the generator register. -/
theorem Phi_out1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨HS, Hc⟩, Hg⟩
  isplitl [HS Hc]
  · isplitl [HS]; · iexists _; iexact HS
    iexact Hc
  iexact Hg

set_option backward.isDefEq.respectTransparency.types false in
/-- Call 1 as a segment: entered from every unscoped buffer at `W2`, left at `W3`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from Phi_out1 (V2 m) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c); isplitl [Ha] <;> iassumption
    isplitl [HY]; · iexact HY
    unfold Pipeline.Dat.owesAt Pipeline.owesWithin
    icases HO with ⟨%W, -, HO⟩; iexists W; iexact HO

/-! ## @main as segments, and the launch -/

/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W4 m c) ∗ ∃ r, prngReg c r)

/-- @main's four segments in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state holds each unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => (show iprop(StableHlo.held (c : Thread nD τ) (Pipeline.ucRefs τ sig) (W4 m c) ∗ R c)
        ⊢ (iprop(Tₙ m c ∗ ∃ W, owes (c : Thread nD τ) (0 : CellTallies nD τ sig Unit) W) : sProp 𝕄) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## What the last boundary's contents are -/

theorem W4_arg0 (c : Dev nD) : W4 m c main_arg0 = m ((c : Thread nD τ).loc main_arg0) :=
  (StableHlo.after_of_writes_sub hostOps2 _ hostOps2_writes (by decide)).trans <| (W3_of_ne m c main_arg0 (by decide)).trans <|
    (StableHlo.after_of_writes_sub hostOps1 _ hostOps1_writes (by decide)).trans <| (W1_of_ne m c main_arg0 (by decide)).trans rfl
theorem W4_arg1 (c : Dev nD) : W4 m c main_arg1 = m ((c : Thread nD τ).loc main_arg1) :=
  (StableHlo.after_of_writes_sub hostOps2 _ hostOps2_writes (by decide)).trans <| (W3_of_ne m c main_arg1 (by decide)).trans <|
    (StableHlo.after_of_writes_sub hostOps1 _ hostOps1_writes (by decide)).trans <| (W1_of_ne m c main_arg1 (by decide)).trans rfl
theorem V2_arg0 (c : Dev nD) : V2 m c main_arg0 = m ((c : Thread nD τ).loc main_arg0) :=
  (StableHlo.after_of_writes_sub hostOps1 _ hostOps1_writes (by decide)).trans <| (W1_of_ne m c main_arg0 (by decide)).trans rfl
theorem V2_arg1 (c : Dev nD) : V2 m c main_arg1 = m ((c : Thread nD τ).loc main_arg1) :=
  (StableHlo.after_of_writes_sub hostOps1 _ hostOps1_writes (by decide)).trans <| (W1_of_ne m c main_arg1 (by decide)).trans rfl

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ (mem_uc main_arg0 (by decide))).trans (W4_arg0 m c),
    (h c _ (mem_uc main_arg1 (by decide))).trans (W4_arg1 m c)⟩) (run_main m ρ)

end Cert.Kernel.Run

end
-- ==== Proof.KI.Body0.lean ====
/-
  The body of the first call at one grid point, case by case.  A point (n, r, v) of the 8 × 4 × 4 grid works on
  row tile r and column tile v of batch n.  At v = 0 the [1024, 1] accumulator is reset to +∞; at every point it is
  lowered to the row minima of this tile's 1024 × 1024 costs; at v = 3 it is copied into the output's block.
-/
import proofs.«146518_j67740224192624_1_alg».proof.Proof.Gen.KernelIdeal.Launch
import proofs.«146518_j67740224192624_1_alg».proof.Proof.Gen.KernelIdeal.Skeleton
import proofs.«146518_j67740224192624_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions over the grid -/

/-- The first condition: the point is the first of its row of column tiles (third grid coordinate 0). -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The second condition: the point is the last of its row of column tiles (third grid coordinate 3). -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-- The four input windows are never idle; the output window is idle, and not written back, exactly where the second
    condition fails. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem idle0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem live0_4 : ∀ t : Fin cfg0.N, cond0_1 (grid0.coords t) → cfg0.idle 4 (grid0.coords t) = false := by decide +kernel

/-! ## The body's run, case by case -/

set_option maxHeartbeats 4000000 in
/-- First point of a row of column tiles: the accumulator is reset and then lowered by this tile's row minima; the
    output's buffer is not touched. -/
noncomputable def kernelRun0_A (c : Dev nD) (i : grid0.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole)
    (hc0 : cond0_0 i) (hc1 : ¬cond0_1 i) (x0 x1 x2 x3 : Vec F S1x6x1024 .f32) :
    { LS : List (View.Piece (Elt F) S1024x1 .f32) //
      ∀ (xi : Vec F S1x1024x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc0__minreduce_kernel i arg3 harg3 arg4 harg4 arg5 harg5 arg6 harg6 arg7 harg7 arg8 harg8) K } := by
  refine ⟨?_, fun xi E K => ?run⟩
  case run =>
    simp only [cc0__minreduce_kernel_eq_skeleton]; unfold cc0__minreduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f7, %hf7, H7⟩, ⟨%ds, %fs, -, HS⟩, Hk⟩
    obtain rfl := harg3.eq_unread hf0; obtain rfl := harg4.eq_unread hf1; obtain rfl := harg5.eq_unread hf2; obtain rfl := harg6.eq_unread hf3
    obtain rfl := harg7.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]
    · iexists _; isplitr; · ipureintro; exact harg7.read_unread _
      iexact H7
    iexists _; iexact HS

set_option maxHeartbeats 4000000 in
/-- A middle point: the accumulator, found at `xs`, is lowered by this tile's row minima; the output's buffer is not touched. -/
noncomputable def kernelRun0_B (c : Dev nD) (i : grid0.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole)
    (hc0 : ¬cond0_0 i) (hc1 : ¬cond0_1 i) (x0 x1 x2 x3 : Vec F S1x6x1024 .f32) (xs : Vec F S1024x1 .f32) :
    { LS : List (View.Piece (Elt F) S1024x1 .f32) //
      ∀ (xi : Vec F S1x1024x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc0__minreduce_kernel i arg3 harg3 arg4 harg4 arg5 harg5 arg6 harg6 arg7 harg7 arg8 harg8) K } := by
  refine ⟨?_, fun xi E K => ?run⟩
  case run =>
    simp only [cc0__minreduce_kernel_eq_skeleton]; unfold cc0__minreduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f7, %hf7, H7⟩, ⟨%fs, %hfs, HS⟩, Hk⟩
    obtain rfl := harg3.eq_unread hf0; obtain rfl := harg4.eq_unread hf1; obtain rfl := harg5.eq_unread hf2; obtain rfl := harg6.eq_unread hf3
    obtain rfl := harg7.eq_unread hf7; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]
    · iexists _; isplitr; · ipureintro; exact harg7.read_unread _
      iexact H7
    iexists _; iexact HS

set_option maxHeartbeats 4000000 in
/-- Last point of a row of column tiles: the accumulator, found at `xs`, is lowered by this tile's row minima and then
    copied into the output's buffer. -/
noncomputable def kernelRun0_C (c : Dev nD) (i : grid0.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole)
    (hc0 : ¬cond0_0 i) (hc1 : cond0_1 i) (x0 x1 x2 x3 : Vec F S1x6x1024 .f32) (xs : Vec F S1024x1 .f32) :
    Σ' (L7 : List (View.Piece (Elt F) S1x1024x1 .f32)), { LS : List (View.Piece (Elt F) S1024x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f LS)) -∗ K ⟨⟩))
          ⊢ wp frame (wpE (defs₀ (F := F)) Variants.none c none) E (cc0__minreduce_kernel i arg3 harg3 arg4 harg4 arg5 harg5 arg6 harg6 arg7 harg7 arg8 harg8) K } := by
  refine ⟨?_, ?_, fun E K => ?run⟩
  case run =>
    simp only [cc0__minreduce_kernel_eq_skeleton]; unfold cc0__minreduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%d7, %f7, -, H7⟩, ⟨%fs, %hfs, HS⟩, Hk⟩
    obtain rfl := harg3.eq_unread hf0; obtain rfl := harg4.eq_unread hf1; obtain rfl := harg5.eq_unread hf2; obtain rfl := harg6.eq_unread hf3
    obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]
    · iexists _; iexact H7
    iexists _; iexact HS

end Cert.KernelIdeal.R0

end
-- ==== Proof.KI.Region0.lean ====
/-
  The first call as a pipeline region: what its stores leave as functions of the staged blocks, the accumulator after each
  grid point, the proof data, and the body obligation at a generic point.
-/
import proofs.«146518_j67740224192624_1_alg».proof.Proof.KI.Body0
import Idealize.ShloMosaic.Lib.Pipeline.Value
import proofs.«146518_j67740224192624_1_alg».proof.Proof.Gen.KernelIdeal.Launch
import proofs.«146518_j67740224192624_1_alg».proof.Proof.Gen.KernelIdeal.Skeleton
import proofs.«146518_j67740224192624_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the runs' stores leave, as functions of the blocks -/

/-- One point's effect on the accumulator `a`: its minimum with the row minima of the tile's costs, a function of the four
    staged blocks (row-side points `x0` and normals `x1`, column-side points `x2` and normals `x3`). -/
def step0 (x0 x1 x2 x3 : Vec F S1x6x1024 .f32) (a : Vec F S1024x1 .f32) : Vec F S1024x1 .f32 :=
  k0_pay1 (k0_pay4 x0 x2) (k0_pay5 x1 x3) a

theorem hz2 : (![0, 0] : Fin 2 → Nat) = fun _ => 0 := by funext a; fin_cases a <;> rfl
theorem hz3 : (![0, 0, 0] : Fin 3 → Nat) = fun _ => 0 := by funext a; fin_cases a <;> rfl

theorem scoverA (c : Dev nD) (i : grid0.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole) (hc0 : cond0_0 i) (hc1 : ¬cond0_1 i) (x0 x1 x2 x3 : Vec F S1x6x1024 .f32) (y : S1024x1.Idx) :
    ∃ pc ∈ (kernelRun0_A c i arg3 harg3 arg4 harg4 arg5 harg5 arg6 harg6 arg7 harg7 arg8 harg8 hc0 hc1 x0 x1 x2 x3).1, y ∈ pc.1.set :=
  View.cover_of_tiledL (kernelRun0_A c i arg3 harg3 arg4 harg4 arg5 harg5 arg6 harg6 arg7 harg7 arg8 harg8 hc0 hc1 x0 x1 x2 x3).1 S1024x1.size (by sl_kernel_rfl) y

/-- After a first point the accumulator holds the step from +∞. -/
theorem readA (c : Dev nD) (i : grid0.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole) (hc0 : cond0_0 i) (hc1 : ¬cond0_1 i) (x0 x1 x2 x3 : Vec F S1x6x1024 .f32) (f : arg8.view.ty.Contents (Elt F)) :
    arg8.view.read (Elt F) (arg8.view.writes (Elt F) f (kernelRun0_A c i arg3 harg3 arg4 harg4 arg5 harg5 arg6 harg6 arg7 harg7 arg8 harg8 hc0 hc1 x0 x1 x2 x3).1) = step0 x0 x1 x2 x3 k0_pay3 := by
  rw [View.read_writes_eq_canon _ _ _ (scoverA c i arg3 harg3 arg4 harg4 arg5 harg5 arg6 harg6 arg7 harg7 arg8 harg8 hc0 hc1 x0 x1 x2 x3)]
  unfold kernelRun0_A; dsimp only; sl_unfold_words
  rw [View.canon_cons_unit_zero hz2]
  simp only [View.readAt_eq_ld, harg3.read_unread, harg4.read_unread, harg5.read_unread, harg6.read_unread, View.ld_unit_zero (S := S1x6x1024) hz3,
    View.readCov_unit_zero (S := S1024x1) arg8.view hz2]
  rfl

theorem scoverB (c : Dev nD) (i : grid0.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole) (hc0 : ¬cond0_0 i) (hc1 : ¬cond0_1 i) (x0 x1 x2 x3 : Vec F S1x6x1024 .f32) (xs : Vec F S1024x1 .f32) (y : S1024x1.Idx) :
    ∃ pc ∈ (kernelRun0_B c i arg3 harg3 arg4 harg4 arg5 harg5 arg6 harg6 arg7 harg7 arg8 harg8 hc0 hc1 x0 x1 x2 x3 xs).1, y ∈ pc.1.set :=
  View.cover_of_tiledL (kernelRun0_B c i arg3 harg3 arg4 harg4 arg5 harg5 arg6 harg6 arg7 harg7 arg8 harg8 hc0 hc1 x0 x1 x2 x3 xs).1 S1024x1.size (by sl_kernel_rfl) y

/-- After a middle point the accumulator holds the step from what it held. -/
theorem readB (c : Dev nD) (i : grid0.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole) (hc0 : ¬cond0_0 i) (hc1 : ¬cond0_1 i) (x0 x1 x2 x3 : Vec F S1x6x1024 .f32) (xs : Vec F S1024x1 .f32) (f : arg8.view.ty.Contents (Elt F)) :
    arg8.view.read (Elt F) (arg8.view.writes (Elt F) f (kernelRun0_B c i arg3 harg3 arg4 harg4 arg5 harg5 arg6 harg6 arg7 harg7 arg8 harg8 hc0 hc1 x0 x1 x2 x3 xs).1) = step0 x0 x1 x2 x3 xs := by
  rw [View.read_writes_eq_canon _ _ _ (scoverB c i arg3 harg3 arg4 harg4 arg5 harg5 arg6 harg6 arg7 harg7 arg8 harg8 hc0 hc1 x0 x1 x2 x3 xs)]
  unfold kernelRun0_B; dsimp only; sl_unfold_words
  rw [View.canon_cons_unit_zero hz2]
  simp only [View.readAt_eq_ld, harg3.read_unread, harg4.read_unread, harg5.read_unread, harg6.read_unread, harg8.read_unread, View.ld_unit_zero (S := S1x6x1024) hz3,
    View.ld_unit_zero (S := S1024x1) hz2]
  rfl

theorem scoverC8 (c : Dev nD) (i : grid0.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole) (hc0 : ¬cond0_0 i) (hc1 : cond0_1 i) (x0 x1 x2 x3 : Vec F S1x6x1024 .f32) (xs : Vec F S1024x1 .f32) (y : S1024x1.Idx) :
    ∃ pc ∈ (kernelRun0_C c i arg3 harg3 arg4 harg4 arg5 harg5 arg6 harg6 arg7 harg7 arg8 harg8 hc0 hc1 x0 x1 x2 x3 xs).2.1, y ∈ pc.1.set :=
  View.cover_of_tiledL (kernelRun0_C c i arg3 harg3 arg4 harg4 arg5 harg5 arg6 harg6 arg7 harg7 arg8 harg8 hc0 hc1 x0 x1 x2 x3 xs).2.1 S1024x1.size (by sl_kernel_rfl) y

theorem scoverC7 (c : Dev nD) (i : grid0.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole) (hc0 : ¬cond0_0 i) (hc1 : cond0_1 i) (x0 x1 x2 x3 : Vec F S1x6x1024 .f32) (xs : Vec F S1024x1 .f32) (y : S1x1024x1.Idx) :
    ∃ pc ∈ (kernelRun0_C c i arg3 harg3 arg4 harg4 arg5 harg5 arg6 harg6 arg7 harg7 arg8 harg8 hc0 hc1 x0 x1 x2 x3 xs).1, y ∈ pc.1.set :=
  View.cover_of_tiledL (kernelRun0_C c i arg3 harg3 arg4 harg4 arg5 harg5 arg6 harg6 arg7 harg7 arg8 harg8 hc0 hc1 x0 x1 x2 x3 xs).1 S1x1024x1.size (by sl_kernel_rfl) y

/-- After a last point the accumulator holds the step from what it held, -/
theorem readC8 (c : Dev nD) (i : grid0.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole) (hc0 : ¬cond0_0 i) (hc1 : cond0_1 i) (x0 x1 x2 x3 : Vec F S1x6x1024 .f32) (xs : Vec F S1024x1 .f32) (f : arg8.view.ty.Contents (Elt F)) :
    arg8.view.read (Elt F) (arg8.view.writes (Elt F) f (kernelRun0_C c i arg3 harg3 arg4 harg4 arg5 harg5 arg6 harg6 arg7 harg7 arg8 harg8 hc0 hc1 x0 x1 x2 x3 xs).2.1) = step0 x0 x1 x2 x3 xs := by
  rw [View.read_writes_eq_canon _ _ _ (scoverC8 c i arg3 harg3 arg4 harg4 arg5 harg5 arg6 harg6 arg7 harg7 arg8 harg8 hc0 hc1 x0 x1 x2 x3 xs)]
  unfold kernelRun0_C; dsimp only; sl_unfold_words
  rw [View.canon_cons_unit_zero hz2]
  simp only [View.readAt_eq_ld, harg3.read_unread, harg4.read_unread, harg5.read_unread, harg6.read_unread, harg8.read_unread, View.ld_unit_zero (S := S1x6x1024) hz3,
    View.ld_unit_zero (S := S1024x1) hz2]
  rfl

/-- and the output's buffer that accumulator re-laid as [1, 1024, 1]. -/
theorem readC7 (c : Dev nD) (i : grid0.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole) (hc0 : ¬cond0_0 i) (hc1 : cond0_1 i) (x0 x1 x2 x3 : Vec F S1x6x1024 .f32) (xs : Vec F S1024x1 .f32) (f : arg7.view.ty.Contents (Elt F)) :
    arg7.view.read (Elt F) (arg7.view.writes (Elt F) f (kernelRun0_C c i arg3 harg3 arg4 harg4 arg5 harg5 arg6 harg6 arg7 harg7 arg8 harg8 hc0 hc1 x0 x1 x2 x3 xs).1) = k0_pay2 (step0 x0 x1 x2 x3 xs) := by
  rw [View.read_writes_eq_canon _ _ _ (scoverC7 c i arg3 harg3 arg4 harg4 arg5 harg5 arg6 harg6 arg7 harg7 arg8 harg8 hc0 hc1 x0 x1 x2 x3 xs)]
  unfold kernelRun0_C; dsimp only; sl_unfold_words
  rw [View.canon_cons_unit_zero hz3]
  simp only [View.readAt_eq_ld, harg3.read_unread, harg4.read_unread, harg5.read_unread, harg6.read_unread, harg8.read_unread, View.ld_unit_zero (S := S1x6x1024) hz3,
    View.ld_unit_zero (S := S1024x1) hz2]
  simp only [View.readCov_unit_zero (S := S1024x1) arg8.view hz2]
  rfl

/-! ## The windows' blocks, as the region finds the arrays -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The staging memrefs at a point, and the scratch -/

abbrev ms0_0 (t : Fin cfg0.N) : Memref sig .tc .vmem S1x6x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x6x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x6x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x6x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x1 .f32 := win0_4.stage (cfg0.slots t 4)
abbrev hs0_4 (t : Fin cfg0.N) : (ms0_4 t).IsWhole := hstage0_4 ((cfg0.slots t 4).cast nbuf0_4)
/-- The accumulator. -/
abbrev scM0 : Memref sig .tc .vmem S1024x1 .f32 := Memref.whole cc0_scratch0

/-! ## The accumulator after each point -/

/-- The accumulator after point `n`: the step over the point's four blocks, from +∞ at the first point of a row of column
    tiles and from what the point before left otherwise. -/
def acc0 (c : Dev nD) : (n : ℕ) → n < cfg0.N → Vec F S1024x1 .f32
  | 0, hn => step0 (iblk0 V c 0 ⟨0, hn⟩) (iblk0 V c 1 ⟨0, hn⟩) (iblk0 V c 2 ⟨0, hn⟩) (iblk0 V c 3 ⟨0, hn⟩) k0_pay3
  | n + 1, hn => step0 (iblk0 V c 0 ⟨n + 1, hn⟩) (iblk0 V c 1 ⟨n + 1, hn⟩) (iblk0 V c 2 ⟨n + 1, hn⟩) (iblk0 V c 3 ⟨n + 1, hn⟩)
      (if (n + 1) % 4 = 0 then k0_pay3 else acc0 c n (Nat.lt_of_succ_lt hn))

theorem acc0_first (c : Dev nD) (t : Fin cfg0.N) (h0 : t.val % 4 = 0) :
    acc0 V c t.val t.isLt = step0 (iblk0 V c 0 t) (iblk0 V c 1 t) (iblk0 V c 2 t) (iblk0 V c 3 t) k0_pay3 := by
  obtain ⟨n, hn⟩ := t
  cases n with
  | zero => rfl
  | succ n => show step0 _ _ _ _ (if (n + 1) % 4 = 0 then _ else _) = _; rw [if_pos h0]

theorem acc0_next (c : Dev nD) (t : Fin cfg0.N) (h0 : ¬t.val % 4 = 0) :
    acc0 V c t.val t.isLt = step0 (iblk0 V c 0 t) (iblk0 V c 1 t) (iblk0 V c 2 t) (iblk0 V c 3 t)
      (acc0 V c (t.val - 1) (Nat.lt_of_le_of_lt (Nat.sub_le _ _) t.isLt)) := by
  obtain ⟨n, hn⟩ := t
  cases n with
  | zero => exact absurd (Nat.zero_mod _) h0
  | succ n => show step0 _ _ _ _ (if (n + 1) % 4 = 0 then _ else _) = _; rw [if_neg h0]; rfl

/-! ## The region's invariant -/

/-- The scoped buffers of the other call, each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0; rw [scopedRest0_eq]; simp only [scM0, owns_whole]; try rfl

/-- Before the first point: every scoped buffer no window stages at anything, the generator register at some state.
    Afterwards: the accumulator at what the point before left. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (acc0 V c n hn) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare (acc0 V c (n - 1) (by omega)) ∗ others0 c) ∗ (∃ r, prngReg c r)) := by
  cases n with
  | zero => exact absurd rfl hz
  | succ n => rfl

/-! ## The pipeline's proof data -/

/-- The proof data of the call on core `c`: the arrays as the region finds them; after the body each input's buffer at its
    block and, at a last point, the output's at the accumulator re-laid; the invariant `PhiS0`; nothing owed; an array
    read through two windows held half and half. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay2 (acc0 V c t.val t.isLt)
  Φ t := PhiS0 V c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay2 (acc0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves0_0 (c : Dev nD) (t : Fin cfg0.N) : (dat0 V c).leavesExact 0 t = owns (c : Thread nD τ) (ms0_0 t) fullShare (iblk0 V c 0 t) := by
  unfold Dat.leavesExact; rw [live0_0 t, after0_0]
theorem leaves0_1 (c : Dev nD) (t : Fin cfg0.N) : (dat0 V c).leavesExact 1 t = owns (c : Thread nD τ) (ms0_1 t) fullShare (iblk0 V c 1 t) := by
  unfold Dat.leavesExact; rw [live0_1 t, after0_1]
theorem leaves0_2 (c : Dev nD) (t : Fin cfg0.N) : (dat0 V c).leavesExact 2 t = owns (c : Thread nD τ) (ms0_2 t) fullShare (iblk0 V c 2 t) := by
  unfold Dat.leavesExact; rw [live0_2 t, after0_2]
theorem leaves0_3 (c : Dev nD) (t : Fin cfg0.N) : (dat0 V c).leavesExact 3 t = owns (c : Thread nD τ) (ms0_3 t) fullShare (iblk0 V c 3 t) := by
  unfold Dat.leavesExact; rw [live0_3 t, after0_3]

set_option maxHeartbeats 4800000 in
/-- The body at any point: the inputs' buffers hold their blocks; the point's position in its row of column tiles says which
    case's run applies; the invariant hands the body the accumulator at what the point before left (anything at a first
    point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3]
  have hN : t.val < 128 := lt_of_lt_of_eq t.isLt (show cfg0.N = 128 from N_0)
  by_cases h0 : t.val % 4 = 0
  · have h1 : ¬t.val % 4 = 3 := by omega
    have hc0 : cond0_0 (grid0.coords t) := (hcond0_0 t).mpr h0
    have hc1 : ¬cond0_1 (grid0.coords t) := fun h => h1 ((hcond0_1 t).mp h)
    rw [Dat.leavesExact_idle (dat0 V c) 4 t (idle0_4 t hc1) (noFlush0_4 t hc1)]
    rw [acc0_first V c t h0]
    have hphi : (dat0 V c).Φ t.castSucc ⊢ (iprop(iprop((∃ d, owns (c : Thread nD τ) scM0 fullShare d) ∗ others0 c) ∗ (∃ r, prngReg c r)) : sProp 𝕄) := by
      rw [PhiS0_castSucc V c t]
      by_cases hz : t.val = 0
      · rw [PhiS0_zero V c _ _ hz, PhiA0_eq]
      · rw [PhiS0_pos V c _ _ hz]
        iintro ⟨⟨HS, Hc⟩, Hg⟩
        isplitl [HS Hc]
        · isplitl [HS]; · iexists _; iexact HS
          iexact Hc
        iexact Hg
    iintro ⟨HΦ, Ho, ⟨%d0, H0⟩, ⟨%d1, H1⟩, ⟨%d2, H2⟩, ⟨%d3, H3⟩, ⟨%d4, H4⟩⟩
    ihave HΦ' := hphi $$ HΦ
    icases HΦ' with ⟨⟨HS, Hc⟩, Hg⟩
    iapply ((kernelRun0_A c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1
      (iblk0 V c 0 t) (iblk0 V c 1 t) (iblk0 V c 2 t) (iblk0 V c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS Hc Hg]
    · isplitl [HS Hc]
      · isplitl [HS]
        · unfold owns; iexists _; isplitr
          swap; · iexact HS
          ipureintro; exact readA c _ _ _ _ _ _ _ _ _ _ _ _ _ hc0 hc1 _ _ _ _ _
        iexact Hc
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    have hc0 : ¬cond0_0 (grid0.coords t) := fun h => h0 ((hcond0_0 t).mp h)
    rw [acc0_next V c t h0]
    rw [PhiS0_castSucc V c t, PhiS0_pos V c _ _ hz]
    by_cases h1 : t.val % 4 = 3
    · have hc1 : cond0_1 (grid0.coords t) := (hcond0_1 t).mpr h1
      rw [show (dat0 V c).leavesExact 4 t = owns (c : Thread nD τ) (ms0_4 t) fullShare ((dat0 V c).after 4 t) from by
        unfold Dat.leavesExact; rw [live0_4 t hc1], after0_4, acc0_next V c t h0]
      iintro ⟨⟨⟨HS, Hc⟩, Hg⟩, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1
        (iblk0 V c 0 t) (iblk0 V c 1 t) (iblk0 V c 2 t) (iblk0 V c 3 t) (acc0 V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hc Hg]
      · isplitl [HS Hc]
        · isplitl [HS]
          · unfold owns; iexists _; isplitr
            swap; · iexact HS
            ipureintro; exact readC8 c _ _ _ _ _ _ _ _ _ _ _ _ _ hc0 hc1 _ _ _ _ _ _
          iexact Hc
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact readC7 c _ _ _ _ _ _ _ _ _ _ _ _ _ hc0 hc1 _ _ _ _ _ _
    · have hc1 : ¬cond0_1 (grid0.coords t) := fun h => h1 ((hcond0_1 t).mp h)
      rw [Dat.leavesExact_idle (dat0 V c) 4 t (idle0_4 t hc1) (noFlush0_4 t hc1)]
      iintro ⟨⟨⟨HS, Hc⟩, Hg⟩, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1
        (iblk0 V c 0 t) (iblk0 V c 1 t) (iblk0 V c 2 t) (iblk0 V c 3 t) (acc0 V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hc Hg]
      · isplitl [HS Hc]
        · isplitl [HS]
          · unfold owns; iexists _; isplitr
            swap; · iexact HS
            ipureintro; exact readB c _ _ _ _ _ _ _ _ _ _ _ _ _ hc0 hc1 _ _ _ _ _ _
          iexact Hc
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.KI.Body1.lean ====
/-
  The body of the second call at one grid point, case by case (the same body as the first call's, on the exchanged clouds).
-/
import proofs.«146518_j67740224192624_1_alg».proof.Proof.Gen.KernelIdeal.Launch
import proofs.«146518_j67740224192624_1_alg».proof.Proof.Gen.KernelIdeal.Skeleton
import proofs.«146518_j67740224192624_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions over the grid -/

/-- The first condition: the point is the first of its row of column tiles (third grid coordinate 0). -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The second condition: the point is the last of its row of column tiles (third grid coordinate 3). -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The four input windows are never idle; the output window is idle, and not written back, exactly where the second
    condition fails. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem idle1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem live1_4 : ∀ t : Fin cfg1.N, cond1_1 (grid1.coords t) → cfg1.idle 4 (grid1.coords t) = false := by decide +kernel

/-! ## The body's run, case by case -/

set_option maxHeartbeats 4000000 in
/-- First point of a row of column tiles: the accumulator is reset and then lowered by this tile's row minima; the
    output's buffer is not touched. -/
noncomputable def kernelRun1_A (c : Dev nD) (i : grid1.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole)
    (hc0 : cond1_0 i) (hc1 : ¬cond1_1 i) (x0 x1 x2 x3 : Vec F S1x6x1024 .f32) :
    { LS : List (View.Piece (Elt F) S1024x1 .f32) //
      ∀ (xi : Vec F S1x1024x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc1__minreduce_kernel i arg3 harg3 arg4 harg4 arg5 harg5 arg6 harg6 arg7 harg7 arg8 harg8) K } := by
  refine ⟨?_, fun xi E K => ?run⟩
  case run =>
    simp only [cc1__minreduce_kernel_eq_skeleton]; unfold cc1__minreduce_kernel_skel
    simp only [k1_part1_eq_skeleton]
    unfold owns
    iintro ⟨⟨%f0, %hf0, H0⟩, ⟨%f1, %hf1, H1⟩, ⟨%f2, %hf2, H2⟩, ⟨%f3, %hf3, H3⟩, ⟨%f7, %hf7, H7⟩, ⟨%ds, %fs, -, HS⟩, Hk⟩
    obtain rfl := harg3.eq_unread hf0; obtain rfl := harg4.eq_unread hf1; obtain rfl := harg5.eq_unread hf2; obtain rfl := harg6.eq_unread hf3
    obtain rfl := harg7.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]
    · iexists _; isplitr; · ipureintro; exact harg7.read_unread _
      iexact H7
    iexists _; iexact HS

set_option maxHeartbeats 4000000 in
/-- A middle point: the accumulator, found at `xs`, is lowered by this tile's row minima; the output's buffer is not touched. -/
noncomputable def kernelRun1_B (c : Dev nD) (i : grid1.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole)
    (hc0 : ¬cond1_0 i) (hc1 : ¬cond1_1 i) (x0 x1 x2 x3 : Vec F S1x6x1024 .f32) (xs : Vec F S1024x1 .f32) :
    { LS : List (View.Piece (Elt F) S1024x1 .f32) //
      ∀ (xi : Vec F S1x1024x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc1__minreduce_kernel i arg3 harg3 arg4 harg4 arg5 harg5 arg6 harg6 arg7 harg7 arg8 harg8) K } := by
  refine ⟨?_, fun xi E K => ?run⟩
  case run =>
    simp only [cc1__minreduce_kernel_eq_skeleton]; unfold cc1__minreduce_kernel_skel
    simp only [k1_part1_eq_skeleton]
    unfold owns
    iintro ⟨⟨%f0, %hf0, H0⟩, ⟨%f1, %hf1, H1⟩, ⟨%f2, %hf2, H2⟩, ⟨%f3, %hf3, H3⟩, ⟨%f7, %hf7, H7⟩, ⟨%fs, %hfs, HS⟩, Hk⟩
    obtain rfl := harg3.eq_unread hf0; obtain rfl := harg4.eq_unread hf1; obtain rfl := harg5.eq_unread hf2; obtain rfl := harg6.eq_unread hf3
    obtain rfl := harg7.eq_unread hf7; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]
    · iexists _; isplitr; · ipureintro; exact harg7.read_unread _
      iexact H7
    iexists _; iexact HS

set_option maxHeartbeats 4000000 in
/-- Last point of a row of column tiles: the accumulator, found at `xs`, is lowered by this tile's row minima and then
    copied into the output's buffer. -/
noncomputable def kernelRun1_C (c : Dev nD) (i : grid1.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole)
    (hc0 : ¬cond1_0 i) (hc1 : cond1_1 i) (x0 x1 x2 x3 : Vec F S1x6x1024 .f32) (xs : Vec F S1024x1 .f32) :
    Σ' (L7 : List (View.Piece (Elt F) S1x1024x1 .f32)), { LS : List (View.Piece (Elt F) S1024x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f LS)) -∗ K ⟨⟩))
          ⊢ wp frame (wpE (defs₀ (F := F)) Variants.none c none) E (cc1__minreduce_kernel i arg3 harg3 arg4 harg4 arg5 harg5 arg6 harg6 arg7 harg7 arg8 harg8) K } := by
  refine ⟨?_, ?_, fun E K => ?run⟩
  case run =>
    simp only [cc1__minreduce_kernel_eq_skeleton]; unfold cc1__minreduce_kernel_skel
    simp only [k1_part1_eq_skeleton]
    unfold owns
    iintro ⟨⟨%f0, %hf0, H0⟩, ⟨%f1, %hf1, H1⟩, ⟨%f2, %hf2, H2⟩, ⟨%f3, %hf3, H3⟩, ⟨%d7, %f7, -, H7⟩, ⟨%fs, %hfs, HS⟩, Hk⟩
    obtain rfl := harg3.eq_unread hf0; obtain rfl := harg4.eq_unread hf1; obtain rfl := harg5.eq_unread hf2; obtain rfl := harg6.eq_unread hf3
    obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]
    · iexists _; iexact H7
    iexists _; iexact HS

end Cert.KernelIdeal.R1

end
-- ==== Proof.KI.Region1.lean ====
/-
  The second call as a pipeline region: what its stores leave as functions of the staged blocks, the accumulator after each
  grid point, the proof data, and the body obligation at a generic point.
-/
import proofs.«146518_j67740224192624_1_alg».proof.Proof.KI.Body1
import Idealize.ShloMosaic.Lib.Pipeline.Value
import proofs.«146518_j67740224192624_1_alg».proof.Proof.Gen.KernelIdeal.Launch
import proofs.«146518_j67740224192624_1_alg».proof.Proof.Gen.KernelIdeal.Skeleton
import proofs.«146518_j67740224192624_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the runs' stores leave, as functions of the blocks -/

/-- One point's effect on the accumulator `a`: its minimum with the row minima of the tile's costs, a function of the four
    staged blocks (row-side points `x0` and normals `x1`, column-side points `x2` and normals `x3`). -/
def step1 (x0 x1 x2 x3 : Vec F S1x6x1024 .f32) (a : Vec F S1024x1 .f32) : Vec F S1024x1 .f32 :=
  k1_pay1 (k1_pay4 x0 x2) (k1_pay5 x1 x3) a

theorem hz2 : (![0, 0] : Fin 2 → Nat) = fun _ => 0 := by funext a; fin_cases a <;> rfl
theorem hz3 : (![0, 0, 0] : Fin 3 → Nat) = fun _ => 0 := by funext a; fin_cases a <;> rfl

theorem scoverA (c : Dev nD) (i : grid1.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole) (hc0 : cond1_0 i) (hc1 : ¬cond1_1 i) (x0 x1 x2 x3 : Vec F S1x6x1024 .f32) (y : S1024x1.Idx) :
    ∃ pc ∈ (kernelRun1_A c i arg3 harg3 arg4 harg4 arg5 harg5 arg6 harg6 arg7 harg7 arg8 harg8 hc0 hc1 x0 x1 x2 x3).1, y ∈ pc.1.set :=
  View.cover_of_tiledL (kernelRun1_A c i arg3 harg3 arg4 harg4 arg5 harg5 arg6 harg6 arg7 harg7 arg8 harg8 hc0 hc1 x0 x1 x2 x3).1 S1024x1.size (by sl_kernel_rfl) y

/-- After a first point the accumulator holds the step from +∞. -/
theorem readA (c : Dev nD) (i : grid1.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole) (hc0 : cond1_0 i) (hc1 : ¬cond1_1 i) (x0 x1 x2 x3 : Vec F S1x6x1024 .f32) (f : arg8.view.ty.Contents (Elt F)) :
    arg8.view.read (Elt F) (arg8.view.writes (Elt F) f (kernelRun1_A c i arg3 harg3 arg4 harg4 arg5 harg5 arg6 harg6 arg7 harg7 arg8 harg8 hc0 hc1 x0 x1 x2 x3).1) = step1 x0 x1 x2 x3 k1_pay3 := by
  rw [View.read_writes_eq_canon _ _ _ (scoverA c i arg3 harg3 arg4 harg4 arg5 harg5 arg6 harg6 arg7 harg7 arg8 harg8 hc0 hc1 x0 x1 x2 x3)]
  unfold kernelRun1_A; dsimp only; sl_unfold_words
  rw [View.canon_cons_unit_zero hz2]
  simp only [View.readAt_eq_ld, harg3.read_unread, harg4.read_unread, harg5.read_unread, harg6.read_unread, View.ld_unit_zero (S := S1x6x1024) hz3,
    View.readCov_unit_zero (S := S1024x1) arg8.view hz2]
  rfl

theorem scoverB (c : Dev nD) (i : grid1.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole) (hc0 : ¬cond1_0 i) (hc1 : ¬cond1_1 i) (x0 x1 x2 x3 : Vec F S1x6x1024 .f32) (xs : Vec F S1024x1 .f32) (y : S1024x1.Idx) :
    ∃ pc ∈ (kernelRun1_B c i arg3 harg3 arg4 harg4 arg5 harg5 arg6 harg6 arg7 harg7 arg8 harg8 hc0 hc1 x0 x1 x2 x3 xs).1, y ∈ pc.1.set :=
  View.cover_of_tiledL (kernelRun1_B c i arg3 harg3 arg4 harg4 arg5 harg5 arg6 harg6 arg7 harg7 arg8 harg8 hc0 hc1 x0 x1 x2 x3 xs).1 S1024x1.size (by sl_kernel_rfl) y

/-- After a middle point the accumulator holds the step from what it held. -/
theorem readB (c : Dev nD) (i : grid1.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole) (hc0 : ¬cond1_0 i) (hc1 : ¬cond1_1 i) (x0 x1 x2 x3 : Vec F S1x6x1024 .f32) (xs : Vec F S1024x1 .f32) (f : arg8.view.ty.Contents (Elt F)) :
    arg8.view.read (Elt F) (arg8.view.writes (Elt F) f (kernelRun1_B c i arg3 harg3 arg4 harg4 arg5 harg5 arg6 harg6 arg7 harg7 arg8 harg8 hc0 hc1 x0 x1 x2 x3 xs).1) = step1 x0 x1 x2 x3 xs := by
  rw [View.read_writes_eq_canon _ _ _ (scoverB c i arg3 harg3 arg4 harg4 arg5 harg5 arg6 harg6 arg7 harg7 arg8 harg8 hc0 hc1 x0 x1 x2 x3 xs)]
  unfold kernelRun1_B; dsimp only; sl_unfold_words
  rw [View.canon_cons_unit_zero hz2]
  simp only [View.readAt_eq_ld, harg3.read_unread, harg4.read_unread, harg5.read_unread, harg6.read_unread, harg8.read_unread, View.ld_unit_zero (S := S1x6x1024) hz3,
    View.ld_unit_zero (S := S1024x1) hz2]
  rfl

theorem scoverC8 (c : Dev nD) (i : grid1.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole) (hc0 : ¬cond1_0 i) (hc1 : cond1_1 i) (x0 x1 x2 x3 : Vec F S1x6x1024 .f32) (xs : Vec F S1024x1 .f32) (y : S1024x1.Idx) :
    ∃ pc ∈ (kernelRun1_C c i arg3 harg3 arg4 harg4 arg5 harg5 arg6 harg6 arg7 harg7 arg8 harg8 hc0 hc1 x0 x1 x2 x3 xs).2.1, y ∈ pc.1.set :=
  View.cover_of_tiledL (kernelRun1_C c i arg3 harg3 arg4 harg4 arg5 harg5 arg6 harg6 arg7 harg7 arg8 harg8 hc0 hc1 x0 x1 x2 x3 xs).2.1 S1024x1.size (by sl_kernel_rfl) y

theorem scoverC7 (c : Dev nD) (i : grid1.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole) (hc0 : ¬cond1_0 i) (hc1 : cond1_1 i) (x0 x1 x2 x3 : Vec F S1x6x1024 .f32) (xs : Vec F S1024x1 .f32) (y : S1x1024x1.Idx) :
    ∃ pc ∈ (kernelRun1_C c i arg3 harg3 arg4 harg4 arg5 harg5 arg6 harg6 arg7 harg7 arg8 harg8 hc0 hc1 x0 x1 x2 x3 xs).1, y ∈ pc.1.set :=
  View.cover_of_tiledL (kernelRun1_C c i arg3 harg3 arg4 harg4 arg5 harg5 arg6 harg6 arg7 harg7 arg8 harg8 hc0 hc1 x0 x1 x2 x3 xs).1 S1x1024x1.size (by sl_kernel_rfl) y

/-- After a last point the accumulator holds the step from what it held, -/
theorem readC8 (c : Dev nD) (i : grid1.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole) (hc0 : ¬cond1_0 i) (hc1 : cond1_1 i) (x0 x1 x2 x3 : Vec F S1x6x1024 .f32) (xs : Vec F S1024x1 .f32) (f : arg8.view.ty.Contents (Elt F)) :
    arg8.view.read (Elt F) (arg8.view.writes (Elt F) f (kernelRun1_C c i arg3 harg3 arg4 harg4 arg5 harg5 arg6 harg6 arg7 harg7 arg8 harg8 hc0 hc1 x0 x1 x2 x3 xs).2.1) = step1 x0 x1 x2 x3 xs := by
  rw [View.read_writes_eq_canon _ _ _ (scoverC8 c i arg3 harg3 arg4 harg4 arg5 harg5 arg6 harg6 arg7 harg7 arg8 harg8 hc0 hc1 x0 x1 x2 x3 xs)]
  unfold kernelRun1_C; dsimp only; sl_unfold_words
  rw [View.canon_cons_unit_zero hz2]
  simp only [View.readAt_eq_ld, harg3.read_unread, harg4.read_unread, harg5.read_unread, harg6.read_unread, harg8.read_unread, View.ld_unit_zero (S := S1x6x1024) hz3,
    View.ld_unit_zero (S := S1024x1) hz2]
  rfl

/-- and the output's buffer that accumulator re-laid as [1, 1024, 1]. -/
theorem readC7 (c : Dev nD) (i : grid1.Coords)
    (arg3 : Memref sig .tc .vmem S1x6x1024 .f32) (harg3 : arg3.IsWhole) (arg4 : Memref sig .tc .vmem S1x6x1024 .f32) (harg4 : arg4.IsWhole)
    (arg5 : Memref sig .tc .vmem S1x6x1024 .f32) (harg5 : arg5.IsWhole) (arg6 : Memref sig .tc .vmem S1x6x1024 .f32) (harg6 : arg6.IsWhole)
    (arg7 : Memref sig .tc .vmem S1x1024x1 .f32) (harg7 : arg7.IsWhole) (arg8 : Memref sig .tc .vmem S1024x1 .f32) (harg8 : arg8.IsWhole) (hc0 : ¬cond1_0 i) (hc1 : cond1_1 i) (x0 x1 x2 x3 : Vec F S1x6x1024 .f32) (xs : Vec F S1024x1 .f32) (f : arg7.view.ty.Contents (Elt F)) :
    arg7.view.read (Elt F) (arg7.view.writes (Elt F) f (kernelRun1_C c i arg3 harg3 arg4 harg4 arg5 harg5 arg6 harg6 arg7 harg7 arg8 harg8 hc0 hc1 x0 x1 x2 x3 xs).1) = k1_pay2 (step1 x0 x1 x2 x3 xs) := by
  rw [View.read_writes_eq_canon _ _ _ (scoverC7 c i arg3 harg3 arg4 harg4 arg5 harg5 arg6 harg6 arg7 harg7 arg8 harg8 hc0 hc1 x0 x1 x2 x3 xs)]
  unfold kernelRun1_C; dsimp only; sl_unfold_words
  rw [View.canon_cons_unit_zero hz3]
  simp only [View.readAt_eq_ld, harg3.read_unread, harg4.read_unread, harg5.read_unread, harg6.read_unread, harg8.read_unread, View.ld_unit_zero (S := S1x6x1024) hz3,
    View.ld_unit_zero (S := S1024x1) hz2]
  simp only [View.readCov_unit_zero (S := S1024x1) arg8.view hz2]
  rfl

/-! ## The windows' blocks, as the region finds the arrays -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The staging memrefs at a point, and the scratch -/

abbrev ms1_0 (t : Fin cfg1.N) : Memref sig .tc .vmem S1x6x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x6x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x6x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x6x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x1 .f32 := win1_4.stage (cfg1.slots t 4)
abbrev hs1_4 (t : Fin cfg1.N) : (ms1_4 t).IsWhole := hstage1_4 ((cfg1.slots t 4).cast nbuf1_4)
/-- The accumulator. -/
abbrev scM1 : Memref sig .tc .vmem S1024x1 .f32 := Memref.whole cc1_scratch0

/-! ## The accumulator after each point -/

/-- The accumulator after point `n`: the step over the point's four blocks, from +∞ at the first point of a row of column
    tiles and from what the point before left otherwise. -/
def acc1 (c : Dev nD) : (n : ℕ) → n < cfg1.N → Vec F S1024x1 .f32
  | 0, hn => step1 (iblk1 V c 0 ⟨0, hn⟩) (iblk1 V c 1 ⟨0, hn⟩) (iblk1 V c 2 ⟨0, hn⟩) (iblk1 V c 3 ⟨0, hn⟩) k1_pay3
  | n + 1, hn => step1 (iblk1 V c 0 ⟨n + 1, hn⟩) (iblk1 V c 1 ⟨n + 1, hn⟩) (iblk1 V c 2 ⟨n + 1, hn⟩) (iblk1 V c 3 ⟨n + 1, hn⟩)
      (if (n + 1) % 4 = 0 then k1_pay3 else acc1 c n (Nat.lt_of_succ_lt hn))

theorem acc1_first (c : Dev nD) (t : Fin cfg1.N) (h0 : t.val % 4 = 0) :
    acc1 V c t.val t.isLt = step1 (iblk1 V c 0 t) (iblk1 V c 1 t) (iblk1 V c 2 t) (iblk1 V c 3 t) k1_pay3 := by
  obtain ⟨n, hn⟩ := t
  cases n with
  | zero => rfl
  | succ n => show step1 _ _ _ _ (if (n + 1) % 4 = 0 then _ else _) = _; rw [if_pos h0]

theorem acc1_next (c : Dev nD) (t : Fin cfg1.N) (h0 : ¬t.val % 4 = 0) :
    acc1 V c t.val t.isLt = step1 (iblk1 V c 0 t) (iblk1 V c 1 t) (iblk1 V c 2 t) (iblk1 V c 3 t)
      (acc1 V c (t.val - 1) (Nat.lt_of_le_of_lt (Nat.sub_le _ _) t.isLt)) := by
  obtain ⟨n, hn⟩ := t
  cases n with
  | zero => exact absurd (Nat.zero_mod _) h0
  | succ n => show step1 _ _ _ _ (if (n + 1) % 4 = 0 then _ else _) = _; rw [if_neg h0]; rfl

/-! ## The region's invariant -/

/-- The scoped buffers of the other call, each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

theorem PhiA1_eq (c : Dev nD) :
    (Pipeline.ΦA spec1 c : sProp 𝕄)
      = iprop(iprop((∃ d, owns (c : Thread nD τ) scM1 fullShare d) ∗ others1 c) ∗ (∃ r, prngReg c r)) := by
  have h₁ : (Pipeline.ΦA spec1 c : sProp 𝕄) ⊢ iprop(iprop((∃ d, owns (c : Thread nD τ) scM1 fullShare d) ∗ others1 c) ∗ (∃ r, prngReg c r)) := by
    unfold Pipeline.ΦA others1; rw [scopedRest1_eq]; simp only [scM1, owns_whole]
    iintro ⟨⟨H1, H2, H3, H4, H5, H6, H7, H8, H9, H10, H11, HS⟩, Hg⟩
    isplitr [Hg]
    · isplitl [HS]; · iexact HS
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · iexact Hg
  have h₂ : iprop(iprop((∃ d, owns (c : Thread nD τ) scM1 fullShare d) ∗ others1 c) ∗ (∃ r, prngReg c r)) ⊢ (Pipeline.ΦA spec1 c : sProp 𝕄) := by
    unfold Pipeline.ΦA others1; rw [scopedRest1_eq]; simp only [scM1, owns_whole]
    iintro ⟨⟨HS, H1, H2, H3, H4, H5, H6, H7, H8, H9, H10, H11⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact HS
    · iexact Hg
  exact BI.equiv_iff.mp ⟨h₁, h₂⟩

/-- Before the first point: every scoped buffer no window stages at anything, the generator register at some state.
    Afterwards: the accumulator at what the point before left. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (acc1 V c n hn) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare (acc1 V c (n - 1) (by omega)) ∗ others1 c) ∗ (∃ r, prngReg c r)) := by
  cases n with
  | zero => exact absurd rfl hz
  | succ n => rfl

/-! ## The pipeline's proof data -/

/-- The proof data of the call on core `c`: the arrays as the region finds them; after the body each input's buffer at its
    block and, at a last point, the output's at the accumulator re-laid; the invariant `PhiS1`; nothing owed; an array
    read through two windows held half and half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay2 (acc1 V c t.val t.isLt)
  Φ t := PhiS1 V c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay2 (acc1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_0 (c : Dev nD) (t : Fin cfg1.N) : (dat1 V c).leavesExact 0 t = owns (c : Thread nD τ) (ms1_0 t) fullShare (iblk1 V c 0 t) := by
  unfold Dat.leavesExact; rw [live1_0 t, after1_0]
theorem leaves1_1 (c : Dev nD) (t : Fin cfg1.N) : (dat1 V c).leavesExact 1 t = owns (c : Thread nD τ) (ms1_1 t) fullShare (iblk1 V c 1 t) := by
  unfold Dat.leavesExact; rw [live1_1 t, after1_1]
theorem leaves1_2 (c : Dev nD) (t : Fin cfg1.N) : (dat1 V c).leavesExact 2 t = owns (c : Thread nD τ) (ms1_2 t) fullShare (iblk1 V c 2 t) := by
  unfold Dat.leavesExact; rw [live1_2 t, after1_2]
theorem leaves1_3 (c : Dev nD) (t : Fin cfg1.N) : (dat1 V c).leavesExact 3 t = owns (c : Thread nD τ) (ms1_3 t) fullShare (iblk1 V c 3 t) := by
  unfold Dat.leavesExact; rw [live1_3 t, after1_3]

set_option maxHeartbeats 4800000 in
/-- The body at any point: the inputs' buffers hold their blocks; the point's position in its row of column tiles says which
    case's run applies; the invariant hands the body the accumulator at what the point before left (anything at a first
    point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  have hN : t.val < 128 := lt_of_lt_of_eq t.isLt (show cfg1.N = 128 from N_1)
  by_cases h0 : t.val % 4 = 0
  · have h1 : ¬t.val % 4 = 3 := by omega
    have hc0 : cond1_0 (grid1.coords t) := (hcond1_0 t).mpr h0
    have hc1 : ¬cond1_1 (grid1.coords t) := fun h => h1 ((hcond1_1 t).mp h)
    rw [Dat.leavesExact_idle (dat1 V c) 4 t (idle1_4 t hc1) (noFlush1_4 t hc1)]
    rw [acc1_first V c t h0]
    have hphi : (dat1 V c).Φ t.castSucc ⊢ (iprop(iprop((∃ d, owns (c : Thread nD τ) scM1 fullShare d) ∗ others1 c) ∗ (∃ r, prngReg c r)) : sProp 𝕄) := by
      rw [PhiS1_castSucc V c t]
      by_cases hz : t.val = 0
      · rw [PhiS1_zero V c _ _ hz, PhiA1_eq]
      · rw [PhiS1_pos V c _ _ hz]
        iintro ⟨⟨HS, Hc⟩, Hg⟩
        isplitl [HS Hc]
        · isplitl [HS]; · iexists _; iexact HS
          iexact Hc
        iexact Hg
    iintro ⟨HΦ, Ho, ⟨%d0, H0⟩, ⟨%d1, H1⟩, ⟨%d2, H2⟩, ⟨%d3, H3⟩, ⟨%d4, H4⟩⟩
    ihave HΦ' := hphi $$ HΦ
    icases HΦ' with ⟨⟨HS, Hc⟩, Hg⟩
    iapply ((kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1
      (iblk1 V c 0 t) (iblk1 V c 1 t) (iblk1 V c 2 t) (iblk1 V c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS Hc Hg]
    · isplitl [HS Hc]
      · isplitl [HS]
        · unfold owns; iexists _; isplitr
          swap; · iexact HS
          ipureintro; exact readA c _ _ _ _ _ _ _ _ _ _ _ _ _ hc0 hc1 _ _ _ _ _
        iexact Hc
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    have hc0 : ¬cond1_0 (grid1.coords t) := fun h => h0 ((hcond1_0 t).mp h)
    rw [acc1_next V c t h0]
    rw [PhiS1_castSucc V c t, PhiS1_pos V c _ _ hz]
    by_cases h1 : t.val % 4 = 3
    · have hc1 : cond1_1 (grid1.coords t) := (hcond1_1 t).mpr h1
      rw [show (dat1 V c).leavesExact 4 t = owns (c : Thread nD τ) (ms1_4 t) fullShare ((dat1 V c).after 4 t) from by
        unfold Dat.leavesExact; rw [live1_4 t hc1], after1_4, acc1_next V c t h0]
      iintro ⟨⟨⟨HS, Hc⟩, Hg⟩, Ho, ⟨%d0, H0⟩, ⟨%d1, H1⟩, ⟨%d2, H2⟩, ⟨%d3, H3⟩, ⟨%d4, H4⟩⟩
      iapply ((kernelRun1_C c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1
        (iblk1 V c 0 t) (iblk1 V c 1 t) (iblk1 V c 2 t) (iblk1 V c 3 t) (acc1 V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hc Hg]
      · isplitl [HS Hc]
        · isplitl [HS]
          · unfold owns; iexists _; isplitr
            swap; · iexact HS
            ipureintro; exact readC8 c _ _ _ _ _ _ _ _ _ _ _ _ _ hc0 hc1 _ _ _ _ _ _
          iexact Hc
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact readC7 c _ _ _ _ _ _ _ _ _ _ _ _ _ hc0 hc1 _ _ _ _ _ _
    · have hc1 : ¬cond1_1 (grid1.coords t) := fun h => h1 ((hcond1_1 t).mp h)
      rw [Dat.leavesExact_idle (dat1 V c) 4 t (idle1_4 t hc1) (noFlush1_4 t hc1)]
      iintro ⟨⟨⟨HS, Hc⟩, Hg⟩, Ho, ⟨%d0, H0⟩, ⟨%d1, H1⟩, ⟨%d2, H2⟩, ⟨%d3, H3⟩, ⟨%d4, H4⟩⟩
      iapply ((kernelRun1_B c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1
        (iblk1 V c 0 t) (iblk1 V c 1 t) (iblk1 V c 2 t) (iblk1 V c 3 t) (acc1 V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hc Hg]
      · isplitl [HS Hc]
        · isplitl [HS]
          · unfold owns; iexists _; isplitr
            swap; · iexact HS
            ipureintro; exact readB c _ _ _ _ _ _ _ _ _ _ _ _ _ hc0 hc1 _ _ _ _ _ _
          iexact Hc
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.R1

end
-- ==== Proof.KI.Run.lean ====
/-
  The whole run of the program read at the ideal instance: the buffers' contents at each boundary of @main, each call's arrays sorted out of the
  unscoped buffers at its entry (an argument array read through two windows is held half and half) and put back at its
  exit with the output array updated, the two calls and the two host stretches as segments, and the launch: every
  weakly fair execution terminates with every unscoped buffer at the last boundary's contents; in particular the
  argument arrays end as launched.
-/
import proofs.«146518_j67740224192624_1_alg».proof.Proof.KI.Region0
import proofs.«146518_j67740224192624_1_alg».proof.Proof.KI.Region1
import proofs.«146518_j67740224192624_1_alg».proof.Proof.Gen.KernelIdeal.Regions

set_option maxRecDepth 16384

noncomputable section

namespace Cert.KernelIdeal.Run

open Cert.KernelIdeal Cert.KernelIdeal.Gen Cert.KernelIdeal.R0 Cert.KernelIdeal.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b
/-- After the first call: its output array at what the write-backs leave. -/
def W1 (c : Dev nD) : Valuation τ sig (Elt F) := Function.update (W0 m c) main_v0 ((dat0 (V0 m) c).arrAt 4 cfg0.N)
abbrev V1 : (c : Dev nD) → (b : Ref sig .tc) → Buf (Elt F) ((c : Thread nD τ).loc b) := fun c b => W1 m c b
/-- After the host operation between the calls. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After the second call. -/
def W3 (c : Dev nD) : Valuation τ sig (Elt F) := Function.update (W2 m c) main_v2 ((dat1 (V2 m) c).arrAt 4 cfg1.N)
abbrev V3 : (c : Dev nD) → (b : Ref sig .tc) → Buf (Elt F) ((c : Thread nD τ).loc b) := fun c b => W3 m c b
/-- After the host operations that follow it. -/
abbrev W4 : Dev nD → Valuation τ sig (Elt F) := fun c => StableHlo.after hostOps2 (W3 m c)

theorem W1_v0 (c : Dev nD) : W1 m c main_v0 = (dat0 (V0 m) c).arrAt 4 cfg0.N := by
  unfold W1; exact Function.update_self ..
theorem W1_of_ne (c : Dev nD) (b : Ref sig .tc) (hb : b ≠ main_v0) : W1 m c b = W0 m c b := by
  unfold W1; exact Function.update_of_ne (StableHlo.devRef_ne_of_ne hb) ..
theorem W3_v2 (c : Dev nD) : W3 m c main_v2 = (dat1 (V2 m) c).arrAt 4 cfg1.N := by
  unfold W3; exact Function.update_self ..
theorem W3_of_ne (c : Dev nD) (b : Ref sig .tc) (hb : b ≠ main_v2) : W3 m c b = W2 m c b := by
  unfold W3; exact Function.update_of_ne (StableHlo.devRef_ne_of_ne hb) ..

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

variable (V : (c : Dev nD) → (b : Ref sig .tc) → Buf (Elt F) ((c : Thread nD τ).loc b))

/-! ## The call's arrays, window by window -/
theorem arrw0_0 (c : Dev nD) (Fa : Buf (Elt F) ((c : Thread nD τ).loc main_arg0)) :
    (((cfg0.win 0).arr.view.loc (c : Thread nD τ)) ↦[(cfg0.win 0).arr.view.set]{(dat0 V c).share 0} Fa : sProp 𝕄) = (((c : Thread nD τ).loc main_arg0) ↦{fullShare.left} Fa) := by
  show (((Memref.whole main_arg0 : Memref sig .tc .hbm S8x6x4096 .f32).view.loc (c : Thread nD τ)) ↦[(Memref.whole main_arg0 : Memref sig .tc .hbm S8x6x4096 .f32).view.set]{fullShare.left} Fa : sProp 𝕄) = _
  simp only [Memref.view_whole, View.set_whole]
theorem arrw0_1 (c : Dev nD) (Fa : Buf (Elt F) ((c : Thread nD τ).loc main_arg1)) :
    (((cfg0.win 1).arr.view.loc (c : Thread nD τ)) ↦[(cfg0.win 1).arr.view.set]{(dat0 V c).share 1} Fa : sProp 𝕄) = (((c : Thread nD τ).loc main_arg1) ↦{fullShare.left} Fa) := by
  show (((Memref.whole main_arg1 : Memref sig .tc .hbm S8x6x4096 .f32).view.loc (c : Thread nD τ)) ↦[(Memref.whole main_arg1 : Memref sig .tc .hbm S8x6x4096 .f32).view.set]{fullShare.left} Fa : sProp 𝕄) = _
  simp only [Memref.view_whole, View.set_whole]
theorem arrw0_2 (c : Dev nD) (Fa : Buf (Elt F) ((c : Thread nD τ).loc main_arg1)) :
    (((cfg0.win 2).arr.view.loc (c : Thread nD τ)) ↦[(cfg0.win 2).arr.view.set]{(dat0 V c).share 2} Fa : sProp 𝕄) = (((c : Thread nD τ).loc main_arg1) ↦{fullShare.right} Fa) := by
  show (((Memref.whole main_arg1 : Memref sig .tc .hbm S8x6x4096 .f32).view.loc (c : Thread nD τ)) ↦[(Memref.whole main_arg1 : Memref sig .tc .hbm S8x6x4096 .f32).view.set]{fullShare.right} Fa : sProp 𝕄) = _
  simp only [Memref.view_whole, View.set_whole]
theorem arrw0_3 (c : Dev nD) (Fa : Buf (Elt F) ((c : Thread nD τ).loc main_arg0)) :
    (((cfg0.win 3).arr.view.loc (c : Thread nD τ)) ↦[(cfg0.win 3).arr.view.set]{(dat0 V c).share 3} Fa : sProp 𝕄) = (((c : Thread nD τ).loc main_arg0) ↦{fullShare.right} Fa) := by
  show (((Memref.whole main_arg0 : Memref sig .tc .hbm S8x6x4096 .f32).view.loc (c : Thread nD τ)) ↦[(Memref.whole main_arg0 : Memref sig .tc .hbm S8x6x4096 .f32).view.set]{fullShare.right} Fa : sProp 𝕄) = _
  simp only [Memref.view_whole, View.set_whole]
theorem arrw0_4 (c : Dev nD) (Fa : Buf (Elt F) ((c : Thread nD τ).loc main_v0)) :
    (((cfg0.win 4).arr.view.loc (c : Thread nD τ)) ↦[(cfg0.win 4).arr.view.set]{(dat0 V c).share 4} Fa : sProp 𝕄) = (((c : Thread nD τ).loc main_v0) ↦{fullShare} Fa) := by
  show (((Memref.whole main_v0 : Memref sig .tc .hbm S8x4096x1 .f32).view.loc (c : Thread nD τ)) ↦[(Memref.whole main_v0 : Memref sig .tc .hbm S8x4096x1 .f32).view.set]{fullShare} Fa : sProp 𝕄) = _
  simp only [Memref.view_whole, View.set_whole]

/-- The arrays of the call: the two clouds each read through two windows, half and half; the output outright. -/
theorem arrays0_eq (c : Dev nD) (Fa : (w : Fin cfg0.W) → Buf (Elt F) ((cfg0.win w).arr.view.loc (c : Thread nD τ))) :
    ((dat0 V c).arrays Fa : sProp 𝕄)
      = iprop((((c : Thread nD τ).loc main_arg0) ↦{fullShare.left} Fa 0) ∗ (((c : Thread nD τ).loc main_arg1) ↦{fullShare.left} Fa 1)
          ∗ (((c : Thread nD τ).loc main_arg1) ↦{fullShare.right} Fa 2) ∗ (((c : Thread nD τ).loc main_arg0) ↦{fullShare.right} Fa 3)
          ∗ (((c : Thread nD τ).loc main_v0) ↦{fullShare} Fa 4)) := by
  unfold Dat.arrays
  rw [bigSep_W0, arrw0_0 V c (Fa 0), arrw0_1 V c (Fa 1), arrw0_2 V c (Fa 2), arrw0_3 V c (Fa 3), arrw0_4 V c (Fa 4)]

/-! ## The call's arrays, window by window -/
theorem arrw1_0 (c : Dev nD) (Fa : Buf (Elt F) ((c : Thread nD τ).loc main_arg1)) :
    (((cfg1.win 0).arr.view.loc (c : Thread nD τ)) ↦[(cfg1.win 0).arr.view.set]{(dat1 V c).share 0} Fa : sProp 𝕄) = (((c : Thread nD τ).loc main_arg1) ↦{fullShare.left} Fa) := by
  show (((Memref.whole main_arg1 : Memref sig .tc .hbm S8x6x4096 .f32).view.loc (c : Thread nD τ)) ↦[(Memref.whole main_arg1 : Memref sig .tc .hbm S8x6x4096 .f32).view.set]{fullShare.left} Fa : sProp 𝕄) = _
  simp only [Memref.view_whole, View.set_whole]
theorem arrw1_1 (c : Dev nD) (Fa : Buf (Elt F) ((c : Thread nD τ).loc main_arg0)) :
    (((cfg1.win 1).arr.view.loc (c : Thread nD τ)) ↦[(cfg1.win 1).arr.view.set]{(dat1 V c).share 1} Fa : sProp 𝕄) = (((c : Thread nD τ).loc main_arg0) ↦{fullShare.left} Fa) := by
  show (((Memref.whole main_arg0 : Memref sig .tc .hbm S8x6x4096 .f32).view.loc (c : Thread nD τ)) ↦[(Memref.whole main_arg0 : Memref sig .tc .hbm S8x6x4096 .f32).view.set]{fullShare.left} Fa : sProp 𝕄) = _
  simp only [Memref.view_whole, View.set_whole]
theorem arrw1_2 (c : Dev nD) (Fa : Buf (Elt F) ((c : Thread nD τ).loc main_arg0)) :
    (((cfg1.win 2).arr.view.loc (c : Thread nD τ)) ↦[(cfg1.win 2).arr.view.set]{(dat1 V c).share 2} Fa : sProp 𝕄) = (((c : Thread nD τ).loc main_arg0) ↦{fullShare.right} Fa) := by
  show (((Memref.whole main_arg0 : Memref sig .tc .hbm S8x6x4096 .f32).view.loc (c : Thread nD τ)) ↦[(Memref.whole main_arg0 : Memref sig .tc .hbm S8x6x4096 .f32).view.set]{fullShare.right} Fa : sProp 𝕄) = _
  simp only [Memref.view_whole, View.set_whole]
theorem arrw1_3 (c : Dev nD) (Fa : Buf (Elt F) ((c : Thread nD τ).loc main_arg1)) :
    (((cfg1.win 3).arr.view.loc (c : Thread nD τ)) ↦[(cfg1.win 3).arr.view.set]{(dat1 V c).share 3} Fa : sProp 𝕄) = (((c : Thread nD τ).loc main_arg1) ↦{fullShare.right} Fa) := by
  show (((Memref.whole main_arg1 : Memref sig .tc .hbm S8x6x4096 .f32).view.loc (c : Thread nD τ)) ↦[(Memref.whole main_arg1 : Memref sig .tc .hbm S8x6x4096 .f32).view.set]{fullShare.right} Fa : sProp 𝕄) = _
  simp only [Memref.view_whole, View.set_whole]
theorem arrw1_4 (c : Dev nD) (Fa : Buf (Elt F) ((c : Thread nD τ).loc main_v2)) :
    (((cfg1.win 4).arr.view.loc (c : Thread nD τ)) ↦[(cfg1.win 4).arr.view.set]{(dat1 V c).share 4} Fa : sProp 𝕄) = (((c : Thread nD τ).loc main_v2) ↦{fullShare} Fa) := by
  show (((Memref.whole main_v2 : Memref sig .tc .hbm S8x4096x1 .f32).view.loc (c : Thread nD τ)) ↦[(Memref.whole main_v2 : Memref sig .tc .hbm S8x4096x1 .f32).view.set]{fullShare} Fa : sProp 𝕄) = _
  simp only [Memref.view_whole, View.set_whole]

/-- The arrays of the call: the two clouds each read through two windows, half and half; the output outright. -/
theorem arrays1_eq (c : Dev nD) (Fa : (w : Fin cfg1.W) → Buf (Elt F) ((cfg1.win w).arr.view.loc (c : Thread nD τ))) :
    ((dat1 V c).arrays Fa : sProp 𝕄)
      = iprop((((c : Thread nD τ).loc main_arg1) ↦{fullShare.left} Fa 0) ∗ (((c : Thread nD τ).loc main_arg0) ↦{fullShare.left} Fa 1)
          ∗ (((c : Thread nD τ).loc main_arg0) ↦{fullShare.right} Fa 2) ∗ (((c : Thread nD τ).loc main_arg1) ↦{fullShare.right} Fa 3)
          ∗ (((c : Thread nD τ).loc main_v2) ↦{fullShare} Fa 4)) := by
  unfold Dat.arrays
  rw [bigSep_W1, arrw1_0 V c (Fa 0), arrw1_1 V c (Fa 1), arrw1_2 V c (Fa 2), arrw1_3 V c (Fa 3), arrw1_4 V c (Fa 4)]

/-! ## Call 0: its arrays out of the unscoped buffers and back -/

theorem arrBufs0_eq (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_arg0) ↦{fullShare} Vc main_arg0) ∗ (((c : Thread nD τ).loc main_arg1) ↦{fullShare} Vc main_arg1)
          ∗ (((c : Thread nD τ).loc main_v0) ↦{fullShare} Vc main_v0)) := by
  unfold Pipeline.arrBufs
  exact bigSep_eq_bigSepL_of_eq [main_arg0, main_arg1, main_v0] (by decide) (by decide) _

/-- ENTRY: the unscoped buffers at `Vc` are the call's arrays at those contents and the rest. -/
theorem entry0 (c : Dev nD) :
    (StableHlo.held (c : Thread nD τ) (Pipeline.ucRefs τ sig) (W0 m c) : sProp 𝕄)
      ⊢ iprop((pdats m 0 c).arrays ((pdats m 0 c).arrAt · 0) ∗ Pipeline.unscopedRest (Ix := Unit) (Name := ℕ) (U := UR sig nD τ) (Lvl := ℕ) spec0 c (V0 m c)) := by
  rw [← Pipeline.unscopedBufs_held (Ix := Unit) (Name := ℕ) (U := UR sig nD τ) (Lvl := ℕ) c (W0 m c)]
  rw [Pipeline.unscopedBufs_split₀ cfgs (0 : Fin 2) winFacts₀0.arr_unscoped c (V0 m c)]
  show iprop(Pipeline.arrBufs spec0 c (V0 m c) ∗ Pipeline.unscopedRest spec0 c (V0 m c)) ⊢ iprop((dat0 (V0 m) c).arrays ((dat0 (V0 m) c).arrAt · 0) ∗ Pipeline.unscopedRest spec0 c (V0 m c))
  rw [arrBufs0_eq, arrays0_eq]
  iintro ⟨⟨Ha0, Ha1, Hv⟩, Hrest⟩
  ihave Ha0' := (pointsTo_share (PosShare.mem_left_op_right fullShare)).1 $$ Ha0
  icases Ha0' with ⟨Ha0l, Ha0r⟩
  ihave Ha1' := (pointsTo_share (PosShare.mem_left_op_right fullShare)).1 $$ Ha1
  icases Ha1' with ⟨Ha1l, Ha1r⟩
  isplitr [Hrest]
  · isplitl [Ha0l]; · iexact Ha0l
    isplitl [Ha1l]; · iexact Ha1l
    isplitl [Ha1r]; · iexact Ha1r
    isplitl [Ha0r]; · iexact Ha0r
    iexact Hv
  · iexact Hrest

/-- EXIT: the call's arrays at their final contents and the rest are the unscoped buffers with the output array updated. -/
theorem exit0 (c : Dev nD) :
    iprop((pdats m 0 c).arrays ((pdats m 0 c).arrAt · cfg0.N) ∗ Pipeline.unscopedRest (Ix := Unit) (Name := ℕ) (U := UR sig nD τ) (Lvl := ℕ) spec0 c (V0 m c))
      ⊢ (StableHlo.held (c : Thread nD τ) (Pipeline.ucRefs τ sig) (W1 m c) : sProp 𝕄) := by
  rw [← Pipeline.unscopedBufs_held (Ix := Unit) (Name := ℕ) (U := UR sig nD τ) (Lvl := ℕ) c (W1 m c)]
  rw [Pipeline.unscopedBufs_split₀ cfgs (0 : Fin 2) winFacts₀0.arr_unscoped c (V1 m c)]
  show iprop((dat0 (V0 m) c).arrays ((dat0 (V0 m) c).arrAt · cfg0.N) ∗ Pipeline.unscopedRest spec0 c (V0 m c))
    ⊢ iprop(Pipeline.arrBufs spec0 c (V1 m c) ∗ Pipeline.unscopedRest spec0 c (V1 m c))
  rw [arrBufs0_eq, arrays0_eq]
  have hrest : (Pipeline.unscopedRest (Ix := Unit) (Name := ℕ) (U := UR sig nD τ) (Lvl := ℕ) spec0 c (V1 m c) : sProp 𝕄) = Pipeline.unscopedRest spec0 c (V0 m c) := by
    unfold Pipeline.unscopedRest
    exact bigSep_congr fun b hb => by
      rw [show V1 m c b = V0 m c b from W1_of_ne m c b fun e => (Finset.mem_sdiff.mp hb).2 (Finset.mem_image.mpr ⟨4, Finset.mem_univ _, e.symm⟩)]
  rw [hrest]
  rw [show (dat0 (V0 m) c).arrAt 0 cfg0.N = V0 m c main_arg0 from ((dat0 (V0 m) c).arrAt_in 0 rfl _).trans (A_eq0 (V0 m) c 0),
    show (dat0 (V0 m) c).arrAt 1 cfg0.N = V0 m c main_arg1 from ((dat0 (V0 m) c).arrAt_in 1 rfl _).trans (A_eq0 (V0 m) c 1),
    show (dat0 (V0 m) c).arrAt 2 cfg0.N = V0 m c main_arg1 from ((dat0 (V0 m) c).arrAt_in 2 rfl _).trans (A_eq0 (V0 m) c 2),
    show (dat0 (V0 m) c).arrAt 3 cfg0.N = V0 m c main_arg0 from ((dat0 (V0 m) c).arrAt_in 3 rfl _).trans (A_eq0 (V0 m) c 3)]
  rw [show V1 m c main_arg0 = V0 m c main_arg0 from W1_of_ne m c main_arg0 (by decide),
    show V1 m c main_arg1 = V0 m c main_arg1 from W1_of_ne m c main_arg1 (by decide),
    show V1 m c main_v0 = (dat0 (V0 m) c).arrAt 4 cfg0.N from W1_v0 m c]
  iintro ⟨⟨Hw0, Hw1, Hw2, Hw3, Hw4⟩, Hrest⟩
  isplitr [Hrest]
  · isplitl [Hw0 Hw3]
    · iapply (pointsTo_share (PosShare.mem_left_op_right fullShare)).2
      isplitl [Hw0]; · iexact Hw0
      iexact Hw3
    isplitl [Hw1 Hw2]
    · iapply (pointsTo_share (PosShare.mem_left_op_right fullShare)).2
      isplitl [Hw1]; · iexact Hw1
      iexact Hw2
    iexact Hw4
  · iexact Hrest

/-- After the last point the invariant gives back every scoped buffer at some contents and the generator register. -/
theorem Phi_out0 (c : Dev nD) : (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS, Hc⟩, Hg⟩
  isplitl [HS Hc]
  · isplitl [HS]; · iexists _; iexact HS
    iexact Hc
  iexact Hg

set_option backward.isDefEq.respectTransparency.types false in
/-- Call 0 as a segment: entered from every unscoped buffer at `W0`, left at `W1`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    iintro ⟨⟨Hub, Hp, HO⟩, -, -⟩
    ihave H := (entry0 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ (Pipeline.ΦA spec0 c : sProp 𝕄) from Phi_out0 (V0 m) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit0 m c); isplitl [Ha] <;> iassumption
    isplitl [HY]; · iexact HY
    unfold Pipeline.Dat.owesAt Pipeline.owesWithin
    icases HO with ⟨%W, -, HO⟩; iexists W; iexact HO

/-! ## Call 1: its arrays out of the unscoped buffers and back -/

theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_arg0) ↦{fullShare} Vc main_arg0) ∗ (((c : Thread nD τ).loc main_arg1) ↦{fullShare} Vc main_arg1)
          ∗ (((c : Thread nD τ).loc main_v2) ↦{fullShare} Vc main_v2)) := by
  unfold Pipeline.arrBufs
  exact bigSep_eq_bigSepL_of_eq [main_arg0, main_arg1, main_v2] (by decide) (by decide) _

/-- ENTRY: the unscoped buffers at `Vc` are the call's arrays at those contents and the rest. -/
theorem entry1 (c : Dev nD) :
    (StableHlo.held (c : Thread nD τ) (Pipeline.ucRefs τ sig) (W2 m c) : sProp 𝕄)
      ⊢ iprop((pdats m 1 c).arrays ((pdats m 1 c).arrAt · 0) ∗ Pipeline.unscopedRest (Ix := Unit) (Name := ℕ) (U := UR sig nD τ) (Lvl := ℕ) spec1 c (V2 m c)) := by
  rw [← Pipeline.unscopedBufs_held (Ix := Unit) (Name := ℕ) (U := UR sig nD τ) (Lvl := ℕ) c (W2 m c)]
  rw [Pipeline.unscopedBufs_split₀ cfgs (1 : Fin 2) winFacts₀1.arr_unscoped c (V2 m c)]
  show iprop(Pipeline.arrBufs spec1 c (V2 m c) ∗ Pipeline.unscopedRest spec1 c (V2 m c)) ⊢ iprop((dat1 (V2 m) c).arrays ((dat1 (V2 m) c).arrAt · 0) ∗ Pipeline.unscopedRest spec1 c (V2 m c))
  rw [arrBufs1_eq, arrays1_eq]
  iintro ⟨⟨Ha0, Ha1, Hv⟩, Hrest⟩
  ihave Ha0' := (pointsTo_share (PosShare.mem_left_op_right fullShare)).1 $$ Ha0
  icases Ha0' with ⟨Ha0l, Ha0r⟩
  ihave Ha1' := (pointsTo_share (PosShare.mem_left_op_right fullShare)).1 $$ Ha1
  icases Ha1' with ⟨Ha1l, Ha1r⟩
  isplitr [Hrest]
  · isplitl [Ha1l]; · iexact Ha1l
    isplitl [Ha0l]; · iexact Ha0l
    isplitl [Ha0r]; · iexact Ha0r
    isplitl [Ha1r]; · iexact Ha1r
    iexact Hv
  · iexact Hrest

/-- EXIT: the call's arrays at their final contents and the rest are the unscoped buffers with the output array updated. -/
theorem exit1 (c : Dev nD) :
    iprop((pdats m 1 c).arrays ((pdats m 1 c).arrAt · cfg1.N) ∗ Pipeline.unscopedRest (Ix := Unit) (Name := ℕ) (U := UR sig nD τ) (Lvl := ℕ) spec1 c (V2 m c))
      ⊢ (StableHlo.held (c : Thread nD τ) (Pipeline.ucRefs τ sig) (W3 m c) : sProp 𝕄) := by
  rw [← Pipeline.unscopedBufs_held (Ix := Unit) (Name := ℕ) (U := UR sig nD τ) (Lvl := ℕ) c (W3 m c)]
  rw [Pipeline.unscopedBufs_split₀ cfgs (1 : Fin 2) winFacts₀1.arr_unscoped c (V3 m c)]
  show iprop((dat1 (V2 m) c).arrays ((dat1 (V2 m) c).arrAt · cfg1.N) ∗ Pipeline.unscopedRest spec1 c (V2 m c))
    ⊢ iprop(Pipeline.arrBufs spec1 c (V3 m c) ∗ Pipeline.unscopedRest spec1 c (V3 m c))
  rw [arrBufs1_eq, arrays1_eq]
  have hrest : (Pipeline.unscopedRest (Ix := Unit) (Name := ℕ) (U := UR sig nD τ) (Lvl := ℕ) spec1 c (V3 m c) : sProp 𝕄) = Pipeline.unscopedRest spec1 c (V2 m c) := by
    unfold Pipeline.unscopedRest
    exact bigSep_congr fun b hb => by
      rw [show V3 m c b = V2 m c b from W3_of_ne m c b fun e => (Finset.mem_sdiff.mp hb).2 (Finset.mem_image.mpr ⟨4, Finset.mem_univ _, e.symm⟩)]
  rw [hrest]
  rw [show (dat1 (V2 m) c).arrAt 0 cfg1.N = V2 m c main_arg1 from ((dat1 (V2 m) c).arrAt_in 0 rfl _).trans (A_eq1 (V2 m) c 0),
    show (dat1 (V2 m) c).arrAt 1 cfg1.N = V2 m c main_arg0 from ((dat1 (V2 m) c).arrAt_in 1 rfl _).trans (A_eq1 (V2 m) c 1),
    show (dat1 (V2 m) c).arrAt 2 cfg1.N = V2 m c main_arg0 from ((dat1 (V2 m) c).arrAt_in 2 rfl _).trans (A_eq1 (V2 m) c 2),
    show (dat1 (V2 m) c).arrAt 3 cfg1.N = V2 m c main_arg1 from ((dat1 (V2 m) c).arrAt_in 3 rfl _).trans (A_eq1 (V2 m) c 3)]
  rw [show V3 m c main_arg0 = V2 m c main_arg0 from W3_of_ne m c main_arg0 (by decide),
    show V3 m c main_arg1 = V2 m c main_arg1 from W3_of_ne m c main_arg1 (by decide),
    show V3 m c main_v2 = (dat1 (V2 m) c).arrAt 4 cfg1.N from W3_v2 m c]
  iintro ⟨⟨Hw0, Hw1, Hw2, Hw3, Hw4⟩, Hrest⟩
  isplitr [Hrest]
  · isplitl [Hw1 Hw2]
    · iapply (pointsTo_share (PosShare.mem_left_op_right fullShare)).2
      isplitl [Hw1]; · iexact Hw1
      iexact Hw2
    isplitl [Hw0 Hw3]
    · iapply (pointsTo_share (PosShare.mem_left_op_right fullShare)).2
      isplitl [Hw0]; · iexact Hw0
      iexact Hw3
    iexact Hw4
  · iexact Hrest

/-- After the last point the invariant gives back every scoped buffer at some contents and the generator register. -/
theorem Phi_out1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨HS, Hc⟩, Hg⟩
  isplitl [HS Hc]
  · isplitl [HS]; · iexists _; iexact HS
    iexact Hc
  iexact Hg

set_option backward.isDefEq.respectTransparency.types false in
/-- Call 1 as a segment: entered from every unscoped buffer at `W2`, left at `W3`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from Phi_out1 (V2 m) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c); isplitl [Ha] <;> iassumption
    isplitl [HY]; · iexact HY
    unfold Pipeline.Dat.owesAt Pipeline.owesWithin
    icases HO with ⟨%W, -, HO⟩; iexists W; iexact HO

/-! ## @main as segments, and the launch -/

/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W4 m c) ∗ ∃ r, prngReg c r)

/-- @main's four segments in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state holds each unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => (show iprop(StableHlo.held (c : Thread nD τ) (Pipeline.ucRefs τ sig) (W4 m c) ∗ R c)
        ⊢ (iprop(Tₙ m c ∗ ∃ W, owes (c : Thread nD τ) (0 : CellTallies nD τ sig Unit) W) : sProp 𝕄) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## What the last boundary's contents are -/

theorem W4_arg0 (c : Dev nD) : W4 m c main_arg0 = m ((c : Thread nD τ).loc main_arg0) :=
  (StableHlo.after_of_writes_sub hostOps2 _ hostOps2_writes (by decide)).trans <| (W3_of_ne m c main_arg0 (by decide)).trans <|
    (StableHlo.after_of_writes_sub hostOps1 _ hostOps1_writes (by decide)).trans <| (W1_of_ne m c main_arg0 (by decide)).trans rfl
theorem W4_arg1 (c : Dev nD) : W4 m c main_arg1 = m ((c : Thread nD τ).loc main_arg1) :=
  (StableHlo.after_of_writes_sub hostOps2 _ hostOps2_writes (by decide)).trans <| (W3_of_ne m c main_arg1 (by decide)).trans <|
    (StableHlo.after_of_writes_sub hostOps1 _ hostOps1_writes (by decide)).trans <| (W1_of_ne m c main_arg1 (by decide)).trans rfl
theorem V2_arg0 (c : Dev nD) : V2 m c main_arg0 = m ((c : Thread nD τ).loc main_arg0) :=
  (StableHlo.after_of_writes_sub hostOps1 _ hostOps1_writes (by decide)).trans <| (W1_of_ne m c main_arg0 (by decide)).trans rfl
theorem V2_arg1 (c : Dev nD) : V2 m c main_arg1 = m ((c : Thread nD τ).loc main_arg1) :=
  (StableHlo.after_of_writes_sub hostOps1 _ hostOps1_writes (by decide)).trans <| (W1_of_ne m c main_arg1 (by decide)).trans rfl

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ (mem_uc main_arg0 (by decide))).trans (W4_arg0 m c),
    (h c _ (mem_uc main_arg1 (by decide))).trans (W4_arg1 m c)⟩) (run_main m ρ)

end Cert.KernelIdeal.Run

end
-- ==== Proof.KITile.lean ====
/-
  The kernel's arithmetic read at an index, at the ideal values.

  Both calls run the same body on four staged blocks of shape [1, 6, 1024]: the row-side points `x0` and normals `x1`, the
  column-side points `x2` and normals `x3` (channels 0..2 of a block are the point, 3..5 the normal).  The body forms the
  1024 × 1024 tile

      D r v = (|P_r|² + |Q_v|² − 2 ⟨P_r, Q_v⟩) + κ · (1 − ⟨N_r, M_v⟩),

  takes each row's minimum over the 1024 columns, and keeps the lesser of that and the running minimum `acc` of the row.
  Here every layout operation of the body (the cast that drops the unit batch axis, the cut of three channels, the
  transpose, the re-layouts of a vector as a column or a row, the two broadcasts) is read at an index as the operand at one
  index; a sum along three channels is the three-term sum; the product of a [1024, 3] and a [3, 1024] array into a zero
  accumulator is the three-term sum of products; and a minimum along a row from +∞ is the infimum of the row, carried by its
  universal property.  The results: `pay4_apply` (the squared-distance part), `pay5_apply` (the normal part), `pay1_apply`
  (the update of the running minimum is `min acc (inf_v Dblk r v)`), `pay3_apply` (the initial running minimum is +∞),
  `pay2_apply` (the stored result is the running minimum), and the same for the second call, whose body is textually the
  same.
-/
import proofs.«146518_j67740224192624_1_alg».proof.Proof.Gen.KernelIdeal.Skeleton
import proofs.«146518_j67740224192624_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

open scoped BigOperators

namespace Cert.KernelIdeal.Tile

open Idealize.ShloMosaic Idealize.ShloMosaic.ValueIdx Cert.KernelIdeal Cert.KernelIdeal.Gen
open Cert.Spec (lo hi two one kap Dblk)

/-! ## The body's operations read at an index -/

/-- Point channel `c` of a staged block, through the cast to [6,1024] and the cut of rows 0..2. -/
theorem lo_apply (x : Vec Ideal S1x6x1024 .f32) (c : Fin 3) (v : Fin 1024) :
    extractStridedSlice S3x1024 ![0, 0] (shapeCast S6x1024 x shapeCasts_S1x6x1024_S6x1024) slices_S6x1024_o0_0_S3x1024 (ix2 c v)
      = x (ix3 0 (lo c) v) := by
  refine (slice2_axis0_apply 0 _ _ c v (lo c) (by simp)).trans ?_
  exact shapeCast_1ab_ab_apply x _ (lo c) v

/-- Normal channel `c` of a staged block, through the cast to [6,1024] and the cut of rows 3..5. -/
theorem hi_apply (x : Vec Ideal S1x6x1024 .f32) (c : Fin 3) (v : Fin 1024) :
    extractStridedSlice S3x1024 ![3, 0] (shapeCast S6x1024 x shapeCasts_S1x6x1024_S6x1024) slices_S6x1024_o3_0_S3x1024 (ix2 c v)
      = x (ix3 0 (hi c) v) := by
  refine (slice2_axis0_apply 3 _ _ c v (hi c) (by simp [Nat.add_comm])).trans ?_
  exact shapeCast_1ab_ab_apply x _ (hi c) v

/-- A [3,1024] array transposed reads, at (r, c), the operand at (c, r). -/
theorem tr_apply (y : FVec Ideal S3x1024 .f32) (r : Fin 1024) (c : Fin 3) :
    transpose S1024x3 [1, 0] y transposes_S3x1024_p1_0_S1024x3 (ix2 r c) = y (ix2 c r) :=
  transpose_ix2_apply y _ r c

/-- The sum along the three columns of a [1024,3] array, at row r. -/
theorem rowSum_apply (w : FVec Ideal S1024x3 .f32) (hφ : FKind.Formats .f32) (hacc : (0x00000000#32 : BitVec 32) = 0x00000000#32) (r : Fin 1024) :
    multiReduction .add [1] S1024 w 0x00000000#32 reduces_S1024x3_S1024 hφ hacc (ix1 r) = ∑ c : Fin 3, w (ix2 r c) := by
  refine (Ideal.multiReduction_add_single w 0x00000000#32 reduces_S1024x3_S1024 hφ hacc (ix1 r)).trans ?_
  refine Finset.sum_congr rfl fun c _ => congrArg w (funext fun a => Fin.ext ?_)
  match a with
  | ⟨0, _⟩ => rfl
  | ⟨1, _⟩ => rfl

/-- The sum along the three rows of a [3,1024] array, at column v. -/
theorem colSum_apply (w : FVec Ideal S3x1024 .f32) (hφ : FKind.Formats .f32) (hacc : (0x00000000#32 : BitVec 32) = 0x00000000#32) (v : Fin 1024) :
    multiReduction .add [0] S1024 w 0x00000000#32 reduces_S3x1024_S1024 hφ hacc (ix1 v) = ∑ c : Fin 3, w (ix2 c v) := by
  refine (Ideal.multiReduction_add_single w 0x00000000#32 reduces_S3x1024_S1024 hφ hacc (ix1 v)).trans ?_
  refine Finset.sum_congr rfl fun c _ => congrArg w (funext fun a => Fin.ext ?_)
  match a with
  | ⟨0, _⟩ => rfl
  | ⟨1, _⟩ => rfl

/-- A vector of 1024 entries re-laid as a column reads, at (r, 0), the entry r. -/
theorem col_apply (y : FVec Ideal S1024 .f32) (r : Fin 1024) (u : Fin 1) :
    shapeCast S1024x1 y shapeCasts_S1024_S1024x1 (ix2 r u) = y (ix1 r) :=
  shapeCast_apply y _ _ _ (by
    have hu : u.val = 0 := by omega
    rw [Shape.rowMajor_val_two, Shape.rowMajor_val_one]
    show r.val = r.val * 1 + u.val
    rw [hu, Nat.mul_one, Nat.add_zero])

/-- A vector of 1024 entries re-laid as a row reads, at (0, v), the entry v. -/
theorem row_apply (y : FVec Ideal S1024 .f32) (u : Fin 1) (v : Fin 1024) :
    shapeCast S1x1024 y shapeCasts_S1024_S1x1024 (ix2 u v) = y (ix1 v) :=
  shapeCast_a_1a_apply y _ u v

/-- A column broadcast over 1024 columns reads, at (r, v), the column's entry r. -/
theorem bcol_apply (y : FVec Ideal S1024x1 .f32) (r v : Fin 1024) :
    broadcastTo S1024x1024 y broadcasts_S1024x1_S1024x1024 (ix2 r v) = y (ix2 r 0) := by
  refine broadcastTo_apply y _ (ix2 r v) (ix2 r (0 : Fin 1)) fun ax => ?_
  match ax with
  | ⟨0, _⟩ =>
    show r.val = if (1024 : Nat) = 1 then 0 else r.val
    rw [if_neg (by decide)]
  | ⟨1, _⟩ =>
    show 0 = if (1 : Nat) = 1 then 0 else v.val
    rw [if_pos rfl]

/-- A row broadcast over 1024 rows reads, at (r, v), the row's entry v. -/
theorem brow_apply (y : FVec Ideal S1x1024 .f32) (r v : Fin 1024) :
    broadcastTo S1024x1024 y broadcasts_S1x1024_S1024x1024 (ix2 r v) = y (ix2 0 v) :=
  broadcastTo_1b_ab_apply y _ r v

/-- The dimension numbers of the body's product: rows × contraction times contraction × columns. -/
private abbrev DD := dot_S1024x3_S3x1024_S1024x1024_1_0_0_1_n_n

/-- The product's operand indices at output (i₀, i₁) and contraction coordinate q: (i₀, q) on the left, (q, i₁) on the right. -/
private theorem dd_lhs0 (i : S1024x1024.Idx) (q : DD.contr.Idx) : (DD.lhsIdx i q 0).val = (i 0).val := by
  unfold DotDims.lhsIdx
  rw [dif_neg (show ¬(0 : Fin S1024x3.rank) ∈ DD.lhsBatch by decide), dif_pos (show (0 : Fin S1024x3.rank) ∈ DD.lhsNonContracting by decide)]
  rfl
private theorem dd_lhs1 (i : S1024x1024.Idx) (q : DD.contr.Idx) : (DD.lhsIdx i q 1).val = (q ⟨0, by decide⟩).val :=
  DD.lhsIdx_val_of_single rfl i q
private theorem dd_rhs0 (i : S1024x1024.Idx) (q : DD.contr.Idx) : (DD.rhsIdx i q 0).val = (q ⟨0, by decide⟩).val :=
  DD.rhsIdx_val_of_single rfl i q
private theorem dd_rhs1 (i : S1024x1024.Idx) (q : DD.contr.Idx) : (DD.rhsIdx i q 1).val = (i 1).val := by
  unfold DotDims.rhsIdx
  rw [dif_neg (show ¬(1 : Fin S3x1024.rank) ∈ DD.rhsBatch by decide), dif_pos (show (1 : Fin S3x1024.rank) ∈ DD.rhsNonContracting by decide)]
  rfl

/-- The product of a [1024,3] and a [3,1024] array into a zero accumulator, at (r, v): the three-term sum. -/
theorem mm_apply (l : FVec Ideal S1024x3 .f32) (rr : FVec Ideal S3x1024 .f32) (r v : Fin 1024) :
    matmul dot_S1024x3_S3x1024_S1024x1024_1_0_0_1_n_n none l rr (constant (F := Ideal) S1024x1024 .f32 0x00000000#32) (ix2 r v)
      = ∑ c : Fin 3, l (ix2 r c) * rr (ix2 c v) := by
  simp only [matmul]
  rw [Ideal.matmul_constant_zero_apply, ← Equiv.sum_comp (contrEquiv1 DD 3 rfl rfl).symm]
  refine Finset.sum_congr rfl fun k _ => ?_
  have hk := contrEquiv1_symm_val DD 3 rfl rfl k
  have el : DD.lhsIdx (ix2 r v) ((contrEquiv1 DD 3 rfl rfl).symm k) = ix2 r k := funext fun a => Fin.ext (by
    match a with
    | ⟨0, _⟩ => exact dd_lhs0 _ _
    | ⟨1, _⟩ => exact (dd_lhs1 _ _).trans hk)
  have er : DD.rhsIdx (ix2 r v) ((contrEquiv1 DD 3 rfl rfl).symm k) = ix2 k v := funext fun a => Fin.ext (by
    match a with
    | ⟨0, _⟩ => exact (dd_rhs0 _ _).trans hk
    | ⟨1, _⟩ => exact dd_rhs1 _ _)
  rw [el, er]

/-- The word of +inf is the top of the extended reals. -/
theorem ofBits_inf : Ideal.ofBits .f32 0x7F800000#32 = (⊤ : EReal) := by simp [Ideal.ofBits, Ideal.ieee]

/-- The minimum along the 1024 columns of a [1024,1024] array from +inf, at row r: the least entry of the row. -/
theorem rowMin_apply (w : FVec Ideal S1024x1024 .f32) (hφ : FKind.Formats .f32) (hacc : (0x7F800000#32 : BitVec 32) = 0x7F800000#32) (r : Fin 1024) :
    multiReduction .minimumf [1] S1024 w 0x7F800000#32 reduces_S1024x1024_S1024 hφ hacc (ix1 r)
      = Finset.univ.inf fun v : Fin 1024 => w (ix2 r v) := by
  refine ((multiReduction_minimumf_eq_fold (F := Ideal) w _ reduces_S1024x1024_S1024 hφ hacc (ix1 r)).trans
    (reduces_S1024x1024_S1024.fold_filter_drop_single _ _ w (ix1 r))).trans ?_
  show Finset.fold min (Ideal.ofBits .f32 0x7F800000#32) (fun v : Fin 1024 => w (reduces_S1024x1024_S1024.lift (ix1 r) v)) Finset.univ = _
  have hf : (fun v : Fin 1024 => w (reduces_S1024x1024_S1024.lift (ix1 r) v)) = fun v => w (ix2 r v) :=
    funext fun v => congrArg w (funext fun a => Fin.ext (by
      match a with
      | ⟨0, _⟩ => rfl
      | ⟨1, _⟩ => rfl))
  rw [hf, ofBits_inf]
  refine eq_of_forall_le_iff fun x => ?_
  rw [Finset.le_fold_min, Finset.le_inf_iff]
  exact ⟨fun h => h.2, fun h => ⟨le_top, h⟩⟩

/-! ## The first call's values -/

/-- The squared-distance part of the tile at (r, v): |P_r|² + |Q_v|² − 2 ⟨P_r, Q_v⟩ over the point channels. -/
theorem pay4_apply (x0 x2 : Vec Ideal S1x6x1024 .f32) (r v : Fin 1024) :
    k0_pay4 (F := Ideal) x0 x2 (ix2 r v)
      = ((∑ c : Fin 3, x0 (ix3 0 (lo c) r) * x0 (ix3 0 (lo c) r)) + (∑ c : Fin 3, x2 (ix3 0 (lo c) v) * x2 (ix3 0 (lo c) v)))
        - two * (∑ c : Fin 3, x0 (ix3 0 (lo c) r) * x2 (ix3 0 (lo c) v)) := by
  unfold k0_pay4
  simp only [subf_apply, addf_apply, mulf_apply, broadcast_apply]
  rw [bcol_apply, col_apply, rowSum_apply, brow_apply, row_apply, colSum_apply, mm_apply]
  refine congrArg₂ (· - ·) (congrArg₂ (· + ·) ?_ ?_) (congrArg (two * ·) ?_)
  · refine Finset.sum_congr rfl fun c _ => ?_
    rw [mulf_apply, tr_apply, lo_apply]
  · refine Finset.sum_congr rfl fun c _ => ?_
    rw [mulf_apply, lo_apply]
  · refine Finset.sum_congr rfl fun c _ => ?_
    rw [tr_apply, lo_apply, lo_apply]

/-- The normal part of the tile at (r, v): κ · (1 − ⟨N_r, M_v⟩) over the normal channels. -/
theorem pay5_apply (x1 x3 : Vec Ideal S1x6x1024 .f32) (r v : Fin 1024) :
    k0_pay5 (F := Ideal) x1 x3 (ix2 r v)
      = kap * (one - ∑ c : Fin 3, x1 (ix3 0 (hi c) r) * x3 (ix3 0 (hi c) v)) := by
  unfold k0_pay5
  simp only [subf_apply, mulf_apply, broadcast_apply]
  rw [mm_apply]
  refine congrArg (kap * ·) (congrArg (one - ·) (Finset.sum_congr rfl fun c _ => ?_))
  rw [tr_apply, hi_apply, hi_apply]

/-- The accumulator's update at row r over any two tiles: the least of the old value and the row's least sum. -/
theorem pay1_gen (a b : FVec Ideal S1024x1024 .f32) (acc : Vec Ideal S1024x1 .f32) (r : Fin 1024) :
    k0_pay1 (F := Ideal) a b acc (ix2 r 0)
      = min (acc (ix2 r 0)) (Finset.univ.inf fun v : Fin 1024 => a (ix2 r v) + b (ix2 r v)) := by
  unfold k0_pay1
  simp only [shapeCast_self, minimumf_apply]
  rw [col_apply, rowMin_apply]
  rfl

/-- The accumulator's update at row r on the four staged blocks: the least of the old value and the row's least cost. -/
theorem pay1_apply (x0 x1 x2 x3 : Vec Ideal S1x6x1024 .f32) (acc : Vec Ideal S1024x1 .f32) (r : Fin 1024) :
    k0_pay1 (F := Ideal) (k0_pay4 x0 x2) (k0_pay5 x1 x3) acc (ix2 r 0)
      = min (acc (ix2 r 0)) (Finset.univ.inf fun v : Fin 1024 => Cert.Spec.Dblk x0 x1 x2 x3 r v) := by
  rw [pay1_gen]
  refine congrArg (min _) (congrArg (Finset.inf Finset.univ) (funext fun v => ?_))
  rw [pay4_apply, pay5_apply]
  rfl

/-- The accumulator starts at +∞. -/
theorem pay3_apply (r : Fin 1024) : k0_pay3 (F := Ideal) (ix2 r 0) = (⊤ : EReal) := by
  unfold k0_pay3
  simp only [shapeCast_self]
  exact ofBits_inf

/-- The stored block is the accumulator with a unit batch axis in front. -/
theorem pay2_apply (acc : Vec Ideal S1024x1 .f32) (r : Fin 1024) : k0_pay2 (F := Ideal) acc (ix3 0 r 0) = acc (ix2 r 0) := by
  unfold k0_pay2
  exact shapeCast_ab_1ab_apply acc _ 0 r 0

/-! ## The second call's values: the same body -/

/-- The squared-distance part of the tile at (r, v): |P_r|² + |Q_v|² − 2 ⟨P_r, Q_v⟩ over the point channels. -/
theorem pay4_apply' (x0 x2 : Vec Ideal S1x6x1024 .f32) (r v : Fin 1024) :
    k1_pay4 (F := Ideal) x0 x2 (ix2 r v)
      = ((∑ c : Fin 3, x0 (ix3 0 (lo c) r) * x0 (ix3 0 (lo c) r)) + (∑ c : Fin 3, x2 (ix3 0 (lo c) v) * x2 (ix3 0 (lo c) v)))
        - two * (∑ c : Fin 3, x0 (ix3 0 (lo c) r) * x2 (ix3 0 (lo c) v)) := by
  unfold k1_pay4
  simp only [subf_apply, addf_apply, mulf_apply, broadcast_apply]
  rw [bcol_apply, col_apply, rowSum_apply, brow_apply, row_apply, colSum_apply, mm_apply]
  refine congrArg₂ (· - ·) (congrArg₂ (· + ·) ?_ ?_) (congrArg (two * ·) ?_)
  · refine Finset.sum_congr rfl fun c _ => ?_
    rw [mulf_apply, tr_apply, lo_apply]
  · refine Finset.sum_congr rfl fun c _ => ?_
    rw [mulf_apply, lo_apply]
  · refine Finset.sum_congr rfl fun c _ => ?_
    rw [tr_apply, lo_apply, lo_apply]

/-- The normal part of the tile at (r, v): κ · (1 − ⟨N_r, M_v⟩) over the normal channels. -/
theorem pay5_apply' (x1 x3 : Vec Ideal S1x6x1024 .f32) (r v : Fin 1024) :
    k1_pay5 (F := Ideal) x1 x3 (ix2 r v)
      = kap * (one - ∑ c : Fin 3, x1 (ix3 0 (hi c) r) * x3 (ix3 0 (hi c) v)) := by
  unfold k1_pay5
  simp only [subf_apply, mulf_apply, broadcast_apply]
  rw [mm_apply]
  refine congrArg (kap * ·) (congrArg (one - ·) (Finset.sum_congr rfl fun c _ => ?_))
  rw [tr_apply, hi_apply, hi_apply]

/-- The accumulator's update at row r over any two tiles: the least of the old value and the row's least sum. -/
theorem pay1_gen' (a b : FVec Ideal S1024x1024 .f32) (acc : Vec Ideal S1024x1 .f32) (r : Fin 1024) :
    k1_pay1 (F := Ideal) a b acc (ix2 r 0)
      = min (acc (ix2 r 0)) (Finset.univ.inf fun v : Fin 1024 => a (ix2 r v) + b (ix2 r v)) := by
  unfold k1_pay1
  simp only [shapeCast_self, minimumf_apply]
  rw [col_apply, rowMin_apply]
  rfl

/-- The accumulator's update at row r on the four staged blocks: the least of the old value and the row's least cost. -/
theorem pay1_apply' (x0 x1 x2 x3 : Vec Ideal S1x6x1024 .f32) (acc : Vec Ideal S1024x1 .f32) (r : Fin 1024) :
    k1_pay1 (F := Ideal) (k1_pay4 x0 x2) (k1_pay5 x1 x3) acc (ix2 r 0)
      = min (acc (ix2 r 0)) (Finset.univ.inf fun v : Fin 1024 => Cert.Spec.Dblk x0 x1 x2 x3 r v) := by
  rw [pay1_gen']
  refine congrArg (min _) (congrArg (Finset.inf Finset.univ) (funext fun v => ?_))
  rw [pay4_apply', pay5_apply']
  rfl

/-- The accumulator starts at +∞. -/
theorem pay3_apply' (r : Fin 1024) : k1_pay3 (F := Ideal) (ix2 r 0) = (⊤ : EReal) := by
  unfold k1_pay3
  simp only [shapeCast_self]
  exact ofBits_inf

/-- The stored block is the accumulator with a unit batch axis in front. -/
theorem pay2_apply' (acc : Vec Ideal S1024x1 .f32) (r : Fin 1024) : k1_pay2 (F := Ideal) acc (ix3 0 r 0) = acc (ix2 r 0) := by
  unfold k1_pay2
  exact shapeCast_ab_1ab_apply acc _ 0 r 0

end Cert.KernelIdeal.Tile

end
-- ==== Proof.Tiles.lean ====
/-
  The cost array by tiles of 1024 columns.

  Column 1024·r + y of an [8, 6, 4096] array is column y of its r-th tile of 1024 columns.  The cost between two
  columns read through their tiles is the cost between the columns themselves (`Dblk_blk`), and since every column
  q < 4096 is 1024·v + x for exactly one tile v < 4 and one x < 1024, the least cost from a row to any column is the
  running minimum, started from +∞, of the least costs to the columns of tile 0, 1, 2 and 3 (`tiles_min`).
-/
import proofs.«146518_j67740224192624_1_alg».proof.Proof.Spec

noncomputable section

open scoped BigOperators

namespace Cert.Spec

open Idealize.ShloMosaic Idealize.ShloMosaic.ValueIdx

/-- Column y of tile r: column 1024·r + y of the 4096. -/
abbrev tcol (r : Fin 4) (y : Fin 1024) : Fin 4096 :=
  ⟨1024 * r.val + y.val, by have := y.isLt; have := r.isLt; omega⟩

/-- Every column lies in exactly one tile: q = 1024·(q / 1024) + q % 1024. -/
theorem exists_tcol (q : Fin 4096) : ∃ (v : Fin 4) (x : Fin 1024), q = tcol v x :=
  ⟨⟨q.val / 1024, by have := q.isLt; omega⟩, ⟨q.val % 1024, Nat.mod_lt _ (by decide)⟩,
    Fin.ext (Nat.div_add_mod q.val 1024).symm⟩

/-- Row tile r (1024 points) of batch n of an [8,6,4096] array, as a [1,6,1024] block. -/
def blk (X : SA.Idx → EReal) (n : Fin 8) (r : Fin 4) : SB.Idx → EReal :=
  fun j => X (ix3 n (j 1) ⟨1024 * r.val + (j 2).val, by have h : (j 2).val < 1024 := (j 2).isLt; have := r.isLt; omega⟩)

/-- The block at channel c and column y is the array at channel c and column 1024·r + y. -/
theorem blk_apply (X : SA.Idx → EReal) (n : Fin 8) (r : Fin 4) (c : Fin 6) (y : Fin 1024) :
    blk X n r (ix3 0 c y) = X (ix3 n c (tcol r y)) := rfl

/-- The cost between column y of tile r and column x of tile v, read on the blocks, is the cost between columns
    1024·r + y and 1024·v + x of the arrays. -/
theorem Dblk_blk (P N Q M : SA.Idx → EReal) (n : Fin 8) (r v : Fin 4) (y x : Fin 1024) :
    Dblk (blk P n r) (blk N n r) (blk Q n v) (blk M n v) y x = D P N Q M n (tcol r y) (tcol v x) := rfl

/-- The least cost from column y of row tile r to the columns of column tile v. -/
def tileMin (P N Q M : SA.Idx → EReal) (n : Fin 8) (r v : Fin 4) (y : Fin 1024) : EReal :=
  Finset.univ.inf fun x : Fin 1024 => Dblk (blk P n r) (blk N n r) (blk Q n v) (blk M n v) y x

/-- An infimum over the 4096 columns is the running minimum, from +∞, of the infima over the four tiles. -/
theorem inf_tiles (f : Fin 4096 → EReal) :
    min (min (min (min (⊤ : EReal) (Finset.univ.inf fun x : Fin 1024 => f (tcol 0 x))) (Finset.univ.inf fun x : Fin 1024 => f (tcol 1 x)))
        (Finset.univ.inf fun x : Fin 1024 => f (tcol 2 x))) (Finset.univ.inf fun x : Fin 1024 => f (tcol 3 x))
      = Finset.univ.inf f := by
  refine le_antisymm (Finset.le_inf_iff.mpr fun q _ => ?_) ?_
  · obtain ⟨v, x, rfl⟩ := exists_tcol q
    have hx : (Finset.univ.inf fun x : Fin 1024 => f (tcol v x)) ≤ f (tcol v x) := Finset.inf_le (Finset.mem_univ x)
    refine le_trans ?_ hx
    match v with
    | ⟨0, _⟩ => exact (min_le_left _ _).trans ((min_le_left _ _).trans ((min_le_left _ _).trans (min_le_right _ _)))
    | ⟨1, _⟩ => exact (min_le_left _ _).trans ((min_le_left _ _).trans (min_le_right _ _))
    | ⟨2, _⟩ => exact (min_le_left _ _).trans (min_le_right _ _)
    | ⟨3, _⟩ => exact min_le_right _ _
  · have h : ∀ v : Fin 4, Finset.univ.inf f ≤ Finset.univ.inf fun x : Fin 1024 => f (tcol v x) :=
      fun v => Finset.le_inf_iff.mpr fun x _ => Finset.inf_le (Finset.mem_univ (tcol v x))
    exact le_min (le_min (le_min (le_min le_top (h 0)) (h 1)) (h 2)) (h 3)

/-- the row minimum over all 4096 columns is the running minimum over the four column tiles, started from +∞ -/
theorem tiles_min (P N Q M : SA.Idx → EReal) (n : Fin 8) (r : Fin 4) (y : Fin 1024) :
    min (min (min (min (⊤ : EReal) (tileMin P N Q M n r 0 y)) (tileMin P N Q M n r 1 y)) (tileMin P N Q M n r 2 y)) (tileMin P N Q M n r 3 y)
      = rowMin P N Q M n (tcol r y) :=
  inf_tiles fun q => D P N Q M n (tcol r y) q

end Cert.Spec

end
-- ==== Proof.KI.Value0.lean ====
/-
  The value of the first call's output array, at the ideal values.

  The call walks a grid of 8 × 4 × 4 points: point 16·n + 4·r + v works on batch n, on row tile r (columns 1024·r … 1024·r + 1023
  of the first cloud, with its normals) and on column tile v of the second cloud.  Along a row of column tiles, v = 0, 1, 2, 3, the
  accumulator starts from +∞ and at each point takes, for every column y of the row tile, the least of what it held and the least
  cost from column 1024·r + y to the columns of column tile v; after v = 3 it therefore holds the least cost to ALL 4096 columns
  (the running minimum over the four tiles is the minimum over their union), and that point writes it back as block (n, r, 0) of
  the [8, 4096, 1] output.  The 32 written blocks tile the output, so the array ends holding, at (n, p, 0), the least cost from
  column p of batch n to any column: `out0_apply`.

  The steps: the printed index maps decided once over the 128 points (`idx_facts`); each staged block as a tile of its array
  (`iblk_0` … `iblk_3`); one point's step on those tiles (`step_at`); the accumulator after each of the four points of a row of
  column tiles (`acc_0` … `acc_3`); what a last point writes back (`flushed_eq`); the cover (`out0_eq`).
-/
import proofs.«146518_j67740224192624_1_alg».proof.Proof.KI.Region0
import proofs.«146518_j67740224192624_1_alg».proof.Proof.KITile
import proofs.«146518_j67740224192624_1_alg».proof.Proof.Tiles
import Idealize.ShloMosaic.Lib.Pipeline.Value

noncomputable section

namespace Cert.KernelIdeal.R0

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spec (blk tcol tileMin rowMin Dblk)

variable (V : (c : Dev nD) → (b : Ref sig .tc) → Buf (Elt Ideal) ((c : Thread nD τ).loc b))

/-! ## The staged blocks as tiles of the arrays -/

/-- The printed index maps, decided once over the grid: at point t = 16·n + 4·r + v the row-side windows take block (n, 0, r),
    the column-side windows block (n, 0, v), the output window block (n, r, 0). -/
theorem idx_facts : ∀ t : Fin cfg0.N,
    win0_0.index t (0 : Fin 3) = t.val / 16 ∧ win0_0.index t (1 : Fin 3) = 0 ∧ win0_0.index t (2 : Fin 3) = t.val / 4 % 4
    ∧ win0_1.index t (0 : Fin 3) = t.val / 16 ∧ win0_1.index t (1 : Fin 3) = 0 ∧ win0_1.index t (2 : Fin 3) = t.val / 4 % 4
    ∧ win0_2.index t (0 : Fin 3) = t.val / 16 ∧ win0_2.index t (1 : Fin 3) = 0 ∧ win0_2.index t (2 : Fin 3) = t.val % 4
    ∧ win0_3.index t (0 : Fin 3) = t.val / 16 ∧ win0_3.index t (1 : Fin 3) = 0 ∧ win0_3.index t (2 : Fin 3) = t.val % 4
    ∧ win0_4.index t (0 : Fin 3) = t.val / 16 ∧ win0_4.index t (1 : Fin 3) = t.val / 4 % 4 ∧ win0_4.index t (2 : Fin 3) = 0 :=
  (by decide +kernel : ∀ t : Fin grid0.N, _)

/-- Window 0's block at a point of batch n and row tile r is row tile r of batch n of the first array. -/
theorem iblk_0 (c : Dev nD) (t : Fin cfg0.N) (n : Fin 8) (r : Fin 4) (hn : t.val / 16 = n.val) (hr : t.val / 4 % 4 = r.val) :
    (iblk0 V c 0 t : Vec Ideal S1x6x1024 .f32) = blk (V c main_arg0) n r := by
  obtain ⟨e0, e1, e2, -⟩ := idx_facts t
  funext j
  unfold iblk0
  rw [View.read_apply]
  show V c main_arg0 (((cfg0.win 0).blk t).view.emb j) = V c main_arg0 _
  refine congrArg (V c main_arg0) (funext fun a => Fin.ext ?_)
  have h1 : (j 1).val < 6 := (j 1).isLt
  have h2 : (j 2).val < 1024 := (j 2).isLt
  have h0 : (j 0).val < 1 := (j 0).isLt
  match a with
  | ⟨0, _⟩ => show win0_0.index t (0 : Fin 3) * 1 + 1 * (j 0).val = n.val; rw [e0, hn]; omega
  | ⟨1, _⟩ => show win0_0.index t (1 : Fin 3) * 6 + 1 * (j 1).val = (j 1).val; rw [e1]; omega
  | ⟨2, _⟩ => show win0_0.index t (2 : Fin 3) * 1024 + 1 * (j 2).val = 1024 * r.val + (j 2).val; rw [e2, hr]; omega

/-- Window 1's block: row tile r of batch n of the second array. -/
theorem iblk_1 (c : Dev nD) (t : Fin cfg0.N) (n : Fin 8) (r : Fin 4) (hn : t.val / 16 = n.val) (hr : t.val / 4 % 4 = r.val) :
    (iblk0 V c 1 t : Vec Ideal S1x6x1024 .f32) = blk (V c main_arg1) n r := by
  obtain ⟨-, -, -, e0, e1, e2, -⟩ := idx_facts t
  funext j
  unfold iblk0
  rw [View.read_apply]
  show V c main_arg1 (((cfg0.win 1).blk t).view.emb j) = V c main_arg1 _
  refine congrArg (V c main_arg1) (funext fun a => Fin.ext ?_)
  have h1 : (j 1).val < 6 := (j 1).isLt
  have h2 : (j 2).val < 1024 := (j 2).isLt
  have h0 : (j 0).val < 1 := (j 0).isLt
  match a with
  | ⟨0, _⟩ => show win0_1.index t (0 : Fin 3) * 1 + 1 * (j 0).val = n.val; rw [e0, hn]; omega
  | ⟨1, _⟩ => show win0_1.index t (1 : Fin 3) * 6 + 1 * (j 1).val = (j 1).val; rw [e1]; omega
  | ⟨2, _⟩ => show win0_1.index t (2 : Fin 3) * 1024 + 1 * (j 2).val = 1024 * r.val + (j 2).val; rw [e2, hr]; omega

/-- Window 2's block: column tile v of batch n of the second array. -/
theorem iblk_2 (c : Dev nD) (t : Fin cfg0.N) (n : Fin 8) (v : Fin 4) (hn : t.val / 16 = n.val) (hv : t.val % 4 = v.val) :
    (iblk0 V c 2 t : Vec Ideal S1x6x1024 .f32) = blk (V c main_arg1) n v := by
  obtain ⟨-, -, -, -, -, -, e0, e1, e2, -⟩ := idx_facts t
  funext j
  unfold iblk0
  rw [View.read_apply]
  show V c main_arg1 (((cfg0.win 2).blk t).view.emb j) = V c main_arg1 _
  refine congrArg (V c main_arg1) (funext fun a => Fin.ext ?_)
  have h1 : (j 1).val < 6 := (j 1).isLt
  have h2 : (j 2).val < 1024 := (j 2).isLt
  have h0 : (j 0).val < 1 := (j 0).isLt
  match a with
  | ⟨0, _⟩ => show win0_2.index t (0 : Fin 3) * 1 + 1 * (j 0).val = n.val; rw [e0, hn]; omega
  | ⟨1, _⟩ => show win0_2.index t (1 : Fin 3) * 6 + 1 * (j 1).val = (j 1).val; rw [e1]; omega
  | ⟨2, _⟩ => show win0_2.index t (2 : Fin 3) * 1024 + 1 * (j 2).val = 1024 * v.val + (j 2).val; rw [e2, hv]; omega

/-- Window 3's block: column tile v of batch n of the first array. -/
theorem iblk_3 (c : Dev nD) (t : Fin cfg0.N) (n : Fin 8) (v : Fin 4) (hn : t.val / 16 = n.val) (hv : t.val % 4 = v.val) :
    (iblk0 V c 3 t : Vec Ideal S1x6x1024 .f32) = blk (V c main_arg0) n v := by
  obtain ⟨-, -, -, -, -, -, -, -, -, e0, e1, e2, -⟩ := idx_facts t
  funext j
  unfold iblk0
  rw [View.read_apply]
  show V c main_arg0 (((cfg0.win 3).blk t).view.emb j) = V c main_arg0 _
  refine congrArg (V c main_arg0) (funext fun a => Fin.ext ?_)
  have h1 : (j 1).val < 6 := (j 1).isLt
  have h2 : (j 2).val < 1024 := (j 2).isLt
  have h0 : (j 0).val < 1 := (j 0).isLt
  match a with
  | ⟨0, _⟩ => show win0_3.index t (0 : Fin 3) * 1 + 1 * (j 0).val = n.val; rw [e0, hn]; omega
  | ⟨1, _⟩ => show win0_3.index t (1 : Fin 3) * 6 + 1 * (j 1).val = (j 1).val; rw [e1]; omega
  | ⟨2, _⟩ => show win0_3.index t (2 : Fin 3) * 1024 + 1 * (j 2).val = 1024 * v.val + (j 2).val; rw [e2, hv]; omega

/-- One point's step at row y, at the point of batch n, row tile r and column tile v: the least of the old value and the
    least cost from column y of the row tile to the columns of the column tile. -/
theorem step_at (c : Dev nD) (t : Fin cfg0.N) (n : Fin 8) (r v : Fin 4) (ht : t.val = 16 * n.val + 4 * r.val + v.val)
    (a : Vec Ideal S1024x1 .f32) (y : Fin 1024) :
    step0 (iblk0 V c 0 t) (iblk0 V c 1 t) (iblk0 V c 2 t) (iblk0 V c 3 t) a (ix2 y 0)
      = min (a (ix2 y 0)) (tileMin (V c main_arg0) (V c main_arg1) (V c main_arg1) (V c main_arg0) n r v y) := by
  have hn : t.val / 16 = n.val := by have := r.isLt; have := v.isLt; omega
  have hr : t.val / 4 % 4 = r.val := by have := r.isLt; have := v.isLt; omega
  have hv : t.val % 4 = v.val := by have := r.isLt; have := v.isLt; omega
  rw [iblk_0 V c t n r hn hr, iblk_1 V c t n r hn hr, iblk_2 V c t n v hn hv, iblk_3 V c t n v hn hv]
  exact Tile.pay1_apply _ _ _ _ a y

/-! ## The accumulator along a row of column tiles -/

section Acc
variable (c : Dev nD) (n : Fin 8) (r : Fin 4) (y : Fin 1024)

/-- The least cost from column y of row tile r of batch n to the columns of column tile v. -/
local notation "T" => tileMin (V c main_arg0) (V c main_arg1) (V c main_arg1) (V c main_arg0) n r

/-- After the first column tile. -/
theorem acc_0 (m : ℕ) (hm : m < cfg0.N) (h : m = 16 * n.val + 4 * r.val) :
    acc0 V c m hm (ix2 y 0) = min (⊤ : EReal) (T 0 y) := by
  refine (congrFun (acc0_first V c ⟨m, hm⟩ (by show m % 4 = 0; omega)) _).trans ?_
  rw [step_at V c ⟨m, hm⟩ n r 0 (by show m = _; simp only [Fin.val_zero]; omega), Tile.pay3_apply]

/-- After the second. -/
theorem acc_1 (m : ℕ) (hm : m < cfg0.N) (h : m = 16 * n.val + 4 * r.val + 1) :
    acc0 V c m hm (ix2 y 0) = min (min (⊤ : EReal) (T 0 y)) (T 1 y) := by
  refine (congrFun (acc0_next V c ⟨m, hm⟩ (by show ¬m % 4 = 0; omega)) _).trans ?_
  rw [step_at V c ⟨m, hm⟩ n r 1 (by show m = _; simp only [Fin.val_one]; omega)]
  show min (acc0 V c (m - 1) _ (ix2 y 0)) _ = _
  rw [acc_0 V c n r y (m - 1) _ (by omega)]

/-- After the third. -/
theorem acc_2 (m : ℕ) (hm : m < cfg0.N) (h : m = 16 * n.val + 4 * r.val + 2) :
    acc0 V c m hm (ix2 y 0) = min (min (min (⊤ : EReal) (T 0 y)) (T 1 y)) (T 2 y) := by
  refine (congrFun (acc0_next V c ⟨m, hm⟩ (by show ¬m % 4 = 0; omega)) _).trans ?_
  rw [step_at V c ⟨m, hm⟩ n r 2 (by show m = _; simp only [Fin.val_two]; omega)]
  show min (acc0 V c (m - 1) _ (ix2 y 0)) _ = _
  rw [acc_1 V c n r y (m - 1) _ (by omega)]

/-- After the fourth: the least cost from the column to every column of the batch. -/
theorem acc_3 (m : ℕ) (hm : m < cfg0.N) (h : m = 16 * n.val + 4 * r.val + 3) :
    acc0 V c m hm (ix2 y 0) = rowMin (V c main_arg0) (V c main_arg1) (V c main_arg1) (V c main_arg0) n (tcol r y) := by
  refine (congrFun (acc0_next V c ⟨m, hm⟩ (by show ¬m % 4 = 0; omega)) _).trans ?_
  rw [step_at V c ⟨m, hm⟩ n r 3 (by show m = _; simp only [show ((3 : Fin 4) : ℕ) = 3 from rfl]; omega)]
  show min (acc0 V c (m - 1) _ (ix2 y 0)) _ = _
  rw [acc_2 V c n r y (m - 1) _ (by omega)]
  exact Cert.Spec.tiles_min _ _ _ _ n r y

end Acc

/-! ## The output array -/

/-- What the output array ends holding: at (n, p, 0), the least cost from column p of batch n to any column of the batch. -/
def G0 (c : Dev nD) : Buf (Elt Ideal) ((cfg0.win 4).arr.view.loc (c.tc : Thread nD τ)) :=
  fun i : S8x4096x1.Idx => rowMin (V c main_arg0) (V c main_arg1) (V c main_arg1) (V c main_arg0) (i 0) (i 1)

/-- What a last point of a row of column tiles writes back is its block of `G0`. -/
theorem flushed_eq (c : Dev nD) (t : Fin cfg0.N) (hf : (cfg0.win 4).flush t = true) :
    (dat0 V c).flushed 4 t = ((cfg0.win 4).blk t).view.read (Elt Ideal) (G0 V c) := by
  have hN : cfg0.N = 128 := N_0
  have ht : t.val < 128 := lt_of_lt_of_eq t.isLt hN
  have h3 : t.val % 4 = 3 := (flush0_4 t).mp hf
  obtain ⟨-, -, -, -, -, -, -, -, -, -, -, -, e0, e1, e2⟩ := idx_facts t
  show (cfg0.win 4).cut (grid0.coords t) ((dat0 V c).after 4 t) = _
  rw [after0_4]
  funext j
  rw [View.read_apply]
  have h0 : (j 0).val < 1 := (j 0).isLt
  have h1 : (j 1).val < 1024 := (j 1).isLt
  have h2 : (j 2).val < 1 := (j 2).isLt
  show k0_pay2 (acc0 V c t.val t.isLt) ((cfg0.win 4).xinj (grid0.coords t) j) = G0 V c (((cfg0.win 4).blk t).view.emb j)
  have hj : (cfg0.win 4).xinj (grid0.coords t) j = ix3 (0 : Fin 1) (⟨(j 1).val, h1⟩ : Fin 1024) (0 : Fin 1) :=
    funext fun a => Fin.ext (by
      match a with
      | ⟨0, _⟩ => show (j 0).val = 0; omega
      | ⟨1, _⟩ => rfl
      | ⟨2, _⟩ => show (j 2).val = 0; omega)
  have hi : ((cfg0.win 4).blk t).view.emb j
      = ix3 (⟨t.val / 16, by omega⟩ : Fin 8) (tcol ⟨t.val / 4 % 4, Nat.mod_lt _ (by decide)⟩ ⟨(j 1).val, h1⟩) (0 : Fin 1) :=
    funext fun a => Fin.ext (by
      match a with
      | ⟨0, _⟩ => show win0_4.index t (0 : Fin 3) * 1 + 1 * (j 0).val = t.val / 16; rw [e0]; omega
      | ⟨1, _⟩ => show win0_4.index t (1 : Fin 3) * 1024 + 1 * (j 1).val = 1024 * (t.val / 4 % 4) + (j 1).val; rw [e1]; omega
      | ⟨2, _⟩ => show win0_4.index t (2 : Fin 3) * 1 + 1 * (j 2).val = 0; rw [e2]; omega)
  rw [hj, hi, Tile.pay2_apply]
  exact acc_3 V c ⟨t.val / 16, by omega⟩ ⟨t.val / 4 % 4, Nat.mod_lt _ (by decide)⟩ ⟨(j 1).val, h1⟩ t.val t.isLt (by show t.val = 16 * (t.val / 16) + 4 * (t.val / 4 % 4) + 3; omega)

/-- The output array after the call. -/
theorem out0_eq (c : Dev nD) : (dat0 V c).arrAt 4 cfg0.N = G0 V c :=
  (dat0 V c).arrAt_eq_of_cover 4 (G0 V c) (flushed_eq V c) fun i => by
    have hN : cfg0.N = 128 := N_0
    have h0 : (i 0).val < 8 := (i 0).isLt
    have h1 : (i 1).val < 4096 := (i 1).isLt
    have h2 : (i 2).val < 1 := (i 2).isLt
    have htN : 16 * (i 0).val + 4 * ((i 1).val / 1024) + 3 < cfg0.N := by rw [hN]; omega
    refine ⟨⟨16 * (i 0).val + 4 * ((i 1).val / 1024) + 3, htN⟩, (flush0_4 _).mpr (by show (16 * (i 0).val + 4 * ((i 1).val / 1024) + 3) % 4 = 3; omega), ?_⟩
    obtain ⟨-, -, -, -, -, -, -, -, -, -, -, -, e0, e1, e2⟩ := idx_facts ⟨16 * (i 0).val + 4 * ((i 1).val / 1024) + 3, htN⟩
    show i ∈ ((View.whole main_v0).slice (win0_4.rect ⟨16 * (i 0).val + 4 * ((i 1).val / 1024) + 3, htN⟩)).set
    rw [View.set_slice_whole, Rect.mem_set_unit]
    intro a
    match a with
    | ⟨0, _⟩ =>
      show win0_4.index ⟨16 * (i 0).val + 4 * ((i 1).val / 1024) + 3, htN⟩ (0 : Fin 3) * 1 ≤ (i 0).val ∧ (i 0).val < win0_4.index ⟨16 * (i 0).val + 4 * ((i 1).val / 1024) + 3, htN⟩ (0 : Fin 3) * 1 + 1
      rw [e0]; show (16 * (i 0).val + 4 * ((i 1).val / 1024) + 3) / 16 * 1 ≤ _ ∧ _ < (16 * (i 0).val + 4 * ((i 1).val / 1024) + 3) / 16 * 1 + 1; omega
    | ⟨1, _⟩ =>
      show win0_4.index ⟨16 * (i 0).val + 4 * ((i 1).val / 1024) + 3, htN⟩ (1 : Fin 3) * 1024 ≤ (i 1).val ∧ (i 1).val < win0_4.index ⟨16 * (i 0).val + 4 * ((i 1).val / 1024) + 3, htN⟩ (1 : Fin 3) * 1024 + 1024
      rw [e1]; show (16 * (i 0).val + 4 * ((i 1).val / 1024) + 3) / 4 % 4 * 1024 ≤ _ ∧ _ < (16 * (i 0).val + 4 * ((i 1).val / 1024) + 3) / 4 % 4 * 1024 + 1024; omega
    | ⟨2, _⟩ =>
      show win0_4.index ⟨16 * (i 0).val + 4 * ((i 1).val / 1024) + 3, htN⟩ (2 : Fin 3) * 1 ≤ (i 2).val ∧ (i 2).val < win0_4.index ⟨16 * (i 0).val + 4 * ((i 1).val / 1024) + 3, htN⟩ (2 : Fin 3) * 1 + 1
      rw [e2]; omega

/-- The first call's output array at (n, p, 0): the least cost from column p of batch n of the first cloud to the columns of
    the second. -/
theorem out0_apply (c : Dev nD) (n : Fin 8) (p : Fin 4096) :
    (dat0 (F := Ideal) V c).arrAt 4 cfg0.N (ix3 n p 0)
      = rowMin (V c main_arg0) (V c main_arg1) (V c main_arg1) (V c main_arg0) n p := by
  rw [out0_eq V c]
  rfl

end Cert.KernelIdeal.R0

end
-- ==== Proof.KI.Value1.lean ====
/-
  The value of the second call's output array, at the ideal values.

  The second call runs the same body on the same grid of 8 × 4 × 4 points with the two clouds exchanged: point 16·n + 4·r + v works
  on batch n, on row tile r of the second cloud (with its normals) and on column tile v of the first.  Along a row of column tiles
  the accumulator starts from +∞ and at each point takes, for every column y of the row tile, the least of what it held and the
  least cost from column 1024·r + y to the columns of column tile v; after v = 3 it holds the least cost to all 4096 columns, and
  that point writes it back as block (n, r, 0) of the [8, 4096, 1] output.  The 32 written blocks tile the output, so the array
  ends holding, at (n, p, 0), the least cost from column p of batch n of the second cloud to any column of the first:
  `out1_apply`.

  The steps are those of the first call: the printed index maps decided once over the 128 points (`idx_facts`); each staged block
  as a tile of its array (`iblk_0` … `iblk_3`); one point's step on those tiles (`step_at`); the accumulator after each of the four
  points of a row of column tiles (`acc_0` … `acc_3`); what a last point writes back (`flushed_eq`); the cover (`out1_eq`).
-/
import proofs.«146518_j67740224192624_1_alg».proof.Proof.KI.Region1
import proofs.«146518_j67740224192624_1_alg».proof.Proof.KITile
import proofs.«146518_j67740224192624_1_alg».proof.Proof.Tiles
import Idealize.ShloMosaic.Lib.Pipeline.Value

noncomputable section

namespace Cert.KernelIdeal.R1

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spec (blk tcol tileMin rowMin Dblk)

variable (V : (c : Dev nD) → (b : Ref sig .tc) → Buf (Elt Ideal) ((c : Thread nD τ).loc b))

/-! ## The staged blocks as tiles of the arrays -/

/-- The printed index maps, decided once over the grid: at point t = 16·n + 4·r + v the row-side windows take block (n, 0, r),
    the column-side windows block (n, 0, v), the output window block (n, r, 0). -/
theorem idx_facts : ∀ t : Fin cfg1.N,
    win1_0.index t (0 : Fin 3) = t.val / 16 ∧ win1_0.index t (1 : Fin 3) = 0 ∧ win1_0.index t (2 : Fin 3) = t.val / 4 % 4
    ∧ win1_1.index t (0 : Fin 3) = t.val / 16 ∧ win1_1.index t (1 : Fin 3) = 0 ∧ win1_1.index t (2 : Fin 3) = t.val / 4 % 4
    ∧ win1_2.index t (0 : Fin 3) = t.val / 16 ∧ win1_2.index t (1 : Fin 3) = 0 ∧ win1_2.index t (2 : Fin 3) = t.val % 4
    ∧ win1_3.index t (0 : Fin 3) = t.val / 16 ∧ win1_3.index t (1 : Fin 3) = 0 ∧ win1_3.index t (2 : Fin 3) = t.val % 4
    ∧ win1_4.index t (0 : Fin 3) = t.val / 16 ∧ win1_4.index t (1 : Fin 3) = t.val / 4 % 4 ∧ win1_4.index t (2 : Fin 3) = 0 :=
  (by decide +kernel : ∀ t : Fin grid1.N, _)

/-- Window 0's block at a point of batch n and row tile r is row tile r of batch n of the second array. -/
theorem iblk_0 (c : Dev nD) (t : Fin cfg1.N) (n : Fin 8) (r : Fin 4) (hn : t.val / 16 = n.val) (hr : t.val / 4 % 4 = r.val) :
    (iblk1 V c 0 t : Vec Ideal S1x6x1024 .f32) = blk (V c main_arg1) n r := by
  obtain ⟨e0, e1, e2, -⟩ := idx_facts t
  funext j
  unfold iblk1
  rw [View.read_apply]
  show V c main_arg1 (((cfg1.win 0).blk t).view.emb j) = V c main_arg1 _
  refine congrArg (V c main_arg1) (funext fun a => Fin.ext ?_)
  have h1 : (j 1).val < 6 := (j 1).isLt
  have h2 : (j 2).val < 1024 := (j 2).isLt
  have h0 : (j 0).val < 1 := (j 0).isLt
  match a with
  | ⟨0, _⟩ => show win1_0.index t (0 : Fin 3) * 1 + 1 * (j 0).val = n.val; rw [e0, hn]; omega
  | ⟨1, _⟩ => show win1_0.index t (1 : Fin 3) * 6 + 1 * (j 1).val = (j 1).val; rw [e1]; omega
  | ⟨2, _⟩ => show win1_0.index t (2 : Fin 3) * 1024 + 1 * (j 2).val = 1024 * r.val + (j 2).val; rw [e2, hr]; omega

/-- Window 1's block: row tile r of batch n of the first array. -/
theorem iblk_1 (c : Dev nD) (t : Fin cfg1.N) (n : Fin 8) (r : Fin 4) (hn : t.val / 16 = n.val) (hr : t.val / 4 % 4 = r.val) :
    (iblk1 V c 1 t : Vec Ideal S1x6x1024 .f32) = blk (V c main_arg0) n r := by
  obtain ⟨-, -, -, e0, e1, e2, -⟩ := idx_facts t
  funext j
  unfold iblk1
  rw [View.read_apply]
  show V c main_arg0 (((cfg1.win 1).blk t).view.emb j) = V c main_arg0 _
  refine congrArg (V c main_arg0) (funext fun a => Fin.ext ?_)
  have h1 : (j 1).val < 6 := (j 1).isLt
  have h2 : (j 2).val < 1024 := (j 2).isLt
  have h0 : (j 0).val < 1 := (j 0).isLt
  match a with
  | ⟨0, _⟩ => show win1_1.index t (0 : Fin 3) * 1 + 1 * (j 0).val = n.val; rw [e0, hn]; omega
  | ⟨1, _⟩ => show win1_1.index t (1 : Fin 3) * 6 + 1 * (j 1).val = (j 1).val; rw [e1]; omega
  | ⟨2, _⟩ => show win1_1.index t (2 : Fin 3) * 1024 + 1 * (j 2).val = 1024 * r.val + (j 2).val; rw [e2, hr]; omega

/-- Window 2's block: column tile v of batch n of the first array. -/
theorem iblk_2 (c : Dev nD) (t : Fin cfg1.N) (n : Fin 8) (v : Fin 4) (hn : t.val / 16 = n.val) (hv : t.val % 4 = v.val) :
    (iblk1 V c 2 t : Vec Ideal S1x6x1024 .f32) = blk (V c main_arg0) n v := by
  obtain ⟨-, -, -, -, -, -, e0, e1, e2, -⟩ := idx_facts t
  funext j
  unfold iblk1
  rw [View.read_apply]
  show V c main_arg0 (((cfg1.win 2).blk t).view.emb j) = V c main_arg0 _
  refine congrArg (V c main_arg0) (funext fun a => Fin.ext ?_)
  have h1 : (j 1).val < 6 := (j 1).isLt
  have h2 : (j 2).val < 1024 := (j 2).isLt
  have h0 : (j 0).val < 1 := (j 0).isLt
  match a with
  | ⟨0, _⟩ => show win1_2.index t (0 : Fin 3) * 1 + 1 * (j 0).val = n.val; rw [e0, hn]; omega
  | ⟨1, _⟩ => show win1_2.index t (1 : Fin 3) * 6 + 1 * (j 1).val = (j 1).val; rw [e1]; omega
  | ⟨2, _⟩ => show win1_2.index t (2 : Fin 3) * 1024 + 1 * (j 2).val = 1024 * v.val + (j 2).val; rw [e2, hv]; omega

/-- Window 3's block: column tile v of batch n of the second array. -/
theorem iblk_3 (c : Dev nD) (t : Fin cfg1.N) (n : Fin 8) (v : Fin 4) (hn : t.val / 16 = n.val) (hv : t.val % 4 = v.val) :
    (iblk1 V c 3 t : Vec Ideal S1x6x1024 .f32) = blk (V c main_arg1) n v := by
  obtain ⟨-, -, -, -, -, -, -, -, -, e0, e1, e2, -⟩ := idx_facts t
  funext j
  unfold iblk1
  rw [View.read_apply]
  show V c main_arg1 (((cfg1.win 3).blk t).view.emb j) = V c main_arg1 _
  refine congrArg (V c main_arg1) (funext fun a => Fin.ext ?_)
  have h1 : (j 1).val < 6 := (j 1).isLt
  have h2 : (j 2).val < 1024 := (j 2).isLt
  have h0 : (j 0).val < 1 := (j 0).isLt
  match a with
  | ⟨0, _⟩ => show win1_3.index t (0 : Fin 3) * 1 + 1 * (j 0).val = n.val; rw [e0, hn]; omega
  | ⟨1, _⟩ => show win1_3.index t (1 : Fin 3) * 6 + 1 * (j 1).val = (j 1).val; rw [e1]; omega
  | ⟨2, _⟩ => show win1_3.index t (2 : Fin 3) * 1024 + 1 * (j 2).val = 1024 * v.val + (j 2).val; rw [e2, hv]; omega

/-- One point's step at row y, at the point of batch n, row tile r and column tile v: the least of the old value and the
    least cost from column y of the row tile to the columns of the column tile. -/
theorem step_at (c : Dev nD) (t : Fin cfg1.N) (n : Fin 8) (r v : Fin 4) (ht : t.val = 16 * n.val + 4 * r.val + v.val)
    (a : Vec Ideal S1024x1 .f32) (y : Fin 1024) :
    step1 (iblk1 V c 0 t) (iblk1 V c 1 t) (iblk1 V c 2 t) (iblk1 V c 3 t) a (ix2 y 0)
      = min (a (ix2 y 0)) (tileMin (V c main_arg1) (V c main_arg0) (V c main_arg0) (V c main_arg1) n r v y) := by
  have hn : t.val / 16 = n.val := by have := r.isLt; have := v.isLt; omega
  have hr : t.val / 4 % 4 = r.val := by have := r.isLt; have := v.isLt; omega
  have hv : t.val % 4 = v.val := by have := r.isLt; have := v.isLt; omega
  rw [iblk_0 V c t n r hn hr, iblk_1 V c t n r hn hr, iblk_2 V c t n v hn hv, iblk_3 V c t n v hn hv]
  exact Tile.pay1_apply' _ _ _ _ a y

/-! ## The accumulator along a row of column tiles -/

section Acc
variable (c : Dev nD) (n : Fin 8) (r : Fin 4) (y : Fin 1024)

/-- The least cost from column y of row tile r of batch n to the columns of column tile v. -/
local notation "T" => tileMin (V c main_arg1) (V c main_arg0) (V c main_arg0) (V c main_arg1) n r

/-- After the first column tile. -/
theorem acc_0 (m : ℕ) (hm : m < cfg1.N) (h : m = 16 * n.val + 4 * r.val) :
    acc1 V c m hm (ix2 y 0) = min (⊤ : EReal) (T 0 y) := by
  refine (congrFun (acc1_first V c ⟨m, hm⟩ (by show m % 4 = 0; omega)) _).trans ?_
  rw [step_at V c ⟨m, hm⟩ n r 0 (by show m = _; simp only [Fin.val_zero]; omega), Tile.pay3_apply']

/-- After the second. -/
theorem acc_1 (m : ℕ) (hm : m < cfg1.N) (h : m = 16 * n.val + 4 * r.val + 1) :
    acc1 V c m hm (ix2 y 0) = min (min (⊤ : EReal) (T 0 y)) (T 1 y) := by
  refine (congrFun (acc1_next V c ⟨m, hm⟩ (by show ¬m % 4 = 0; omega)) _).trans ?_
  rw [step_at V c ⟨m, hm⟩ n r 1 (by show m = _; simp only [Fin.val_one]; omega)]
  show min (acc1 V c (m - 1) _ (ix2 y 0)) _ = _
  rw [acc_0 V c n r y (m - 1) _ (by omega)]

/-- After the third. -/
theorem acc_2 (m : ℕ) (hm : m < cfg1.N) (h : m = 16 * n.val + 4 * r.val + 2) :
    acc1 V c m hm (ix2 y 0) = min (min (min (⊤ : EReal) (T 0 y)) (T 1 y)) (T 2 y) := by
  refine (congrFun (acc1_next V c ⟨m, hm⟩ (by show ¬m % 4 = 0; omega)) _).trans ?_
  rw [step_at V c ⟨m, hm⟩ n r 2 (by show m = _; simp only [Fin.val_two]; omega)]
  show min (acc1 V c (m - 1) _ (ix2 y 0)) _ = _
  rw [acc_1 V c n r y (m - 1) _ (by omega)]

/-- After the fourth: the least cost from the column to every column of the batch. -/
theorem acc_3 (m : ℕ) (hm : m < cfg1.N) (h : m = 16 * n.val + 4 * r.val + 3) :
    acc1 V c m hm (ix2 y 0) = rowMin (V c main_arg1) (V c main_arg0) (V c main_arg0) (V c main_arg1) n (tcol r y) := by
  refine (congrFun (acc1_next V c ⟨m, hm⟩ (by show ¬m % 4 = 0; omega)) _).trans ?_
  rw [step_at V c ⟨m, hm⟩ n r 3 (by show m = _; simp only [show ((3 : Fin 4) : ℕ) = 3 from rfl]; omega)]
  show min (acc1 V c (m - 1) _ (ix2 y 0)) _ = _
  rw [acc_2 V c n r y (m - 1) _ (by omega)]
  exact Cert.Spec.tiles_min _ _ _ _ n r y

end Acc

/-! ## The output array -/

/-- What the output array ends holding: at (n, p, 0), the least cost from column p of batch n to any column of the batch. -/
def G1 (c : Dev nD) : Buf (Elt Ideal) ((cfg1.win 4).arr.view.loc (c.tc : Thread nD τ)) :=
  fun i : S8x4096x1.Idx => rowMin (V c main_arg1) (V c main_arg0) (V c main_arg0) (V c main_arg1) (i 0) (i 1)

/-- What a last point of a row of column tiles writes back is its block of `G1`. -/
theorem flushed_eq (c : Dev nD) (t : Fin cfg1.N) (hf : (cfg1.win 4).flush t = true) :
    (dat1 V c).flushed 4 t = ((cfg1.win 4).blk t).view.read (Elt Ideal) (G1 V c) := by
  have hN : cfg1.N = 128 := N_1
  have ht : t.val < 128 := lt_of_lt_of_eq t.isLt hN
  have h3 : t.val % 4 = 3 := (flush1_4 t).mp hf
  obtain ⟨-, -, -, -, -, -, -, -, -, -, -, -, e0, e1, e2⟩ := idx_facts t
  show (cfg1.win 4).cut (grid1.coords t) ((dat1 V c).after 4 t) = _
  rw [after1_4]
  funext j
  rw [View.read_apply]
  have h0 : (j 0).val < 1 := (j 0).isLt
  have h1 : (j 1).val < 1024 := (j 1).isLt
  have h2 : (j 2).val < 1 := (j 2).isLt
  show k1_pay2 (acc1 V c t.val t.isLt) ((cfg1.win 4).xinj (grid1.coords t) j) = G1 V c (((cfg1.win 4).blk t).view.emb j)
  have hj : (cfg1.win 4).xinj (grid1.coords t) j = ix3 (0 : Fin 1) (⟨(j 1).val, h1⟩ : Fin 1024) (0 : Fin 1) :=
    funext fun a => Fin.ext (by
      match a with
      | ⟨0, _⟩ => show (j 0).val = 0; omega
      | ⟨1, _⟩ => rfl
      | ⟨2, _⟩ => show (j 2).val = 0; omega)
  have hi : ((cfg1.win 4).blk t).view.emb j
      = ix3 (⟨t.val / 16, by omega⟩ : Fin 8) (tcol ⟨t.val / 4 % 4, Nat.mod_lt _ (by decide)⟩ ⟨(j 1).val, h1⟩) (0 : Fin 1) :=
    funext fun a => Fin.ext (by
      match a with
      | ⟨0, _⟩ => show win1_4.index t (0 : Fin 3) * 1 + 1 * (j 0).val = t.val / 16; rw [e0]; omega
      | ⟨1, _⟩ => show win1_4.index t (1 : Fin 3) * 1024 + 1 * (j 1).val = 1024 * (t.val / 4 % 4) + (j 1).val; rw [e1]; omega
      | ⟨2, _⟩ => show win1_4.index t (2 : Fin 3) * 1 + 1 * (j 2).val = 0; rw [e2]; omega)
  rw [hj, hi, Tile.pay2_apply']
  exact acc_3 V c ⟨t.val / 16, by omega⟩ ⟨t.val / 4 % 4, Nat.mod_lt _ (by decide)⟩ ⟨(j 1).val, h1⟩ t.val t.isLt (by show t.val = 16 * (t.val / 16) + 4 * (t.val / 4 % 4) + 3; omega)

/-- The output array after the call. -/
theorem out1_eq (c : Dev nD) : (dat1 V c).arrAt 4 cfg1.N = G1 V c :=
  (dat1 V c).arrAt_eq_of_cover 4 (G1 V c) (flushed_eq V c) fun i => by
    have hN : cfg1.N = 128 := N_1
    have h0 : (i 0).val < 8 := (i 0).isLt
    have h1 : (i 1).val < 4096 := (i 1).isLt
    have h2 : (i 2).val < 1 := (i 2).isLt
    have htN : 16 * (i 0).val + 4 * ((i 1).val / 1024) + 3 < cfg1.N := by rw [hN]; omega
    refine ⟨⟨16 * (i 0).val + 4 * ((i 1).val / 1024) + 3, htN⟩, (flush1_4 _).mpr (by show (16 * (i 0).val + 4 * ((i 1).val / 1024) + 3) % 4 = 3; omega), ?_⟩
    obtain ⟨-, -, -, -, -, -, -, -, -, -, -, -, e0, e1, e2⟩ := idx_facts ⟨16 * (i 0).val + 4 * ((i 1).val / 1024) + 3, htN⟩
    show i ∈ ((View.whole main_v2).slice (win1_4.rect ⟨16 * (i 0).val + 4 * ((i 1).val / 1024) + 3, htN⟩)).set
    rw [View.set_slice_whole, Rect.mem_set_unit]
    intro a
    match a with
    | ⟨0, _⟩ =>
      show win1_4.index ⟨16 * (i 0).val + 4 * ((i 1).val / 1024) + 3, htN⟩ (0 : Fin 3) * 1 ≤ (i 0).val ∧ (i 0).val < win1_4.index ⟨16 * (i 0).val + 4 * ((i 1).val / 1024) + 3, htN⟩ (0 : Fin 3) * 1 + 1
      rw [e0]; show (16 * (i 0).val + 4 * ((i 1).val / 1024) + 3) / 16 * 1 ≤ _ ∧ _ < (16 * (i 0).val + 4 * ((i 1).val / 1024) + 3) / 16 * 1 + 1; omega
    | ⟨1, _⟩ =>
      show win1_4.index ⟨16 * (i 0).val + 4 * ((i 1).val / 1024) + 3, htN⟩ (1 : Fin 3) * 1024 ≤ (i 1).val ∧ (i 1).val < win1_4.index ⟨16 * (i 0).val + 4 * ((i 1).val / 1024) + 3, htN⟩ (1 : Fin 3) * 1024 + 1024
      rw [e1]; show (16 * (i 0).val + 4 * ((i 1).val / 1024) + 3) / 4 % 4 * 1024 ≤ _ ∧ _ < (16 * (i 0).val + 4 * ((i 1).val / 1024) + 3) / 4 % 4 * 1024 + 1024; omega
    | ⟨2, _⟩ =>
      show win1_4.index ⟨16 * (i 0).val + 4 * ((i 1).val / 1024) + 3, htN⟩ (2 : Fin 3) * 1 ≤ (i 2).val ∧ (i 2).val < win1_4.index ⟨16 * (i 0).val + 4 * ((i 1).val / 1024) + 3, htN⟩ (2 : Fin 3) * 1 + 1
      rw [e2]; omega

/-- The second call's output array at (n, p, 0): the least cost from column p of batch n of the second cloud to the columns of
    the first. -/
theorem out1_apply (c : Dev nD) (n : Fin 8) (p : Fin 4096) :
    (dat1 (F := Ideal) V c).arrAt 4 cfg1.N (ix3 n p 0)
      = rowMin (V c main_arg1) (V c main_arg0) (V c main_arg0) (V c main_arg1) n p := by
  rw [out1_eq V c]
  rfl

end Cert.KernelIdeal.R1

end
-- ==== Proof.KI.Final.lean ====
/-
  The program's result at the ideal values.

  After the two calls the program reshapes each call's [8, 4096, 1] output to [8, 4096], sums each of the two arrays over
  both axes from the zero word, adds the two sums and divides by the word for 8.  The first call's output holds, at
  (n, p, 0), the least cost from column p of the first cloud to the columns of the second; the second call's, run with the
  two clouds exchanged, holds at (n, q, 0) the least cost from column q of the second cloud to the columns of the first,
  which is the least cost TO column q over the columns of the first cloud (exchanging the clouds exchanges rows and
  columns of the cost).  Dropping the trailing unit axis keeps each entry: (n, p) of the reshaped array is (n, p, 0) of the
  output.  So the last buffer holds the closing function — the same one the reference ends with — of the array of row
  minima and the array of column minima of the cost between the two arguments: `W4_v7`.
-/
import proofs.«146518_j67740224192624_1_alg».proof.Proof.KI.Run
import proofs.«146518_j67740224192624_1_alg».proof.Proof.KI.Value0
import proofs.«146518_j67740224192624_1_alg».proof.Proof.RefValue
import proofs.«146518_j67740224192624_1_alg».proof.Proof.KI.Value1
import Idealize.ShloMosaic.Lib.Pipeline.Value

noncomputable section

namespace Cert.KernelIdeal.Run

open Cert.KernelIdeal Cert.KernelIdeal.Gen
open Idealize.ShloMosaic Idealize.ShloMosaic.TcCoe Idealize.ShloMosaic.ValueIdx
open Idealize.SL.Sem

/-! ## A trailing unit axis dropped by a reshape -/

/-- An [a, b, 1] array viewed [a, b] reads, at (i, j), the operand at (i, j, 0): the two indices have the same row-major
    position, (i·b + j)·1 + 0 = i·b + j. -/
theorem shapeCast_ab1_ab_apply {α : Type} {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-! ## The closing sums and the division, kept closed -/

/-- The two [8,4096] arrays summed, the sums added and divided by 8: the reference's closing function, spelt over this
    program's shapes. -/
def kTail (X Y : FVec Ideal S8x4096 .f32) : FVec Ideal S_ .f32 :=
  Host.divf (F := Ideal) (addf (Host.reduceAdd (F := Ideal) X (constant (F := Ideal) S_ .f32 0x00000000#32) reducesTo_S8x4096_S_d0_1 h_S_) (Host.reduceAdd (F := Ideal) Y (constant (F := Ideal) S_ .f32 0x00000000#32) reducesTo_S8x4096_S_d0_1 h_S_)) (constant (F := Ideal) S_ .f32 0x41000000#32)

/-- It is the reference's: the two programs' shapes are the same shapes. -/
theorem kTail_eq (X Y : FVec Ideal S8x4096 .f32) : kTail X Y = Cert.ReferenceIdeal.RefValue.tail X Y := rfl

variable (m : (ℓ : Loc nD τ sig) → Buf (Elt Ideal) ℓ) (c : Dev nD)

/-- The last host stretch: the result is the closing function of the first call's reshaped output and the second's. -/
theorem W4_v7_kTail :
    W4 (F := Ideal) m c main_v7
      = kTail (W3 m c main_v1) (shapeCast S8x4096 (W3 m c main_v2) shapeCasts_S8x4096x1_S8x4096) := by
  show StableHlo.after hostOps2 (W3 m c) (Proc.devRef .tc main_v7) = _
  after_results
  rfl

/-- The first call's output, reshaped to [8, 4096]: the least cost from each column of the first cloud to the second's. -/
theorem W3_v1 :
    (W3 (F := Ideal) m c main_v1 : FVec Ideal S8x4096 .f32)
      = fun i => Cert.Spec.rowMin (m ((c.tc : Thread nD τ).loc main_arg0)) (m ((c.tc : Thread nD τ).loc main_arg1))
          (m ((c.tc : Thread nD τ).loc main_arg1)) (m ((c.tc : Thread nD τ).loc main_arg0)) (i 0) (i 1) := by
  rw [W3_of_ne m c main_v1 (by decide)]
  show StableHlo.after hostOps1 (W1 m c) (Proc.devRef .tc main_v1) = _
  after_results
  rw [W1_v0, R0.out0_eq]
  funext i
  obtain ⟨n, p, rfl⟩ : ∃ (n : Fin 8) (p : Fin 4096), i = ix2 n p := ⟨i 0, i 1, eq_ix2 i⟩
  exact shapeCast_ab1_ab_apply (R0.G0 (V0 m) c) shapeCasts_S8x4096x1_S8x4096 n p

/-- The second call's output, reshaped to [8, 4096]: the least cost from each column of the second cloud to the first's,
    which is the least cost to that column from the first cloud's. -/
theorem W3_v2_cast :
    (shapeCast S8x4096 (W3 (F := Ideal) m c main_v2) shapeCasts_S8x4096x1_S8x4096 : FVec Ideal S8x4096 .f32)
      = fun i => Cert.Spec.colMin (m ((c.tc : Thread nD τ).loc main_arg0)) (m ((c.tc : Thread nD τ).loc main_arg1))
          (m ((c.tc : Thread nD τ).loc main_arg1)) (m ((c.tc : Thread nD τ).loc main_arg0)) (i 0) (i 1) := by
  rw [W3_v2, R1.out1_eq]
  funext i
  obtain ⟨n, p, rfl⟩ : ∃ (n : Fin 8) (p : Fin 4096), i = ix2 n p := ⟨i 0, i 1, eq_ix2 i⟩
  refine (shapeCast_ab1_ab_apply (R1.G1 (V2 m) c) shapeCasts_S8x4096x1_S8x4096 n p).trans ?_
  show Cert.Spec.rowMin (V2 m c main_arg1) (V2 m c main_arg0) (V2 m c main_arg0) (V2 m c main_arg1) n p = _
  rw [V2_arg0, V2_arg1]
  exact Cert.Spec.rowMin_swap _ _ n p

/-- THE RESULT: the program's last buffer holds the reference's closing function of the row and column minima of the cost
    between the two argument clouds. -/
theorem W4_v7 :
    W4 (F := Ideal) m c main_v7
      = Cert.ReferenceIdeal.RefValue.tail
          (fun i => Cert.Spec.rowMin (m ((c.tc : Thread nD τ).loc main_arg0)) (m ((c.tc : Thread nD τ).loc main_arg1))
            (m ((c.tc : Thread nD τ).loc main_arg1)) (m ((c.tc : Thread nD τ).loc main_arg0)) (i 0) (i 1))
          (fun i => Cert.Spec.colMin (m ((c.tc : Thread nD τ).loc main_arg0)) (m ((c.tc : Thread nD τ).loc main_arg1))
            (m ((c.tc : Thread nD τ).loc main_arg1)) (m ((c.tc : Thread nD τ).loc main_arg0)) (i 0) (i 1)) :=
  (W4_v7_kTail m c).trans ((kTail_eq _ _).trans (congrArg₂ Cert.ReferenceIdeal.RefValue.tail (W3_v1 m c) (W3_v2_cast m c)))

end Cert.KernelIdeal.Run

end
-- ==== Proof.lean ====
/-
  The symmetric chamfer cost with normals of two clouds of 4096 points, over eight batches, computed two ways.

  Both programs form, per batch n, the pairwise costs  d(i, j) = (|a_i|² + |b_j|² − 2 ⟨a_i, b_j⟩) + κ · (1 − ⟨b̃_i, ã_j⟩)
  (a_i, b_j the point channels, ã, b̃ the normal channels), sum the row minima min_j d(i, j) and the column minima
  min_i d(i, j) over all batches, add the two sums and divide by 8.  The reference materialises d whole.  The kernel never
  does: each of its two calls walks an 8 × 4 × 4 grid of (batch, row tile, column tile), keeps in a [1024, 1] accumulator
  the running minimum over the four column tiles of a row tile — reset to +∞ at the first, written out after the last —
  and the second call is the first on the exchanged clouds, so that its row minima are the reference's column minima:
  the cost of the exchanged pair is the transposed cost, because sums and products of extended reals commute.  A
  minimum over 4096 columns is the minimum of the four minima over 1024 columns, whatever the order: no law used here
  needs finiteness, so the precondition is never opened.

  The frames: each call is a pipeline region whose body obligation is proved per grid point in three cases (first, middle
  and last column tile); an argument array read through two windows of one call is held half and half inside the region.
  The three frame claims, the empty list of rewrites, and the equality of the two results follow.
-/
import proofs.«146518_j67740224192624_1_alg».proof.Defs
import proofs.«146518_j67740224192624_1_alg».proof.Proof.Gen.Kernel
import proofs.«146518_j67740224192624_1_alg».proof.Proof.Gen.KernelIdeal
import proofs.«146518_j67740224192624_1_alg».proof.Proof.Gen.ReferenceIdeal
import proofs.«146518_j67740224192624_1_alg».proof.Proof.Gen.Pre_finite_inputs
import proofs.«146518_j67740224192624_1_alg».proof.Proof.Gen.ReferenceIdeal.Run
import proofs.«146518_j67740224192624_1_alg».proof.Proof.RefValue
import proofs.«146518_j67740224192624_1_alg».proof.Proof.KB.Run
import proofs.«146518_j67740224192624_1_alg».proof.Proof.KI.Run
import proofs.«146518_j67740224192624_1_alg».proof.Proof.KI.Final
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Run.frame (F := Bits) m ρ

/-- So does the program read at the ideal instance. -/
theorem frame_ki : Cert.frame_KernelIdeal := fun m ρ _ => Cert.KernelIdeal.Run.frame (F := Ideal) m ρ

/-- The reference is a line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the same extended real: the sums of the row and column minima of the pairwise costs, over 8. -/
theorem algebraic : Cert.algebraic_KernelIdeal_ReferenceIdeal := by
  intro m ρ m' ρ' _ hagree
  refine ⟨fun c => Cert.KernelIdeal.Run.W4 (F := Ideal) m c Cert.KernelIdeal.main_v7, ?_, ?_⟩
  · exact (θ_run Cert.KernelIdeal.defs _ _).mono (fun _ h c =>
      ⟨h c _ (Cert.KernelIdeal.Run.mem_uc Cert.KernelIdeal.main_v7 (by decide)),
        (h c _ (Cert.KernelIdeal.Run.mem_uc Cert.KernelIdeal.main_arg0 (by decide))).trans (Cert.KernelIdeal.Run.W4_arg0 m c),
        (h c _ (Cert.KernelIdeal.Run.mem_uc Cert.KernelIdeal.main_arg1 (by decide))).trans (Cert.KernelIdeal.Run.W4_arg1 m c)⟩)
      (Cert.KernelIdeal.Run.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_eq, (hagree c).1, (hagree c).2]
    exact (Cert.KernelIdeal.Run.W4_v7 m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
